-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x16 .f32) (main_arg11 : FVec F S16 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x16 .f32 := Host.absf main_arg10
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x16 .f32) (main_arg11 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x16 .f32) (main_arg11 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S4000x256 : Shape := ⟨2, ![4000, 256]⟩
abbrev S4000x128 : Shape := ⟨2, ![4000, 128]⟩
abbrev S1700000x128 : Shape := ⟨2, ![1700000, 128]⟩
abbrev S1x128 : Shape := ⟨2, ![1, 128]⟩
abbrev S100000x16 : Shape := ⟨2, ![100000, 16]⟩
abbrev S4000x16 : Shape := ⟨2, ![4000, 16]⟩
abbrev S1x16 : Shape := ⟨2, ![1, 16]⟩
abbrev S4000 : Shape := ⟨1, ![4000]⟩
abbrev S4000x1 : Shape := ⟨2, ![4000, 1]⟩

abbrev nBuf : Space → Nat
  | .hbm => 125
  | .vmem => 46
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x16, .f32⟩
  | .hbm, ⟨11, _⟩ => ⟨S16, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x1, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x128, .f32⟩
  | .hbm, ⟨98, _⟩ => ⟨S1700000x1, .f32⟩
  | .hbm, ⟨99, _⟩ => ⟨S1700000x128, .f32⟩
  | .hbm, ⟨100, _⟩ => ⟨S1700000x128, .f32⟩
  | .hbm, ⟨101, _⟩ => ⟨S_, .f32⟩
  | .hbm, ⟨102, _⟩ => ⟨S100000x128, .f32⟩
  | .hbm, ⟨103, _⟩ => ⟨S1700000x1, .i32⟩
  | .hbm, ⟨104, _⟩ => ⟨S100000x128, .f32⟩
  | .hbm, ⟨105, _⟩ => ⟨S100000x128, .f32⟩
  | .hbm, ⟨106, _⟩ => ⟨S100000x128, .f32⟩
  | .hbm, ⟨107, _⟩ => ⟨S_, .i32⟩
  | .hbm, ⟨108, _⟩ => ⟨S1700000, .i32⟩
  | .hbm, ⟨109, _⟩ => ⟨S1700000, .i1⟩
  | .hbm, ⟨110, _⟩ => ⟨S_, .i32⟩
  | .hbm, ⟨111, _⟩ => ⟨S1700000, .i32⟩
  | .hbm, ⟨112, _⟩ => ⟨S1700000, .i32⟩
  | .hbm, ⟨113, _⟩ => ⟨S1700000, .i32⟩
  | .hbm, ⟨114, _⟩ => ⟨S1700000x1, .i32⟩
  | .hbm, ⟨115, _⟩ => ⟨S1700000x128, .f32⟩
  | .hbm, ⟨116, _⟩ => ⟨S1700000x1, .f32⟩
  | .hbm, ⟨117, _⟩ => ⟨S1700000x128, .f32⟩
  | .hbm, ⟨118, _⟩ => ⟨S1700000x128, .f32⟩
  | .hbm, ⟨119, _⟩ => ⟨S_, .f32⟩
  | .hbm, ⟨120, _⟩ => ⟨S100000x128, .f32⟩
  | .hbm, ⟨121, _⟩ => ⟨S1700000x1, .i32⟩
  | .hbm, ⟨122, _⟩ => ⟨S100000x128, .f32⟩
  | .hbm, ⟨123, _⟩ => ⟨S100000x128, .f32⟩
  | .hbm, ⟨124, _⟩ => ⟨S100000x16, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S128x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S128x16, .f32⟩
  | .local _ .vmem, ⟨43, _⟩ => ⟨S16, .f32⟩
  | .local _ .vmem, ⟨44, _⟩ => ⟨S4000x16, .f32⟩
  | .local _ .vmem, ⟨45, _⟩ => ⟨S4000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_9 : Ref sig .tc := ⟨.hbm, 71, rfl⟩
abbrev main_v46 : Ref sig .tc := ⟨.hbm, 72, rfl⟩
abbrev main_v47 : Ref sig .tc := ⟨.hbm, 73, rfl⟩
abbrev main_c_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_12 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_15 : Ref sig .tc := ⟨.hbm, 107, rfl⟩
abbrev main_v76 : Ref sig .tc := ⟨.hbm, 108, rfl⟩
abbrev main_v77 : Ref sig .tc := ⟨.hbm, 109, rfl⟩
abbrev main_c_16 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_17 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg3_0 : Ref sig .tc := ⟨.vmem, 44, rfl⟩
abbrev cc8_stg3_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem3_0 : DmaSem sig := 44
abbrev cc8_sem3_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S4000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x16 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S16 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S4000x16 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S4000x16 : S1x16.Broadcasts S4000x16
  reduces_S4000x16_S4000 : S4000x16.Reduces [1] S4000
  shapeCasts_S4000_S4000x1 : S4000.ShapeCasts S4000x1
  broadcasts_S4000x1_S4000x16 : S4000x1.Broadcasts S4000x16
  inb_S4000x16_S4000x16_0_0 : ∀ a, (![0, 0] : Fin 2 → Nat) a + S4000x16.size a ≤ S4000x16.size a
  h_S4000x16 : 0 < S4000x16.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x256_S256x128_S4000x128_1_0_0_1_n_n_wf : DotDims.WF S4000x256 S256x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x128_S4000x128_1_0_0_1_n_n_wf : DotDims.WF S4000x128 S128x128 S4000x128 [1] [0] [0] [1] [] []
  dot_S4000x128_S128x16_S4000x16_1_0_0_1_n_n_wf : DotDims.WF S4000x128 S128x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S100000x128.size a
  hwx4_2 : ∀ i : grid4.Coords, EltTy.bits .f32 = 32 ∨ (Rect.block (s := S100000x128) S4000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x128.size a ≤ S100000x128.size a
  hwx5_2 : ∀ i : grid5.Coords, EltTy.bits .f32 = 32 ∨ (Rect.block (s := S100000x128) S4000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .f32 = 32 ∨ (Rect.block (s := S100000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x128.size a ≤ S100000x128.size a
  hwx6_2 : ∀ i : grid6.Coords, EltTy.bits .f32 = 32 ∨ (Rect.block (s := S100000x128) S4000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S100000x128.size a
  hwx7_0 : ∀ i : grid7.Coords, EltTy.bits .f32 = 32 ∨ (Rect.block (s := S100000x128) S4000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128.size a ≤ S128.size a
  hwx7_1 : ∀ i : grid7.Coords, EltTy.bits .f32 = 32 ∨ (Rect.block (s := S128) S128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x128.size a ≤ S100000x128.size a
  hwx7_2 : ∀ i : grid7.Coords, EltTy.bits .f32 = 32 ∨ (Rect.block (s := S100000x128) S4000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x128.size a ≤ S100000x128.size a
  hwx8_0 : ∀ i : grid8.Coords, EltTy.bits .f32 = 32 ∨ (Rect.block (s := S100000x128) S4000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x16.size a ≤ S128x16.size a
  hwx8_1 : ∀ i : grid8.Coords, EltTy.bits .f32 = 32 ∨ (Rect.block (s := S128x16) S128x16.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S16.size a ≤ S16.size a
  hwx8_2 : ∀ i : grid8.Coords, EltTy.bits .f32 = 32 ∨ (Rect.block (s := S16) S16.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4000x16.size a ≤ S100000x16.size a
  hwx8_3 : ∀ i : grid8.Coords, EltTy.bits .f32 = 32 ∨ (Rect.block (s := S100000x16) S4000x16.size (cc8_transform_3 i) (hinb8_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S4000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S4000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v74) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v75) S4000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v88) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v89) S4000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v89) S4000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S128x16.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg11) S16.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v90) S4000x16.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x16 : Shape := ⟨2, ![100000, 16]⟩
abbrev S1x16 : Shape := ⟨2, ![1, 16]⟩
abbrev S100000x1 : Shape := ⟨2, ![100000, 1]⟩

abbrev nBuf : Space → Nat
  | .hbm => 157
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x16, .f32⟩
  | 11 => ⟨S16, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x128, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000x128, .f32⟩
  | 85 => ⟨S1700000x1, .f32⟩
  | 86 => ⟨S1700000x128, .f32⟩
  | 87 => ⟨S1700000x128, .f32⟩
  | 88 => ⟨S_, .f32⟩
  | 89 => ⟨S100000x128, .f32⟩
  | 90 => ⟨S1700000x1, .i32⟩
  | 91 => ⟨S100000x128, .f32⟩
  | 92 => ⟨S1x128, .f32⟩
  | 93 => ⟨S100000x128, .f32⟩
  | 94 => ⟨S100000x128, .f32⟩
  | 95 => ⟨S100000x128, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x128, .f32⟩
  | 105 => ⟨S1700000x1, .f32⟩
  | 106 => ⟨S1700000x128, .f32⟩
  | 107 => ⟨S1700000x128, .f32⟩
  | 108 => ⟨S_, .f32⟩
  | 109 => ⟨S100000x128, .f32⟩
  | 110 => ⟨S1700000x1, .i32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S100000x128, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000x128, .f32⟩
  | _ => ⟨S100000x256, .f32⟩

abbrev hbmTy0_1 (i : Nat) : BufTy := match i % 128 with
  | 0 => ⟨S1700000x1, .f32⟩
  | 1 => ⟨S1700000x128, .f32⟩
  | 2 => ⟨S1700000x128, .f32⟩
  | 3 => ⟨S_, .f32⟩
  | 4 => ⟨S100000x128, .f32⟩
  | 5 => ⟨S1700000x1, .i32⟩
  | 6 => ⟨S100000x128, .f32⟩
  | 7 => ⟨S1x128, .f32⟩
  | 8 => ⟨S100000x128, .f32⟩
  | 9 => ⟨S100000x128, .f32⟩
  | 10 => ⟨S100000x16, .f32⟩
  | 11 => ⟨S1x16, .f32⟩
  | 12 => ⟨S100000x16, .f32⟩
  | 13 => ⟨S100000x16, .f32⟩
  | 14 => ⟨S_, .f32⟩
  | 15 => ⟨S100000, .f32⟩
  | 16 => ⟨S_, .f32⟩
  | 17 => ⟨S100000, .f32⟩
  | 18 => ⟨S100000, .f32⟩
  | 19 => ⟨S100000x1, .f32⟩
  | 20 => ⟨S100000x16, .f32⟩
  | 21 => ⟨S100000x16, .f32⟩
  | 22 => ⟨S100000x16, .f32⟩
  | 23 => ⟨S_, .f32⟩
  | 24 => ⟨S100000, .f32⟩
  | 25 => ⟨S100000x1, .f32⟩
  | 26 => ⟨S100000x1, .f32⟩
  | 27 => ⟨S100000x16, .f32⟩
  | 28 => ⟨S100000x16, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_12 : Ref sig .tc := ⟨.hbm, 96, rfl⟩
abbrev main_v66 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_14 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_call2_cst : Ref sig .tc := ⟨.hbm, 115, rfl⟩
abbrev main_call2_v0 : Ref sig .tc := ⟨.hbm, 116, rfl⟩
abbrev main_v82 : Ref sig .tc := ⟨.hbm, 117, rfl⟩
abbrev main_v83 : Ref sig .tc := ⟨.hbm, 118, rfl⟩
abbrev main_c_15 : Ref sig .tc := ⟨.hbm, 119, rfl⟩
abbrev main_v84 : Ref sig .tc := ⟨.hbm, 120, rfl⟩
abbrev main_v85 : Ref sig .tc := ⟨.hbm, 121, rfl⟩
abbrev main_c_16 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_17 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_call3_cst : Ref sig .tc := ⟨.hbm, 142, rfl⟩
abbrev main_call3_v0 : Ref sig .tc := ⟨.hbm, 143, rfl⟩
abbrev main_call3_cst_0 : Ref sig .tc := ⟨.hbm, 144, rfl⟩
abbrev main_call3_v1 : Ref sig .tc := ⟨.hbm, 145, rfl⟩
abbrev main_call3_v2 : Ref sig .tc := ⟨.hbm, 146, rfl⟩
abbrev main_call3_v3 : Ref sig .tc := ⟨.hbm, 147, rfl⟩
abbrev main_call3_v4 : Ref sig .tc := ⟨.hbm, 148, rfl⟩
abbrev main_call3_v5 : Ref sig .tc := ⟨.hbm, 149, rfl⟩
abbrev main_call3_v6 : Ref sig .tc := ⟨.hbm, 150, rfl⟩
abbrev main_call3_cst_1 : Ref sig .tc := ⟨.hbm, 151, rfl⟩
abbrev main_call3_v7 : Ref sig .tc := ⟨.hbm, 152, rfl⟩
abbrev main_call3_v8 : Ref sig .tc := ⟨.hbm, 153, rfl⟩
abbrev main_call3_v9 : Ref sig .tc := ⟨.hbm, 154, rfl⟩
abbrev main_call3_v10 : Ref sig .tc := ⟨.hbm, 155, rfl⟩
abbrev main_v104 : Ref sig .tc := ⟨.hbm, 156, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KernelRun.lean ====
/-
  The kernel program's run with its result named.

  The program is nine pipelined regions among stretches of host operations. Its frame run threads the buffer
  contents through the segments: after the last region every unscoped buffer of core `c` holds `W16 m ρ c`, the
  fold of the segments over the launch memory. The frame statement reads only the argument buffers off that fold;
  here the result buffer is read off it as well, so the run ends with the result at `W16 m ρ c` at the result's
  reference and the arguments unchanged.
-/
import proofs.«111109_j996432412812_1_alg».proof.Proof.Gen.KernelIdeal.Frame

set_option maxRecDepth 16384

noncomputable section

namespace Cert.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, with the result buffer at the
    last boundary's contents and every argument buffer as launched. -/
theorem run_result : θ_run defs (onTc (τ := τ) (main (F := F))) ⟨m, fun _ => 0, ρ⟩ (fun r => ∀ c : Dev nD,
      r.2.mem ((c.tc : Thread nD τ).loc main_v90) = W16 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v90 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c)⟩)

end Cert.KernelValue

end
-- ==== Proof.Carry.lean ====
/-
  What the segments of the kernel program leave unchanged.

  The program's buffer contents are threaded through sixteen segments: three host stretches that build the edge
  lists and weights, then per layer a dense-product region, a host stretch (the aggregation) and a bias region
  (for the last layer the classifier region). A host stretch changes only the buffers its operations write, and a
  region changes only its output array: an input window's array is read and left as entered, every other buffer is
  untouched. So the argument arrays and the three edge quantities (source list, target list, weights), once
  computed, are found unchanged at every later boundary.
-/
import proofs.«111109_j996432412812_1_alg».proof.Proof.Gen.KernelIdeal.Frame

set_option maxRecDepth 16384

noncomputable section

namespace Cert.Carry

open Cert.KernelIdeal Cert.KernelIdeal.Gen
open Idealize.ShloMosaic Idealize.ShloMosaic.TcCoe Idealize.SL.Sem

variable {F : FTy → Type} [FloatOps F]

/-! ## The buffers each host stretch writes -/

/-- The buffers the operations of the host stretch `hostOps0` write. -/
abbrev written0 : List (Ref sig .tc) := [main_v0, main_v1, main_v2, main_v3, main_v4, main_v5, main_v6, main_cst, main_v7, main_cst_0, main_v8, main_v9, main_v10, main_cst_1, main_v11, main_v12, main_v13, main_cst_2]
theorem written0_sub : (hostOps0 : List (HloOp τ sig (Elt F))).Forall fun op => op.writes ⊆ (written0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of the host stretch `hostOps1` write. -/
abbrev written1 : List (Ref sig .tc) := [main_c_6, main_v31, main_v32, main_c_7, main_v33, main_v34, main_v35, main_v36, main_v37, main_v38, main_v39, main_v40, main_cst_8, main_v41, main_v42, main_v43]
theorem written1_sub : (hostOps1 : List (HloOp τ sig (Elt F))).Forall fun op => op.writes ⊆ (written1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of the host stretch `hostOps3` write. -/
abbrev written3 : List (Ref sig .tc) := [main_c_9, main_v46, main_v47, main_c_10, main_v48, main_v49, main_v50, main_v51, main_v52, main_v53, main_v54, main_v55, main_cst_11, main_v56, main_v57, main_v58]
theorem written3_sub : (hostOps3 : List (HloOp τ sig (Elt F))).Forall fun op => op.writes ⊆ (written3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of the host stretch `hostOps5` write. -/
abbrev written5 : List (Ref sig .tc) := [main_c_12, main_v61, main_v62, main_c_13, main_v63, main_v64, main_v65, main_v66, main_v67, main_v68, main_v69, main_v70, main_cst_14, main_v71, main_v72, main_v73]
theorem written5_sub : (hostOps5 : List (HloOp τ sig (Elt F))).Forall fun op => op.writes ⊆ (written5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of the host stretch `hostOps7` write. -/
abbrev written7 : List (Ref sig .tc) := [main_c_15, main_v76, main_v77, main_c_16, main_v78, main_v79, main_v80, main_v81, main_v82, main_v83, main_v84, main_v85, main_cst_17, main_v86, main_v87, main_v88]
theorem written7_sub : (hostOps7 : List (HloOp τ sig (Elt F))).Forall fun op => op.writes ⊆ (written7.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of the host stretch `hostOps0_1` write. -/
abbrev written0_1 : List (Ref sig .tc) := [main_call0_v0, main_call0_v1, main_v14]
theorem written0_1_sub : (hostOps0_1 : List (HloOp τ sig (Elt F))).Forall fun op => op.writes ⊆ (written0_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of the host stretch `hostOps0_2` write. -/
abbrev written0_2 : List (Ref sig .tc) := [main_c, main_v15, main_v16, main_c_3, main_v17, main_v18, main_v19, main_v20, main_v21, main_c_4, main_v22, main_v23, main_c_5, main_v24, main_v25, main_v26, main_v27, main_v28, main_v29]
theorem written0_2_sub : (hostOps0_2 : List (HloOp τ sig (Elt F))).Forall fun op => op.writes ⊆ (written0_2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## The buffers carried through the program -/

/-- The twelve argument arrays. -/
abbrev args : List (Ref sig .tc) :=
  [main_arg0, main_arg1, main_arg2, main_arg3, main_arg4, main_arg5, main_arg6, main_arg7, main_arg8, main_arg9, main_arg10, main_arg11]

/-- The argument arrays and the three edge quantities: the source list, the target list and the weights. -/
abbrev carried : List (Ref sig .tc) := args ++ [main_v3, main_v6, main_v29]

variable (m : (ℓ : Loc nD τ sig) → Buf (Elt F) ℓ) (ρ : Dev nD → PrngReg) (c : Dev nD)

/-- No host stretch before the first region writes an argument: at the first region's entry it is as launched. -/
theorem arg_at_entry (r : Ref sig .tc) (hr : r ∈ args) : W3 m ρ c (Proc.devRef .tc r) = m ((c : Thread nD τ).loc r) :=
  ((StableHlo.after_of_writes_sub hostOps0_2 _ written0_2_sub ((by decide : ∀ r ∈ args, r ∉ written0_2) r hr)).trans
    ((StableHlo.after_of_writes_sub hostOps0_1 _ written0_1_sub ((by decide : ∀ r ∈ args, r ∉ written0_1) r hr)).trans
      (StableHlo.after_of_writes_sub hostOps0 _ written0_sub ((by decide : ∀ r ∈ args, r ∉ written0) r hr)))).trans rfl

/-- A region leaves a buffer as entered: it is none of the region's arrays, or it is an input window's array. -/
local macro "region_keeps" ofne:ident arr:ident aeq:ident dat:term : tactic =>
  `(tactic| first
    | exact $ofne _ _ _ _ (by decide)
    | exact ($arr _ _ _ 0).trans ((($dat).arrAt_in 0 rfl _).trans ($aeq _ _ 0))
    | exact ($arr _ _ _ 1).trans ((($dat).arrAt_in 1 rfl _).trans ($aeq _ _ 1))
    | exact ($arr _ _ _ 2).trans ((($dat).arrAt_in 2 rfl _).trans ($aeq _ _ 2)))

/-- Region 0 leaves every carried buffer as entered. -/
theorem step4 (r : Ref sig .tc) (hr : r ∈ carried) : W4 m ρ c (Proc.devRef .tc r) = W3 m ρ c (Proc.devRef .tc r) := by
  simp only [carried, args, List.cons_append, List.nil_append, List.mem_cons, List.not_mem_nil, or_false] at hr
  rcases hr with rfl | rfl | rfl | rfl | rfl | rfl | rfl | rfl | rfl | rfl | rfl | rfl | rfl | rfl | rfl
  all_goals region_keeps W4_of_ne W4_arr A_eq0 (dat0 (V3 m ρ) c)

/-- The host stretch `hostOps1` writes none of the carried buffers. -/
theorem step5 (r : Ref sig .tc) (hr : r ∈ carried) : W5 m ρ c (Proc.devRef .tc r) = W4 m ρ c (Proc.devRef .tc r) :=
  StableHlo.after_of_writes_sub hostOps1 _ written1_sub ((by decide : ∀ r ∈ carried, r ∉ written1) r hr)

/-- Region 1 leaves every carried buffer as entered. -/
theorem step6 (r : Ref sig .tc) (hr : r ∈ carried) : W6 m ρ c (Proc.devRef .tc r) = W5 m ρ c (Proc.devRef .tc r) := by
  simp only [carried, args, List.cons_append, List.nil_append, List.mem_cons, List.not_mem_nil, or_false] at hr
  rcases hr with rfl | rfl | rfl | rfl | rfl | rfl | rfl | rfl | rfl | rfl | rfl | rfl | rfl | rfl | rfl
  all_goals region_keeps W6_of_ne W6_arr A_eq1 (dat1 (V5 m ρ) c)

/-- Region 2 leaves every carried buffer as entered. -/
theorem step7 (r : Ref sig .tc) (hr : r ∈ carried) : W7 m ρ c (Proc.devRef .tc r) = W6 m ρ c (Proc.devRef .tc r) := by
  simp only [carried, args, List.cons_append, List.nil_append, List.mem_cons, List.not_mem_nil, or_false] at hr
  rcases hr with rfl | rfl | rfl | rfl | rfl | rfl | rfl | rfl | rfl | rfl | rfl | rfl | rfl | rfl | rfl
  all_goals region_keeps W7_of_ne W7_arr A_eq2 (dat2 (V6 m ρ) c)

/-- The host stretch `hostOps3` writes none of the carried buffers. -/
theorem step8 (r : Ref sig .tc) (hr : r ∈ carried) : W8 m ρ c (Proc.devRef .tc r) = W7 m ρ c (Proc.devRef .tc r) :=
  StableHlo.after_of_writes_sub hostOps3 _ written3_sub ((by decide : ∀ r ∈ carried, r ∉ written3) r hr)

/-- Region 3 leaves every carried buffer as entered. -/
theorem step9 (r : Ref sig .tc) (hr : r ∈ carried) : W9 m ρ c (Proc.devRef .tc r) = W8 m ρ c (Proc.devRef .tc r) := by
  simp only [carried, args, List.cons_append, List.nil_append, List.mem_cons, List.not_mem_nil, or_false] at hr
  rcases hr with rfl | rfl | rfl | rfl | rfl | rfl | rfl | rfl | rfl | rfl | rfl | rfl | rfl | rfl | rfl
  all_goals region_keeps W9_of_ne W9_arr A_eq3 (dat3 (V8 m ρ) c)

/-- Region 4 leaves every carried buffer as entered. -/
theorem step10 (r : Ref sig .tc) (hr : r ∈ carried) : W10 m ρ c (Proc.devRef .tc r) = W9 m ρ c (Proc.devRef .tc r) := by
  simp only [carried, args, List.cons_append, List.nil_append, List.mem_cons, List.not_mem_nil, or_false] at hr
  rcases hr with rfl | rfl | rfl | rfl | rfl | rfl | rfl | rfl | rfl | rfl | rfl | rfl | rfl | rfl | rfl
  all_goals region_keeps W10_of_ne W10_arr A_eq4 (dat4 (V9 m ρ) c)

/-- The host stretch `hostOps5` writes none of the carried buffers. -/
theorem step11 (r : Ref sig .tc) (hr : r ∈ carried) : W11 m ρ c (Proc.devRef .tc r) = W10 m ρ c (Proc.devRef .tc r) :=
  StableHlo.after_of_writes_sub hostOps5 _ written5_sub ((by decide : ∀ r ∈ carried, r ∉ written5) r hr)

/-- Region 5 leaves every carried buffer as entered. -/
theorem step12 (r : Ref sig .tc) (hr : r ∈ carried) : W12 m ρ c (Proc.devRef .tc r) = W11 m ρ c (Proc.devRef .tc r) := by
  simp only [carried, args, List.cons_append, List.nil_append, List.mem_cons, List.not_mem_nil, or_false] at hr
  rcases hr with rfl | rfl | rfl | rfl | rfl | rfl | rfl | rfl | rfl | rfl | rfl | rfl | rfl | rfl | rfl
  all_goals region_keeps W12_of_ne W12_arr A_eq5 (dat5 (V11 m ρ) c)

/-- Region 6 leaves every carried buffer as entered. -/
theorem step13 (r : Ref sig .tc) (hr : r ∈ carried) : W13 m ρ c (Proc.devRef .tc r) = W12 m ρ c (Proc.devRef .tc r) := by
  simp only [carried, args, List.cons_append, List.nil_append, List.mem_cons, List.not_mem_nil, or_false] at hr
  rcases hr with rfl | rfl | rfl | rfl | rfl | rfl | rfl | rfl | rfl | rfl | rfl | rfl | rfl | rfl | rfl
  all_goals region_keeps W13_of_ne W13_arr A_eq6 (dat6 (V12 m ρ) c)

/-- The host stretch `hostOps7` writes none of the carried buffers. -/
theorem step14 (r : Ref sig .tc) (hr : r ∈ carried) : W14 m ρ c (Proc.devRef .tc r) = W13 m ρ c (Proc.devRef .tc r) :=
  StableHlo.after_of_writes_sub hostOps7 _ written7_sub ((by decide : ∀ r ∈ carried, r ∉ written7) r hr)

/-- Region 7 leaves every carried buffer as entered. -/
theorem step15 (r : Ref sig .tc) (hr : r ∈ carried) : W15 m ρ c (Proc.devRef .tc r) = W14 m ρ c (Proc.devRef .tc r) := by
  simp only [carried, args, List.cons_append, List.nil_append, List.mem_cons, List.not_mem_nil, or_false] at hr
  rcases hr with rfl | rfl | rfl | rfl | rfl | rfl | rfl | rfl | rfl | rfl | rfl | rfl | rfl | rfl | rfl
  all_goals region_keeps W15_of_ne W15_arr A_eq7 (dat7 (V14 m ρ) c)

/-! ## From a later boundary back to the first region's entry -/

theorem upTo4 (r : Ref sig .tc) (hr : r ∈ carried) : W4 m ρ c (Proc.devRef .tc r) = W3 m ρ c (Proc.devRef .tc r) :=
  step4 m ρ c r hr
theorem upTo5 (r : Ref sig .tc) (hr : r ∈ carried) : W5 m ρ c (Proc.devRef .tc r) = W3 m ρ c (Proc.devRef .tc r) :=
  (step5 m ρ c r hr).trans (upTo4 m ρ c r hr)
theorem upTo6 (r : Ref sig .tc) (hr : r ∈ carried) : W6 m ρ c (Proc.devRef .tc r) = W3 m ρ c (Proc.devRef .tc r) :=
  (step6 m ρ c r hr).trans (upTo5 m ρ c r hr)
theorem upTo7 (r : Ref sig .tc) (hr : r ∈ carried) : W7 m ρ c (Proc.devRef .tc r) = W3 m ρ c (Proc.devRef .tc r) :=
  (step7 m ρ c r hr).trans (upTo6 m ρ c r hr)
theorem upTo8 (r : Ref sig .tc) (hr : r ∈ carried) : W8 m ρ c (Proc.devRef .tc r) = W3 m ρ c (Proc.devRef .tc r) :=
  (step8 m ρ c r hr).trans (upTo7 m ρ c r hr)
theorem upTo9 (r : Ref sig .tc) (hr : r ∈ carried) : W9 m ρ c (Proc.devRef .tc r) = W3 m ρ c (Proc.devRef .tc r) :=
  (step9 m ρ c r hr).trans (upTo8 m ρ c r hr)
theorem upTo10 (r : Ref sig .tc) (hr : r ∈ carried) : W10 m ρ c (Proc.devRef .tc r) = W3 m ρ c (Proc.devRef .tc r) :=
  (step10 m ρ c r hr).trans (upTo9 m ρ c r hr)
theorem upTo11 (r : Ref sig .tc) (hr : r ∈ carried) : W11 m ρ c (Proc.devRef .tc r) = W3 m ρ c (Proc.devRef .tc r) :=
  (step11 m ρ c r hr).trans (upTo10 m ρ c r hr)
theorem upTo12 (r : Ref sig .tc) (hr : r ∈ carried) : W12 m ρ c (Proc.devRef .tc r) = W3 m ρ c (Proc.devRef .tc r) :=
  (step12 m ρ c r hr).trans (upTo11 m ρ c r hr)
theorem upTo13 (r : Ref sig .tc) (hr : r ∈ carried) : W13 m ρ c (Proc.devRef .tc r) = W3 m ρ c (Proc.devRef .tc r) :=
  (step13 m ρ c r hr).trans (upTo12 m ρ c r hr)
theorem upTo14 (r : Ref sig .tc) (hr : r ∈ carried) : W14 m ρ c (Proc.devRef .tc r) = W3 m ρ c (Proc.devRef .tc r) :=
  (step14 m ρ c r hr).trans (upTo13 m ρ c r hr)
theorem upTo15 (r : Ref sig .tc) (hr : r ∈ carried) : W15 m ρ c (Proc.devRef .tc r) = W3 m ρ c (Proc.devRef .tc r) :=
  (step15 m ρ c r hr).trans (upTo14 m ρ c r hr)

end Cert.Carry

end
-- ==== Proof.Layers.lean ====
/-
  The network's layers as whole-array functions, written in the host vocabulary of the reference program.

  A graph-convolution layer is  h ↦ act (A · (h W) + b): a dense product with the weight matrix, the
  normalised adjacency applied as gather / scale / scatter-add over the edge list (shared by both programs
  and never opened here), the bias added to every row, and for the odd layers the positive part.  The
  classifier is the dense product with the last weight matrix plus its bias, followed by the row-wise
  log-softmax  z − log Σ exp z  with  z = logits − max logits.

  Each definition below is one of these pieces as a function of whole arrays; the reference's stages are
  compositions of them by unfolding, and each kernel region's output array is shown equal to one of them.
-/
import proofs.«111109_j996432412812_1_alg».proof.Proof.Gen.ReferenceIdeal
import Idealize.ShloMosaic.PureOps.Ideal

noncomputable section

namespace Cert.Layers

open Cert.ReferenceIdeal Cert.ReferenceIdeal.Gen Idealize.ShloMosaic Idealize.ShloMosaic.TcCoe Idealize.SL.Sem

variable {F : FTy → Type} [FloatOps F]

/-- The first dense product: features [100000, 256] by weights [256, 128]. -/
def dense0 (x : (⟨S100000x256, .f32⟩ : BufTy).Contents (Elt F)) (w : (⟨S256x128, .f32⟩ : BufTy).Contents (Elt F)) :
    (⟨S100000x128, .f32⟩ : BufTy).Contents (Elt F) :=
  Host.dotGeneral dot_S100000x256_S256x128_S100000x128_1_0_0_1_n_n none x w

/-- A hidden dense product: features [100000, 128] by weights [128, 128]. -/
def dense (h : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none h w

/-- A bias vector [128] repeated on every one of the 100000 rows. -/
def biasRows (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- The aggregated features plus the bias on every row. -/
def addBias (agg : (⟨S100000x128, .f32⟩ : BufTy).Contents (Elt F)) (b : (⟨S128, .f32⟩ : BufTy).Contents (Elt F)) :
    (⟨S100000x128, .f32⟩ : BufTy).Contents (Elt F) :=
  addf agg (biasRows b)

/-- The aggregated features plus the bias, then the positive part (the maximum with zero). -/
def addBiasRelu (agg : (⟨S100000x128, .f32⟩ : BufTy).Contents (Elt F)) (b : (⟨S128, .f32⟩ : BufTy).Contents (Elt F)) :
    (⟨S100000x128, .f32⟩ : BufTy).Contents (Elt F) :=
  maximumf (addBias agg b) (broadcastInDim S100000x128 ![] bcast_S_S100000x128 (constant S_ .f32 0x00000000#32))

/-- The classifier's logits: features [100000, 128] by weights [128, 16], plus the bias [16] on every row. -/
def logits (h : (⟨S100000x128, .f32⟩ : BufTy).Contents (Elt F)) (w : (⟨S128x16, .f32⟩ : BufTy).Contents (Elt F))
    (b : (⟨S16, .f32⟩ : BufTy).Contents (Elt F)) : (⟨S100000x16, .f32⟩ : BufTy).Contents (Elt F) :=
  addf (Host.dotGeneral dot_S100000x128_S128x16_S100000x16_1_0_0_1_n_n none h w)
    (broadcastInDim S100000x16 ![0, 1] bcast_S1x16_S100000x16_0_1 (broadcastInDim S1x16 ![1] bcast_S16_S1x16_1 b))

/-- The largest entry of each row (the maximum over the 16 classes, started from −∞). -/
def rowMax (l : (⟨S100000x16, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf l (constant S_ .f32 0xFF800000#32) reducesTo_S100000x16_S100000_d1 h_S_)

/-- A per-row value [100000] repeated along the 16 classes. -/
def alongClasses (v : (⟨S100000x1, .f32⟩ : BufTy).Contents (Elt F)) : (⟨S100000x16, .f32⟩ : BufTy).Contents (Elt F) :=
  broadcastInDim S100000x16 ![0, 1] bcast_S100000x1_S100000x16_0_1 v

/-- A per-row value [100000] as a column [100000, 1]. -/
def asColumn (v : (⟨S100000, .f32⟩ : BufTy).Contents (Elt F)) : (⟨S100000x1, .f32⟩ : BufTy).Contents (Elt F) :=
  broadcastInDim S100000x1 ![0] bcast_S100000_S100000x1_0 v

/-- Each row minus its largest entry. -/
def shifted (l : (⟨S100000x16, .f32⟩ : BufTy).Contents (Elt F)) : (⟨S100000x16, .f32⟩ : BufTy).Contents (Elt F) :=
  subf l (alongClasses (asColumn (rowMax l)))

/-- The row-wise log-softmax: the shifted row minus the logarithm of the sum of its exponentials. -/
def logSoftmax (l : (⟨S100000x16, .f32⟩ : BufTy).Contents (Elt F)) : (⟨S100000x16, .f32⟩ : BufTy).Contents (Elt F) :=
  subf (shifted l)
    (alongClasses (Host.log (asColumn
      (Host.reduceAdd (Host.exp (shifted l)) (constant S_ .f32 0x00000000#32) reducesTo_S100000x16_S100000_d1 h_S_))))

/-- The classifier: the log-softmax of the logits. -/
def classify (h : (⟨S100000x128, .f32⟩ : BufTy).Contents (Elt F)) (w : (⟨S128x16, .f32⟩ : BufTy).Contents (Elt F))
    (b : (⟨S16, .f32⟩ : BufTy).Contents (Elt F)) : (⟨S100000x16, .f32⟩ : BufTy).Contents (Elt F) :=
  logSoftmax (logits h w b)

end Cert.Layers

end
-- ==== Proof.Graph.lean ====
/-
  The graph side of the network, in the host vocabulary of the reference program: the edge list with self loops,
  the symmetric normalisation, and the aggregation step.

  With E = 1600000 edges and N = 100000 nodes, the source and target lists [E + N] are a row of the edge array
  followed by 0, 1, …, N − 1 (the self loops). The degree of a node is the number of entries of the target list
  equal to it (a scatter-add of ones); its inverse square root is taken where the degree is positive and 0
  elsewhere; the weight of entry e is  dis[src e] · dis[dst e].  Aggregation sends a feature array h [N, 128] to
  the array whose row n is the sum over the entries e with dst e = n of  weight e · h[src e]  — a row gather, a
  product with the weight repeated along the row, and a row scatter-add into zeros.

  Both programs apply exactly these host operations, so nothing here is ever opened: the kernel program's host
  stretches and the reference's stages are both shown to BE these functions by unfolding, and the two are then
  joined by congruence.
-/
import proofs.«111109_j996432412812_1_alg».proof.Proof.Gen.ReferenceIdeal
import Idealize.ShloMosaic.PureOps.Ideal

noncomputable section

namespace Cert.Graph

open Cert.ReferenceIdeal Cert.ReferenceIdeal.Gen Idealize.ShloMosaic Idealize.ShloMosaic.TcCoe Idealize.SL.Sem

variable {F : FTy → Type} [FloatOps F]

/-- The source list: row 0 of the edge array, then the self loops 0 … N − 1. -/
def edgeSrc (e : (⟨S2x1600000, .i32⟩ : BufTy).Contents (Elt F)) : (⟨S1700000, .i32⟩ : BufTy).Contents (Elt F) :=
  concatenate S1700000 0
    [⟨S1600000, shapeCast _ (extractStridedSlice S1x1600000 ![0, 0] e slices_S2x1600000_S1x1600000_0_0) shapeCasts_S1x1600000_S1600000⟩,
     ⟨S100000, iotaInDim S100000 32 0⟩] concatenates_S1600000_S100000_S1700000_d0

/-- The target list: row 1 of the edge array, then the self loops 0 … N − 1. -/
def edgeDst (e : (⟨S2x1600000, .i32⟩ : BufTy).Contents (Elt F)) : (⟨S1700000, .i32⟩ : BufTy).Contents (Elt F) :=
  concatenate S1700000 0
    [⟨S1600000, shapeCast _ (extractStridedSlice S1x1600000 ![1, 0] e slices_S2x1600000_S1x1600000_1_0) shapeCasts_S1x1600000_S1600000⟩,
     ⟨S100000, iotaInDim S100000 32 0⟩] concatenates_S1600000_S100000_S1700000_d0

/-- An index list with its negative entries moved up by N (the wrap-around a take applies), as a column of
    one-entry index vectors. -/
def indexColumn (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The degree of every node: ones scatter-added at the target list into zeros. -/
def degree (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- The inverse square root of a per-node quantity where it is positive, zero elsewhere. -/
def invSqrtOf (g : (⟨S100000, .f32⟩ : BufTy).Contents (Elt F)) : (⟨S100000, .f32⟩ : BufTy).Contents (Elt F) :=
  select (cmpf .ogt g (broadcastInDim S100000 ![] bcast_S_S100000 (constant S_ .f32 0x00000000#32)))
    (Host.rsqrt g)
    (broadcastInDim S100000 ![] bcast_S_S100000 (id (constant S_ .f32 0x00000000#32)))

/-- The inverse square root of the degree where it is positive, zero elsewhere. -/
def invSqrtDegree (d : (⟨S1700000, .i32⟩ : BufTy).Contents (Elt F)) : (⟨S100000, .f32⟩ : BufTy).Contents (Elt F) :=
  invSqrtOf (degree d)

/-- The weight of every entry of the edge list from a per-node factor: the product of the factor at the entry's
    two end points. -/
def weightOf (dis : (⟨S100000, .f32⟩ : BufTy).Contents (Elt F)) (s d : (⟨S1700000, .i32⟩ : BufTy).Contents (Elt F)) :
    (⟨S1700000, .f32⟩ : BufTy).Contents (Elt F) :=
  mulf (Host.gather gather_S100000_S1700000x1_S1700000_n_0_n_n_0_1_1 dis (indexColumn s))
    (Host.gather gather_S100000_S1700000x1_S1700000_n_0_n_n_0_1_1 dis (indexColumn d))

/-- The weight of every entry of the edge list: the product of the two end points' inverse square root degrees. -/
def edgeWeight (s d : (⟨S1700000, .i32⟩ : BufTy).Contents (Elt F)) : (⟨S1700000, .f32⟩ : BufTy).Contents (Elt F) :=
  weightOf (invSqrtDegree d) s d

/-- Aggregation over the graph: gather the source rows, scale each by its entry's weight, scatter-add at the
    target rows into zeros. -/
def aggregate (h : (⟨S100000x128, .f32⟩ : BufTy).Contents (Elt F))
    (s d : (⟨S1700000, .i32⟩ : BufTy).Contents (Elt F)) (wt : (⟨S1700000, .f32⟩ : BufTy).Contents (Elt F)) :
    (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 d)
    (mulf (Host.gather gather_S100000x128_S1700000x1_S1700000x128_1_0_n_n_0_1_1128 h (indexColumn s))
      (broadcastInDim S1700000x128 ![0, 1] bcast_S1700000x1_S1700000x128_0_1
        (broadcastInDim S1700000x1 ![0] bcast_S1700000_S1700000x1_0 wt)))

end Cert.Graph

end
-- ==== Proof.Network.lean ====
/-
  The whole network as one function of the twelve argument arrays.

  Writing A for the aggregation over the graph (whose edge lists and weights depend on the edge array alone),
  the four layers are  h₁ = relu (A (x W₁) + b₁),  h₂ = A (h₁ W₂) + b₂,  h₃ = relu (A (h₂ W₃) + b₃),
  h₄ = A (h₃ W₄) + b₄,  and the result is the row-wise log-softmax of  h₄ W_l + b_l.
-/
import proofs.«111109_j996432412812_1_alg».proof.Proof.Layers
import proofs.«111109_j996432412812_1_alg».proof.Proof.Graph

noncomputable section

namespace Cert.Network

open Cert.ReferenceIdeal Cert.ReferenceIdeal.Gen Cert.Layers Cert.Graph Idealize.ShloMosaic Idealize.ShloMosaic.TcCoe Idealize.SL.Sem

variable {F : FTy → Type} [FloatOps F]

/-- Aggregation of a feature array over the graph given by the edge array `e`. -/
def propagate (h : (⟨S100000x128, .f32⟩ : BufTy).Contents (Elt F)) (e : (⟨S2x1600000, .i32⟩ : BufTy).Contents (Elt F)) : (⟨S100000x128, .f32⟩ : BufTy).Contents (Elt F) :=
  aggregate h (edgeSrc e) (edgeDst e) (edgeWeight (edgeSrc e) (edgeDst e))

/-- The first layer: the positive part of the aggregated product with the first weight matrix, plus bias. -/
def layerIn (x : (⟨S100000x256, .f32⟩ : BufTy).Contents (Elt F)) (e : (⟨S2x1600000, .i32⟩ : BufTy).Contents (Elt F)) (w : (⟨S256x128, .f32⟩ : BufTy).Contents (Elt F)) (b : (⟨S128, .f32⟩ : BufTy).Contents (Elt F)) : (⟨S100000x128, .f32⟩ : BufTy).Contents (Elt F) :=
  addBiasRelu (propagate (dense0 x w) e) b

/-- A hidden layer without the positive part. -/
def layerLinear (h : (⟨S100000x128, .f32⟩ : BufTy).Contents (Elt F)) (e : (⟨S2x1600000, .i32⟩ : BufTy).Contents (Elt F)) (w : (⟨S128x128, .f32⟩ : BufTy).Contents (Elt F)) (b : (⟨S128, .f32⟩ : BufTy).Contents (Elt F)) : (⟨S100000x128, .f32⟩ : BufTy).Contents (Elt F) :=
  addBias (propagate (dense h w) e) b

/-- A hidden layer with the positive part. -/
def layerRelu (h : (⟨S100000x128, .f32⟩ : BufTy).Contents (Elt F)) (e : (⟨S2x1600000, .i32⟩ : BufTy).Contents (Elt F)) (w : (⟨S128x128, .f32⟩ : BufTy).Contents (Elt F)) (b : (⟨S128, .f32⟩ : BufTy).Contents (Elt F)) : (⟨S100000x128, .f32⟩ : BufTy).Contents (Elt F) :=
  addBiasRelu (propagate (dense h w) e) b

/-- The network: four layers and the classifier. -/
def network (x : (⟨S100000x256, .f32⟩ : BufTy).Contents (Elt F)) (e : (⟨S2x1600000, .i32⟩ : BufTy).Contents (Elt F))
    (w1 : (⟨S256x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F))
    (w3 : (⟨S128x128, .f32⟩ : BufTy).Contents (Elt F)) (b3 : (⟨S128, .f32⟩ : BufTy).Contents (Elt F)) (w4 : (⟨S128x128, .f32⟩ : BufTy).Contents (Elt F)) (b4 : (⟨S128, .f32⟩ : BufTy).Contents (Elt F))
    (wl : (⟨S128x16, .f32⟩ : BufTy).Contents (Elt F)) (bl : (⟨S16, .f32⟩ : BufTy).Contents (Elt F)) : (⟨S100000x16, .f32⟩ : BufTy).Contents (Elt F) :=
  classify (layerLinear (layerRelu (layerLinear (layerIn x e w1 b1) e w2 b2) e w3 b3) e w4 b4) wl bl

end Cert.Network

end
-- ==== Proof.DenseRegions.lean ====
/-
  The four dense-product regions: each one's output array is the whole-array dense product of its two inputs.

  Every region walks the 100000 rows in 25 blocks of 4000 rows.  At block t the body multiplies rows
  4000·t … 4000·t + 3999 of the features by the whole weight matrix, into a zero accumulator; so row
  r = 4000·t + p, column j of the output is  Σ_k x[r, k] · w[k, j].  The whole-array dense product read at
  (r, j) is the same sum over the same k, term by term; nothing is rearranged.
-/
import proofs.«111109_j996432412812_1_alg».proof.Proof.Gen.KernelIdeal.Frame
import proofs.«111109_j996432412812_1_alg».proof.Proof.Layers
import Idealize.ShloMosaic.Lib.Pipeline.Value
import Idealize.ShloMosaic.Lib.ValueIdx
import Idealize.ShloMosaic.PureOps.Ideal.Laws

noncomputable section

namespace Cert.DenseRegions

open Idealize.ShloMosaic Idealize.ShloMosaic.TcCoe Idealize.SL.Sem Cert.KernelIdeal Cert.KernelIdeal.Gen
open Idealize.ShloMosaic.ValueIdx
open Idealize.ShloMosaic.Pipeline (Dat)

/-- The zero offset of a whole-block access, as a constant function. -/
theorem zero_offset : (![0, 0] : Fin 2 → Nat) = fun _ => 0 := funext fun a => by fin_cases a <;> rfl

/-! ## The products at an index -/

/-! The operand indices of a rows × contraction by contraction × columns product, coordinate by coordinate: at output
    index (r, j) and contraction index k the left operand is read at (r, k) and the right one at (k, j). -/

theorem block0_lhs_row (i : S4000x128.Idx) (κ : dot_S4000x256_S256x128_S4000x128_1_0_0_1_n_n.contr.Idx) :
    (dot_S4000x256_S256x128_S4000x128_1_0_0_1_n_n.lhsIdx i κ 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem block0_lhs_contr (i : S4000x128.Idx) (κ : dot_S4000x256_S256x128_S4000x128_1_0_0_1_n_n.contr.Idx) :
    (dot_S4000x256_S256x128_S4000x128_1_0_0_1_n_n.lhsIdx i κ 1).val = (κ ⟨0, by decide⟩).val :=
  dot_S4000x256_S256x128_S4000x128_1_0_0_1_n_n.lhsIdx_val_of_single rfl i κ
theorem block0_rhs_contr (i : S4000x128.Idx) (κ : dot_S4000x256_S256x128_S4000x128_1_0_0_1_n_n.contr.Idx) :
    (dot_S4000x256_S256x128_S4000x128_1_0_0_1_n_n.rhsIdx i κ 0).val = (κ ⟨0, by decide⟩).val :=
  dot_S4000x256_S256x128_S4000x128_1_0_0_1_n_n.rhsIdx_val_of_single rfl i κ
theorem block0_rhs_col (i : S4000x128.Idx) (κ : dot_S4000x256_S256x128_S4000x128_1_0_0_1_n_n.contr.Idx) :
    (dot_S4000x256_S256x128_S4000x128_1_0_0_1_n_n.rhsIdx i κ 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- One block of the first product: 4000 rows of features by the 256 × 128 weights, at row p and column q. -/
theorem block0_apply (x : Vec Ideal S4000x256 .f32) (w : Vec Ideal S256x128 .f32) (p : Fin 4000) (q : Fin 128) :
    k0_pay1 (F := Ideal) x w (ix2 p q) = ∑ k : Fin 256, x (ix2 p k) * w (ix2 k q) := by
  unfold k0_pay1
  refine (Ideal.matmul_constant_zero_apply dot_S4000x256_S256x128_S4000x128_1_0_0_1_n_n none _ _ (ix2 p q)).trans ?_
  rw [← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p q) ((contrEquiv1 dot_S4000x256_S256x128_S4000x128_1_0_0_1_n_n 256 rfl rfl).symm k) = ix2 p k :=
    funext fun a => Fin.ext (by
      match a with
      | ⟨0, _⟩ => exact block0_lhs_row _ _
      | ⟨1, _⟩ => exact (block0_lhs_contr _ _).trans hk)
  have er : dot_S4000x256_S256x128_S4000x128_1_0_0_1_n_n.rhsIdx (ix2 p q) ((contrEquiv1 dot_S4000x256_S256x128_S4000x128_1_0_0_1_n_n 256 rfl rfl).symm k) = ix2 k q :=
    funext fun a => Fin.ext (by
      match a with
      | ⟨0, _⟩ => exact (block0_rhs_contr _ _).trans hk
      | ⟨1, _⟩ => exact block0_rhs_col _ _)
  rw [el, er]
  rfl

/-! The same coordinates for the whole-array product. -/

theorem dense0_lhs_row (i : Cert.ReferenceIdeal.S100000x128.Idx) (κ : Cert.ReferenceIdeal.dot_S100000x256_S256x128_S100000x128_1_0_0_1_n_n.contr.Idx) :
    (Cert.ReferenceIdeal.dot_S100000x256_S256x128_S100000x128_1_0_0_1_n_n.lhsIdx i κ 0).val = (i 0).val := by
  unfold DotDims.lhsIdx
  rw [dif_neg (show ¬(0 : Fin Cert.ReferenceIdeal.S100000x256.rank) ∈ Cert.ReferenceIdeal.dot_S100000x256_S256x128_S100000x128_1_0_0_1_n_n.lhsBatch by decide), dif_pos (show (0 : Fin Cert.ReferenceIdeal.S100000x256.rank) ∈ Cert.ReferenceIdeal.dot_S100000x256_S256x128_S100000x128_1_0_0_1_n_n.lhsNonContracting by decide)]
  rfl
theorem dense0_lhs_contr (i : Cert.ReferenceIdeal.S100000x128.Idx) (κ : Cert.ReferenceIdeal.dot_S100000x256_S256x128_S100000x128_1_0_0_1_n_n.contr.Idx) :
    (Cert.ReferenceIdeal.dot_S100000x256_S256x128_S100000x128_1_0_0_1_n_n.lhsIdx i κ 1).val = (κ ⟨0, by decide⟩).val :=
  Cert.ReferenceIdeal.dot_S100000x256_S256x128_S100000x128_1_0_0_1_n_n.lhsIdx_val_of_single rfl i κ
theorem dense0_rhs_contr (i : Cert.ReferenceIdeal.S100000x128.Idx) (κ : Cert.ReferenceIdeal.dot_S100000x256_S256x128_S100000x128_1_0_0_1_n_n.contr.Idx) :
    (Cert.ReferenceIdeal.dot_S100000x256_S256x128_S100000x128_1_0_0_1_n_n.rhsIdx i κ 0).val = (κ ⟨0, by decide⟩).val :=
  Cert.ReferenceIdeal.dot_S100000x256_S256x128_S100000x128_1_0_0_1_n_n.rhsIdx_val_of_single rfl i κ
theorem dense0_rhs_col (i : Cert.ReferenceIdeal.S100000x128.Idx) (κ : Cert.ReferenceIdeal.dot_S100000x256_S256x128_S100000x128_1_0_0_1_n_n.contr.Idx) :
    (Cert.ReferenceIdeal.dot_S100000x256_S256x128_S100000x128_1_0_0_1_n_n.rhsIdx i κ 1).val = (i 1).val := by
  unfold DotDims.rhsIdx
  rw [dif_neg (show ¬(1 : Fin Cert.ReferenceIdeal.S256x128.rank) ∈ Cert.ReferenceIdeal.dot_S100000x256_S256x128_S100000x128_1_0_0_1_n_n.rhsBatch by decide), dif_pos (show (1 : Fin Cert.ReferenceIdeal.S256x128.rank) ∈ Cert.ReferenceIdeal.dot_S100000x256_S256x128_S100000x128_1_0_0_1_n_n.rhsNonContracting by decide)]
  rfl

/-- The whole first product, 100000 rows of features by the 256 × 128 weights, at row r and column q. -/
theorem dense0_apply (x : (⟨2, ![100000, 256]⟩ : Shape).Idx → EReal) (w : (⟨2, ![256, 128]⟩ : Shape).Idx → EReal) (r : Fin 100000) (q : Fin 128) :
    Cert.Layers.dense0 (F := Ideal) x w (ix2 r q) = ∑ k : Fin 256, x (ix2 r k) * w (ix2 k q) := by
  unfold Cert.Layers.dense0
  refine (Ideal.dotGeneral_apply Cert.ReferenceIdeal.dot_S100000x256_S256x128_S100000x128_1_0_0_1_n_n none _ _ _ (ix2 r q)).trans ?_
  rw [← Equiv.sum_comp (contrEquiv1 Cert.ReferenceIdeal.dot_S100000x256_S256x128_S100000x128_1_0_0_1_n_n 256 rfl rfl).symm]
  refine Finset.sum_congr rfl fun k _ => ?_
  have hk := contrEquiv1_symm_val Cert.ReferenceIdeal.dot_S100000x256_S256x128_S100000x128_1_0_0_1_n_n 256 rfl rfl k
  have el : Cert.ReferenceIdeal.dot_S100000x256_S256x128_S100000x128_1_0_0_1_n_n.lhsIdx (ix2 r q) ((contrEquiv1 Cert.ReferenceIdeal.dot_S100000x256_S256x128_S100000x128_1_0_0_1_n_n 256 rfl rfl).symm k) = ix2 r k :=
    funext fun a => Fin.ext (by
      match a with
      | ⟨0, _⟩ => exact dense0_lhs_row _ _
      | ⟨1, _⟩ => exact (dense0_lhs_contr _ _).trans hk)
  have er : Cert.ReferenceIdeal.dot_S100000x256_S256x128_S100000x128_1_0_0_1_n_n.rhsIdx (ix2 r q) ((contrEquiv1 Cert.ReferenceIdeal.dot_S100000x256_S256x128_S100000x128_1_0_0_1_n_n 256 rfl rfl).symm k) = ix2 k q :=
    funext fun a => Fin.ext (by
      match a with
      | ⟨0, _⟩ => exact (dense0_rhs_contr _ _).trans hk
      | ⟨1, _⟩ => exact dense0_rhs_col _ _)
  rw [el, er]

/-- A block of 4000 rows of the first product is those rows of the whole product: if a block's features are rows
    4000·n + p of the whole features, its weights are the whole weights, and the block's index (p, q) sits at
    (4000·n + p, q) of the whole output, then the block product at every index is the whole product there. -/
theorem block0_eq_rows (X : (⟨2, ![100000, 256]⟩ : Shape).Idx → EReal) (W : (⟨2, ![256, 128]⟩ : Shape).Idx → EReal)
    (x : Vec Ideal S4000x256 .f32) (w : Vec Ideal S256x128 .f32) (e : S4000x128.Idx → (⟨2, ![100000, 128]⟩ : Shape).Idx) (n : Nat)
    (hx : ∀ (p : Fin 4000) (k : Fin 256) (r : Fin 100000), r.val = 4000 * n + p.val → x (ix2 p k) = X (ix2 r k))
    (hw : ∀ (k : Fin 256) (q : Fin 128), w (ix2 k q) = W (ix2 k q))
    (he : ∀ (p : Fin 4000) (q : Fin 128), ∃ r : Fin 100000, r.val = 4000 * n + p.val ∧ e (ix2 p q) = ix2 r q) :
    k0_pay1 (F := Ideal) x w = fun j => Cert.Layers.dense0 (F := Ideal) X W (e j) := by
  funext j
  obtain ⟨p, q, rfl⟩ : ∃ (p : Fin 4000) (q : Fin 128), j = ix2 p q := ⟨j 0, j 1, eq_ix2 j⟩
  obtain ⟨r, hr, her⟩ := he p q
  rw [block0_apply, her, dense0_apply]
  exact Finset.sum_congr rfl fun k _ => by rw [hx p k r hr, hw k q]

/-! ## The hidden products at an index -/

/-! The operand indices again, for 4000 rows by the 128 × 128 weights … -/

theorem block_lhs_row (i : S4000x128.Idx) (κ : dot_S4000x128_S128x128_S4000x128_1_0_0_1_n_n.contr.Idx) :
    (dot_S4000x128_S128x128_S4000x128_1_0_0_1_n_n.lhsIdx i κ 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem block_lhs_contr (i : S4000x128.Idx) (κ : dot_S4000x128_S128x128_S4000x128_1_0_0_1_n_n.contr.Idx) :
    (dot_S4000x128_S128x128_S4000x128_1_0_0_1_n_n.lhsIdx i κ 1).val = (κ ⟨0, by decide⟩).val :=
  dot_S4000x128_S128x128_S4000x128_1_0_0_1_n_n.lhsIdx_val_of_single rfl i κ
theorem block_rhs_contr (i : S4000x128.Idx) (κ : dot_S4000x128_S128x128_S4000x128_1_0_0_1_n_n.contr.Idx) :
    (dot_S4000x128_S128x128_S4000x128_1_0_0_1_n_n.rhsIdx i κ 0).val = (κ ⟨0, by decide⟩).val :=
  dot_S4000x128_S128x128_S4000x128_1_0_0_1_n_n.rhsIdx_val_of_single rfl i κ
theorem block_rhs_col (i : S4000x128.Idx) (κ : dot_S4000x128_S128x128_S4000x128_1_0_0_1_n_n.contr.Idx) :
    (dot_S4000x128_S128x128_S4000x128_1_0_0_1_n_n.rhsIdx i κ 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- One block of a hidden product: 4000 rows of features by the 128 × 128 weights, at row p and column q (the
    reshape in front of it is to the same shape and changes nothing). -/
theorem block2_apply (x : Vec Ideal S4000x128 .f32) (w : Vec Ideal S128x128 .f32) (p : Fin 4000) (q : Fin 128) :
    k2_pay1 (F := Ideal) x w (ix2 p q) = ∑ k : Fin 128, x (ix2 p k) * w (ix2 k q) := by
  unfold k2_pay1
  rw [shapeCast_self]
  refine (Ideal.matmul_constant_zero_apply dot_S4000x128_S128x128_S4000x128_1_0_0_1_n_n none _ _ (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k :=
    funext fun a => Fin.ext (by
      match a with
      | ⟨0, _⟩ => exact block_lhs_row _ _
      | ⟨1, _⟩ => exact (block_lhs_contr _ _).trans hk)
  have er : dot_S4000x128_S128x128_S4000x128_1_0_0_1_n_n.rhsIdx (ix2 p q) ((contrEquiv1 dot_S4000x128_S128x128_S4000x128_1_0_0_1_n_n 128 rfl rfl).symm k) = ix2 k q :=
    funext fun a => Fin.ext (by
      match a with
      | ⟨0, _⟩ => exact (block_rhs_contr _ _).trans hk
      | ⟨1, _⟩ => exact block_rhs_col _ _)
  rw [el, er]
  rfl

/-! … and for the whole 100000 rows. -/

theorem dense_lhs_row (i : Cert.ReferenceIdeal.S100000x128.Idx) (κ : Cert.ReferenceIdeal.dot_S100000x128_S128x128_S100000x128_1_0_0_1_n_n.contr.Idx) :
    (Cert.ReferenceIdeal.dot_S100000x128_S128x128_S100000x128_1_0_0_1_n_n.lhsIdx i κ 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem dense_lhs_contr (i : Cert.ReferenceIdeal.S100000x128.Idx) (κ : Cert.ReferenceIdeal.dot_S100000x128_S128x128_S100000x128_1_0_0_1_n_n.contr.Idx) :
    (Cert.ReferenceIdeal.dot_S100000x128_S128x128_S100000x128_1_0_0_1_n_n.lhsIdx i κ 1).val = (κ ⟨0, by decide⟩).val :=
  Cert.ReferenceIdeal.dot_S100000x128_S128x128_S100000x128_1_0_0_1_n_n.lhsIdx_val_of_single rfl i κ
theorem dense_rhs_contr (i : Cert.ReferenceIdeal.S100000x128.Idx) (κ : Cert.ReferenceIdeal.dot_S100000x128_S128x128_S100000x128_1_0_0_1_n_n.contr.Idx) :
    (Cert.ReferenceIdeal.dot_S100000x128_S128x128_S100000x128_1_0_0_1_n_n.rhsIdx i κ 0).val = (κ ⟨0, by decide⟩).val :=
  Cert.ReferenceIdeal.dot_S100000x128_S128x128_S100000x128_1_0_0_1_n_n.rhsIdx_val_of_single rfl i κ
theorem dense_rhs_col (i : Cert.ReferenceIdeal.S100000x128.Idx) (κ : Cert.ReferenceIdeal.dot_S100000x128_S128x128_S100000x128_1_0_0_1_n_n.contr.Idx) :
    (Cert.ReferenceIdeal.dot_S100000x128_S128x128_S100000x128_1_0_0_1_n_n.rhsIdx i κ 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- A whole hidden product, 100000 rows of features by the 128 × 128 weights, at row r and column q. -/
theorem dense_apply (x : (⟨2, ![100000, 128]⟩ : Shape).Idx → EReal) (w : (⟨2, ![128, 128]⟩ : Shape).Idx → EReal) (r : Fin 100000) (q : Fin 128) :
    Cert.Layers.dense (F := Ideal) x w (ix2 r q) = ∑ k : Fin 128, x (ix2 r k) * w (ix2 k q) := by
  unfold Cert.Layers.dense
  refine (Ideal.dotGeneral_apply Cert.ReferenceIdeal.dot_S100000x128_S128x128_S100000x128_1_0_0_1_n_n none _ _ _ (ix2 r q)).trans ?_
  rw [← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k :=
    funext fun a => Fin.ext (by
      match a with
      | ⟨0, _⟩ => exact dense_lhs_row _ _
      | ⟨1, _⟩ => exact (dense_lhs_contr _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q :=
    funext fun a => Fin.ext (by
      match a with
      | ⟨0, _⟩ => exact (dense_rhs_contr _ _).trans hk
      | ⟨1, _⟩ => exact dense_rhs_col _ _)
  rw [el, er]

/-- A block of 4000 rows of a hidden product is those rows of the whole product (as for the first product). -/
theorem block2_eq_rows (X : (⟨2, ![100000, 128]⟩ : Shape).Idx → EReal) (W : (⟨2, ![128, 128]⟩ : Shape).Idx → EReal)
    (x : Vec Ideal S4000x128 .f32) (w : Vec Ideal S128x128 .f32) (e : S4000x128.Idx → (⟨2, ![100000, 128]⟩ : Shape).Idx) (n : Nat)
    (hx : ∀ (p : Fin 4000) (k : Fin 128) (r : Fin 100000), r.val = 4000 * n + p.val → x (ix2 p k) = X (ix2 r k))
    (hw : ∀ (k : Fin 128) (q : Fin 128), w (ix2 k q) = W (ix2 k q))
    (he : ∀ (p : Fin 4000) (q : Fin 128), ∃ r : Fin 100000, r.val = 4000 * n + p.val ∧ e (ix2 p q) = ix2 r q) :
    k2_pay1 (F := Ideal) x w = fun j => Cert.Layers.dense (F := Ideal) X W (e j) := by
  funext j
  obtain ⟨p, q, rfl⟩ : ∃ (p : Fin 4000) (q : Fin 128), j = ix2 p q := ⟨j 0, j 1, eq_ix2 j⟩
  obtain ⟨r, hr, her⟩ := he p q
  rw [block2_apply, her, dense_apply]
  exact Finset.sum_congr rfl fun k _ => by rw [hx p k r hr, hw k q]

/-- The three hidden regions' bodies compute the same block product. -/
theorem block4_eq_block2 : @k4_pay1 Ideal _ = @k2_pay1 Ideal _ := rfl
theorem block6_eq_block2 : @k6_pay1 Ideal _ = @k2_pay1 Ideal _ := rfl

/-! ## Region 0 -/

/-- The windows' block indices at grid point t: the features' and the output's blocks move down the rows with t, the
    weights' block stays. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- The features' block at point t is rows 4000·t … of the features. -/
theorem features0_block (c : Dev nD) (t : Fin cfg0.N) (p : Fin 4000) (k : Fin 256) (r : Fin 100000) (hr : r.val = 4000 * t.val + p.val) :
    (iblk0 V c 0 t : Vec Ideal S4000x256 .f32) (ix2 p k) = (V c (Pipeline.arrRef spec0 0) : (⟨2, ![100000, 256]⟩ : Shape).Idx → EReal) (ix2 r k) := by
  obtain ⟨e0, e1, -, -, -, -⟩ := index0 t
  unfold iblk0
  rw [View.read_apply]
  have h : ((cfg0.win 0).blk t).view.emb (ix2 p k) = (ix2 r k : (⟨2, ![100000, 256]⟩ : Shape).Idx) := by
    funext a; apply Fin.ext
    match a with
    | ⟨0, _⟩ => show win0_0.index t (0 : Fin 2) * 4000 + 1 * p.val = r.val; omega
    | ⟨1, _⟩ => show win0_0.index t (1 : Fin 2) * 256 + 1 * k.val = k.val; omega
  rw [h]
  rfl

/-- The weights' block at every point is the whole weight matrix. -/
theorem weights0_block (c : Dev nD) (t : Fin cfg0.N) (k : Fin 256) (q : Fin 128) :
    (iblk0 V c 1 t : Vec Ideal S256x128 .f32) (ix2 k q) = (V c (Pipeline.arrRef spec0 1) : (⟨2, ![256, 128]⟩ : Shape).Idx → EReal) (ix2 k q) := by
  obtain ⟨-, -, e2, e3, -, -⟩ := index0 t
  unfold iblk0
  rw [View.read_apply]
  have h : ((cfg0.win 1).blk t).view.emb (ix2 k q) = (ix2 k q : (⟨2, ![256, 128]⟩ : Shape).Idx) := by
    funext a; apply Fin.ext
    match a with
    | ⟨0, _⟩ => show win0_1.index t (0 : Fin 2) * 256 + 1 * k.val = k.val; omega
    | ⟨1, _⟩ => show win0_1.index t (1 : Fin 2) * 128 + 1 * q.val = q.val; omega
  rw [h]
  rfl

/-- Index (p, q) of the output's block at point t sits at (4000·t + p, q) of the output array. -/
theorem output0_block (t : Fin cfg0.N) (p : Fin 4000) (q : Fin 128) :
    ∃ r : Fin 100000, r.val = 4000 * t.val + p.val ∧ ((cfg0.win 2).blk t).view.emb (ix2 p q) = (ix2 r q : (⟨2, ![100000, 128]⟩ : Shape).Idx) := by
  obtain ⟨-, -, -, -, e4, e5⟩ := index0 t
  have hN : cfg0.N = 25 := N_0
  have ht : t.val < 25 := hN ▸ t.isLt
  refine ⟨⟨4000 * t.val + p.val, by omega⟩, rfl, ?_⟩
  funext a; apply Fin.ext
  match a with
  | ⟨0, _⟩ => show win0_2.index t (0 : Fin 2) * 4000 + 1 * p.val = 4000 * t.val + p.val; omega
  | ⟨1, _⟩ => show win0_2.index t (1 : Fin 2) * 128 + 1 * q.val = q.val; omega

/-- What point t writes back is block t of the whole first product of the arrays the region finds. -/
theorem dense0_written (c : Dev nD) (t : Fin cfg0.N) :
    (dat0 V c).flushed 2 t = ((cfg0.win 2).blk t).view.read (Elt Ideal)
      (Cert.Layers.dense0 (F := Ideal) (V c (Pipeline.arrRef spec0 0)) (V c (Pipeline.arrRef spec0 1))) := by
  show (cfg0.win 2).cut (grid0.coords t) ((dat0 V c).after 2 t) = _
  rw [after0_2]
  unfold out0_2
  rw [View.canon_unit_zero zero_offset]
  simp only [View.ld_unit_zero (S := S4000x256) zero_offset, View.ld_unit_zero (S := S256x128) zero_offset]
  exact block0_eq_rows (V c (Pipeline.arrRef spec0 0)) (V c (Pipeline.arrRef spec0 1)) (iblk0 V c 0 t) (iblk0 V c 1 t)
    ((cfg0.win 2).blk t).view.emb t.val (features0_block V c t) (weights0_block V c t) (output0_block t)

/-- An index of the output array is in point t's block iff each coordinate is in the block's range on its axis. -/
theorem mem_output0_block (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v30).slice (win0_2.rect t)).set ↔ _
  rw [View.set_slice_whole, Rect.mem_set_unit]
  exact Iff.rfl

/-- Row r of the output is in the block of point r / 4000. -/
theorem output0_covered (i : S100000x128.Idx) :
    ∃ t : Fin cfg0.N, (cfg0.win 2).flush t = true ∧ i ∈ ((cfg0.win 2).blk t).view.set := by
  have hN : cfg0.N = 25 := N_0
  have hi0 : (i 0).val < 100000 := (i 0).isLt
  have hi1 : (i 1).val < 128 := (i 1).isLt
  let t : Fin cfg0.N := ⟨(i 0).val / 4000, by rw [hN]; omega⟩
  have htv : t.val = (i 0).val / 4000 := rfl
  obtain ⟨-, -, -, -, e4, e5⟩ := index0 t
  refine ⟨t, flush0_2 t, ?_⟩
  rw [mem_output0_block]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- Region 0's output array is the first dense product of the features and weights the region finds. -/
theorem dense0_array (c : Dev nD) :
    (dat0 (F := Ideal) V c).arrAt 2 cfg0.N
      = Cert.Layers.dense0 (F := Ideal) (V c (Pipeline.arrRef spec0 0)) (V c (Pipeline.arrRef spec0 1)) :=
  (dat0 V c).arrAt_eq_of_cover 2 _ (fun t _ => dense0_written V c t) output0_covered

/-! ## Region 2 -/

/-- The windows' block indices at grid point t, as in region 0. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The features' block at point t is rows 4000·t … of the features. -/
theorem features2_block (c : Dev nD) (t : Fin cfg2.N) (p : Fin 4000) (k : Fin 128) (r : Fin 100000) (hr : r.val = 4000 * t.val + p.val) :
    (iblk2 V c 0 t : Vec Ideal S4000x128 .f32) (ix2 p k) = (V c (Pipeline.arrRef spec2 0) : (⟨2, ![100000, 128]⟩ : Shape).Idx → EReal) (ix2 r k) := by
  obtain ⟨e0, e1, -, -, -, -⟩ := index2 t
  unfold iblk2
  rw [View.read_apply]
  have h : ((cfg2.win 0).blk t).view.emb (ix2 p k) = (ix2 r k : (⟨2, ![100000, 128]⟩ : Shape).Idx) := by
    funext a; apply Fin.ext
    match a with
    | ⟨0, _⟩ => show win2_0.index t (0 : Fin 2) * 4000 + 1 * p.val = r.val; omega
    | ⟨1, _⟩ => show win2_0.index t (1 : Fin 2) * 128 + 1 * k.val = k.val; omega
  rw [h]
  rfl

/-- The weights' block at every point is the whole weight matrix. -/
theorem weights2_block (c : Dev nD) (t : Fin cfg2.N) (k : Fin 128) (q : Fin 128) :
    (iblk2 V c 1 t : Vec Ideal S128x128 .f32) (ix2 k q) = (V c (Pipeline.arrRef spec2 1) : (⟨2, ![128, 128]⟩ : Shape).Idx → EReal) (ix2 k q) := by
  obtain ⟨-, -, e2, e3, -, -⟩ := index2 t
  unfold iblk2
  rw [View.read_apply]
  have h : ((cfg2.win 1).blk t).view.emb (ix2 k q) = (ix2 k q : (⟨2, ![128, 128]⟩ : Shape).Idx) := by
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  rw [h]
  rfl

/-- Index (p, q) of the output's block at point t sits at (4000·t + p, q) of the output array. -/
theorem output2_block (t : Fin cfg2.N) (p : Fin 4000) (q : Fin 128) :
    ∃ r : Fin 100000, r.val = 4000 * t.val + p.val ∧ ((cfg2.win 2).blk t).view.emb (ix2 p q) = (ix2 r q : (⟨2, ![100000, 128]⟩ : Shape).Idx) := by
  obtain ⟨-, -, -, -, e4, e5⟩ := index2 t
  have hN : cfg2.N = 25 := N_2
  have ht : t.val < 25 := hN ▸ t.isLt
  refine ⟨⟨4000 * t.val + p.val, by omega⟩, rfl, ?_⟩
  funext a; apply Fin.ext
  match a with
  | ⟨0, _⟩ => show win2_2.index t (0 : Fin 2) * 4000 + 1 * p.val = 4000 * t.val + p.val; omega
  | ⟨1, _⟩ => show win2_2.index t (1 : Fin 2) * 128 + 1 * q.val = q.val; omega

/-- What point t writes back is block t of the whole hidden product of the arrays the region finds. -/
theorem dense2_written (c : Dev nD) (t : Fin cfg2.N) :
    (dat2 V c).flushed 2 t = ((cfg2.win 2).blk t).view.read (Elt Ideal)
      (Cert.Layers.dense (F := Ideal) (V c (Pipeline.arrRef spec2 0)) (V c (Pipeline.arrRef spec2 1))) := by
  show (cfg2.win 2).cut (grid2.coords t) ((dat2 V c).after 2 t) = _
  rw [after2_2]
  unfold out2_2
  rw [View.canon_unit_zero zero_offset]
  simp only [View.ld_unit_zero (S := S4000x128) zero_offset, View.ld_unit_zero (S := S128x128) zero_offset]
  exact block2_eq_rows (V c (Pipeline.arrRef spec2 0)) (V c (Pipeline.arrRef spec2 1)) (iblk2 V c 0 t) (iblk2 V c 1 t)
    ((cfg2.win 2).blk t).view.emb t.val (features2_block V c t) (weights2_block V c t) (output2_block t)

/-- An index of the output array is in point t's block iff each coordinate is in the block's range on its axis. -/
theorem mem_output2_block (t : Fin cfg2.N) (i : S100000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v45).slice (win2_2.rect t)).set ↔ _
  rw [View.set_slice_whole, Rect.mem_set_unit]
  exact Iff.rfl

/-- Row r of the output is in the block of point r / 4000. -/
theorem output2_covered (i : S100000x128.Idx) :
    ∃ t : Fin cfg2.N, (cfg2.win 2).flush t = true ∧ i ∈ ((cfg2.win 2).blk t).view.set := by
  have hN : cfg2.N = 25 := N_2
  have hi0 : (i 0).val < 100000 := (i 0).isLt
  have hi1 : (i 1).val < 128 := (i 1).isLt
  let t : Fin cfg2.N := ⟨(i 0).val / 4000, by rw [hN]; omega⟩
  have htv : t.val = (i 0).val / 4000 := rfl
  obtain ⟨-, -, -, -, e4, e5⟩ := index2 t
  refine ⟨t, flush2_2 t, ?_⟩
  rw [mem_output2_block]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 128 ≤ (i 1).val ∧ (i 1).val < win2_2.index t (1 : Fin 2) * 128 + 128; omega

/-- Region 2's output array is the first hidden dense product of the features and weights the region finds. -/
theorem dense2_array (c : Dev nD) :
    (dat2 (F := Ideal) V c).arrAt 2 cfg2.N
      = Cert.Layers.dense (F := Ideal) (V c (Pipeline.arrRef spec2 0)) (V c (Pipeline.arrRef spec2 1)) :=
  (dat2 V c).arrAt_eq_of_cover 2 _ (fun t _ => dense2_written V c t) output2_covered

/-! ## Region 4 -/

/-- The windows' block indices at grid point t, as in region 0. -/
theorem index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The features' block at point t is rows 4000·t … of the features. -/
theorem features4_block (c : Dev nD) (t : Fin cfg4.N) (p : Fin 4000) (k : Fin 128) (r : Fin 100000) (hr : r.val = 4000 * t.val + p.val) :
    (iblk4 V c 0 t : Vec Ideal S4000x128 .f32) (ix2 p k) = (V c (Pipeline.arrRef spec4 0) : (⟨2, ![100000, 128]⟩ : Shape).Idx → EReal) (ix2 r k) := by
  obtain ⟨e0, e1, -, -, -, -⟩ := index4 t
  unfold iblk4
  rw [View.read_apply]
  have h : ((cfg4.win 0).blk t).view.emb (ix2 p k) = (ix2 r k : (⟨2, ![100000, 128]⟩ : Shape).Idx) := by
    funext a; apply Fin.ext
    match a with
    | ⟨0, _⟩ => show win4_0.index t (0 : Fin 2) * 4000 + 1 * p.val = r.val; omega
    | ⟨1, _⟩ => show win4_0.index t (1 : Fin 2) * 128 + 1 * k.val = k.val; omega
  rw [h]
  rfl

/-- The weights' block at every point is the whole weight matrix. -/
theorem weights4_block (c : Dev nD) (t : Fin cfg4.N) (k : Fin 128) (q : Fin 128) :
    (iblk4 V c 1 t : Vec Ideal S128x128 .f32) (ix2 k q) = (V c (Pipeline.arrRef spec4 1) : (⟨2, ![128, 128]⟩ : Shape).Idx → EReal) (ix2 k q) := by
  obtain ⟨-, -, e2, e3, -, -⟩ := index4 t
  unfold iblk4
  rw [View.read_apply]
  have h : ((cfg4.win 1).blk t).view.emb (ix2 k q) = (ix2 k q : (⟨2, ![128, 128]⟩ : Shape).Idx) := by
    funext a; apply Fin.ext
    match a with
    | ⟨0, _⟩ => show win4_1.index t (0 : Fin 2) * 128 + 1 * k.val = k.val; omega
    | ⟨1, _⟩ => show win4_1.index t (1 : Fin 2) * 128 + 1 * q.val = q.val; omega
  rw [h]
  rfl

/-- Index (p, q) of the output's block at point t sits at (4000·t + p, q) of the output array. -/
theorem output4_block (t : Fin cfg4.N) (p : Fin 4000) (q : Fin 128) :
    ∃ r : Fin 100000, r.val = 4000 * t.val + p.val ∧ ((cfg4.win 2).blk t).view.emb (ix2 p q) = (ix2 r q : (⟨2, ![100000, 128]⟩ : Shape).Idx) := by
  obtain ⟨-, -, -, -, e4, e5⟩ := index4 t
  have hN : cfg4.N = 25 := N_4
  have ht : t.val < 25 := hN ▸ t.isLt
  refine ⟨⟨4000 * t.val + p.val, by omega⟩, rfl, ?_⟩
  funext a; apply Fin.ext
  match a with
  | ⟨0, _⟩ => show win4_2.index t (0 : Fin 2) * 4000 + 1 * p.val = 4000 * t.val + p.val; omega
  | ⟨1, _⟩ => show win4_2.index t (1 : Fin 2) * 128 + 1 * q.val = q.val; omega

/-- What point t writes back is block t of the whole hidden product of the arrays the region finds. -/
theorem dense4_written (c : Dev nD) (t : Fin cfg4.N) :
    (dat4 V c).flushed 2 t = ((cfg4.win 2).blk t).view.read (Elt Ideal)
      (Cert.Layers.dense (F := Ideal) (V c (Pipeline.arrRef spec4 0)) (V c (Pipeline.arrRef spec4 1))) := by
  show (cfg4.win 2).cut (grid4.coords t) ((dat4 V c).after 2 t) = _
  rw [after4_2]
  unfold out4_2
  rw [View.canon_unit_zero zero_offset]
  simp only [View.ld_unit_zero (S := S4000x128) zero_offset, View.ld_unit_zero (S := S128x128) zero_offset]
  rw [block4_eq_block2]
  exact block2_eq_rows (V c (Pipeline.arrRef spec4 0)) (V c (Pipeline.arrRef spec4 1)) (iblk4 V c 0 t) (iblk4 V c 1 t)
    ((cfg4.win 2).blk t).view.emb t.val (features4_block V c t) (weights4_block V c t) (output4_block t)

/-- An index of the output array is in point t's block iff each coordinate is in the block's range on its axis. -/
theorem mem_output4_block (t : Fin cfg4.N) (i : S100000x128.Idx) :
    i ∈ ((cfg4.win 2).blk t).view.set ↔ ∀ a : Fin 2, win4_2.index t a * S4000x128.size a ≤ (i a).val ∧ (i a).val < win4_2.index t a * S4000x128.size a + S4000x128.size a := by
  show i ∈ ((View.whole main_v60).slice (win4_2.rect t)).set ↔ _
  rw [View.set_slice_whole, Rect.mem_set_unit]
  exact Iff.rfl

/-- Row r of the output is in the block of point r / 4000. -/
theorem output4_covered (i : S100000x128.Idx) :
    ∃ t : Fin cfg4.N, (cfg4.win 2).flush t = true ∧ i ∈ ((cfg4.win 2).blk t).view.set := by
  have hN : cfg4.N = 25 := N_4
  have hi0 : (i 0).val < 100000 := (i 0).isLt
  have hi1 : (i 1).val < 128 := (i 1).isLt
  let t : Fin cfg4.N := ⟨(i 0).val / 4000, by rw [hN]; omega⟩
  have htv : t.val = (i 0).val / 4000 := rfl
  obtain ⟨-, -, -, -, e4, e5⟩ := index4 t
  refine ⟨t, flush4_2 t, ?_⟩
  rw [mem_output4_block]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 128 ≤ (i 1).val ∧ (i 1).val < win4_2.index t (1 : Fin 2) * 128 + 128; omega

/-- Region 4's output array is the second hidden dense product of the features and weights the region finds. -/
theorem dense4_array (c : Dev nD) :
    (dat4 (F := Ideal) V c).arrAt 2 cfg4.N
      = Cert.Layers.dense (F := Ideal) (V c (Pipeline.arrRef spec4 0)) (V c (Pipeline.arrRef spec4 1)) :=
  (dat4 V c).arrAt_eq_of_cover 2 _ (fun t _ => dense4_written V c t) output4_covered

/-! ## Region 6 -/

/-- The windows' block indices at grid point t, as in region 0. -/
theorem index6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The features' block at point t is rows 4000·t … of the features. -/
theorem features6_block (c : Dev nD) (t : Fin cfg6.N) (p : Fin 4000) (k : Fin 128) (r : Fin 100000) (hr : r.val = 4000 * t.val + p.val) :
    (iblk6 V c 0 t : Vec Ideal S4000x128 .f32) (ix2 p k) = (V c (Pipeline.arrRef spec6 0) : (⟨2, ![100000, 128]⟩ : Shape).Idx → EReal) (ix2 r k) := by
  obtain ⟨e0, e1, -, -, -, -⟩ := index6 t
  unfold iblk6
  rw [View.read_apply]
  have h : ((cfg6.win 0).blk t).view.emb (ix2 p k) = (ix2 r k : (⟨2, ![100000, 128]⟩ : Shape).Idx) := by
    funext a; apply Fin.ext
    match a with
    | ⟨0, _⟩ => show win6_0.index t (0 : Fin 2) * 4000 + 1 * p.val = r.val; omega
    | ⟨1, _⟩ => show win6_0.index t (1 : Fin 2) * 128 + 1 * k.val = k.val; omega
  rw [h]
  rfl

/-- The weights' block at every point is the whole weight matrix. -/
theorem weights6_block (c : Dev nD) (t : Fin cfg6.N) (k : Fin 128) (q : Fin 128) :
    (iblk6 V c 1 t : Vec Ideal S128x128 .f32) (ix2 k q) = (V c (Pipeline.arrRef spec6 1) : (⟨2, ![128, 128]⟩ : Shape).Idx → EReal) (ix2 k q) := by
  obtain ⟨-, -, e2, e3, -, -⟩ := index6 t
  unfold iblk6
  rw [View.read_apply]
  have h : ((cfg6.win 1).blk t).view.emb (ix2 k q) = (ix2 k q : (⟨2, ![128, 128]⟩ : Shape).Idx) := by
    funext a; apply Fin.ext
    match a with
    | ⟨0, _⟩ => show win6_1.index t (0 : Fin 2) * 128 + 1 * k.val = k.val; omega
    | ⟨1, _⟩ => show win6_1.index t (1 : Fin 2) * 128 + 1 * q.val = q.val; omega
  rw [h]
  rfl

/-- Index (p, q) of the output's block at point t sits at (4000·t + p, q) of the output array. -/
theorem output6_block (t : Fin cfg6.N) (p : Fin 4000) (q : Fin 128) :
    ∃ r : Fin 100000, r.val = 4000 * t.val + p.val ∧ ((cfg6.win 2).blk t).view.emb (ix2 p q) = (ix2 r q : (⟨2, ![100000, 128]⟩ : Shape).Idx) := by
  obtain ⟨-, -, -, -, e4, e5⟩ := index6 t
  have hN : cfg6.N = 25 := N_6
  have ht : t.val < 25 := hN ▸ t.isLt
  refine ⟨⟨4000 * t.val + p.val, by omega⟩, rfl, ?_⟩
  funext a; apply Fin.ext
  match a with
  | ⟨0, _⟩ => show win6_2.index t (0 : Fin 2) * 4000 + 1 * p.val = 4000 * t.val + p.val; omega
  | ⟨1, _⟩ => show win6_2.index t (1 : Fin 2) * 128 + 1 * q.val = q.val; omega

/-- What point t writes back is block t of the whole hidden product of the arrays the region finds. -/
theorem dense6_written (c : Dev nD) (t : Fin cfg6.N) :
    (dat6 V c).flushed 2 t = ((cfg6.win 2).blk t).view.read (Elt Ideal)
      (Cert.Layers.dense (F := Ideal) (V c (Pipeline.arrRef spec6 0)) (V c (Pipeline.arrRef spec6 1))) := by
  show (cfg6.win 2).cut (grid6.coords t) ((dat6 V c).after 2 t) = _
  rw [after6_2]
  unfold out6_2
  rw [View.canon_unit_zero zero_offset]
  simp only [View.ld_unit_zero (S := S4000x128) zero_offset, View.ld_unit_zero (S := S128x128) zero_offset]
  rw [block6_eq_block2]
  exact block2_eq_rows (V c (Pipeline.arrRef spec6 0)) (V c (Pipeline.arrRef spec6 1)) (iblk6 V c 0 t) (iblk6 V c 1 t)
    ((cfg6.win 2).blk t).view.emb t.val (features6_block V c t) (weights6_block V c t) (output6_block t)

/-- An index of the output array is in point t's block iff each coordinate is in the block's range on its axis. -/
theorem mem_output6_block (t : Fin cfg6.N) (i : S100000x128.Idx) :
    i ∈ ((cfg6.win 2).blk t).view.set ↔ ∀ a : Fin 2, win6_2.index t a * S4000x128.size a ≤ (i a).val ∧ (i a).val < win6_2.index t a * S4000x128.size a + S4000x128.size a := by
  show i ∈ ((View.whole main_v75).slice (win6_2.rect t)).set ↔ _
  rw [View.set_slice_whole, Rect.mem_set_unit]
  exact Iff.rfl

/-- Row r of the output is in the block of point r / 4000. -/
theorem output6_covered (i : S100000x128.Idx) :
    ∃ t : Fin cfg6.N, (cfg6.win 2).flush t = true ∧ i ∈ ((cfg6.win 2).blk t).view.set := by
  have hN : cfg6.N = 25 := N_6
  have hi0 : (i 0).val < 100000 := (i 0).isLt
  have hi1 : (i 1).val < 128 := (i 1).isLt
  let t : Fin cfg6.N := ⟨(i 0).val / 4000, by rw [hN]; omega⟩
  have htv : t.val = (i 0).val / 4000 := rfl
  obtain ⟨-, -, -, -, e4, e5⟩ := index6 t
  refine ⟨t, flush6_2 t, ?_⟩
  rw [mem_output6_block]
  intro a
  match a with
  | ⟨0, _⟩ => show win6_2.index t (0 : Fin 2) * 4000 ≤ (i 0).val ∧ (i 0).val < win6_2.index t (0 : Fin 2) * 4000 + 4000; omega
  | ⟨1, _⟩ => show win6_2.index t (1 : Fin 2) * 128 ≤ (i 1).val ∧ (i 1).val < win6_2.index t (1 : Fin 2) * 128 + 128; omega

/-- Region 6's output array is the third hidden dense product of the features and weights the region finds. -/
theorem dense6_array (c : Dev nD) :
    (dat6 (F := Ideal) V c).arrAt 2 cfg6.N
      = Cert.Layers.dense (F := Ideal) (V c (Pipeline.arrRef spec6 0)) (V c (Pipeline.arrRef spec6 1)) :=
  (dat6 V c).arrAt_eq_of_cover 2 _ (fun t _ => dense6_written V c t) output6_covered

end

end Cert.DenseRegions

end
-- ==== Proof.BiasRegions.lean ====
/-
  The four bias regions of the network: each adds a bias vector [128] to every row of an aggregated feature
  array [100000, 128], and the first and third then take the positive part (the maximum with zero).

  Entry (r, j) of a region's output is  agg[r, j] + b[j]  (then the maximum with 0 for the positive part),
  computed in this order by both programs: the kernel reshapes b to one row and repeats it on the 4000 rows of
  its block; the layer repeats b on all 100000 rows.  Each region runs over 25 grid points, point t handling
  rows 4000 t … 4000 t + 3999; the bias window is the whole vector at every point.

  Per region: the payload read at an index; what point t writes back is block t of the layer (at a symbolic
  point t); the blocks cover the array (row r is in block r / 4000); hence the output array is the layer of the
  two arrays the region finds.
-/
import proofs.«111109_j996432412812_1_alg».proof.Proof.Gen.KernelIdeal.Frame
import proofs.«111109_j996432412812_1_alg».proof.Proof.Layers
import Idealize.ShloMosaic.Lib.Pipeline.Value
import Idealize.ShloMosaic.Lib.ValueIdx
import Idealize.ShloMosaic.Lib.ValueLayout

noncomputable section

namespace Cert.BiasRegions

open Idealize.ShloMosaic Idealize.ShloMosaic.TcCoe Idealize.SL.Sem Cert.KernelIdeal Cert.KernelIdeal.Gen
open Idealize.ShloMosaic.ValueIdx

/-! ## Zero offsets, however spelt -/

theorem zero2 : (![0, 0] : Fin 2 → Nat) = fun _ => 0 := funext fun a => by fin_cases a <;> rfl
theorem zero1 : (![0] : Fin 1 → Nat) = fun _ => 0 := funext fun a => by fin_cases a; rfl

/-! ## The bias on every row, read at an index -/

/-- The bias, reshaped to one row and repeated on the 4000 rows of a block, holds b[q] at row p, column q. -/
theorem biasBlock_apply (b : Vec Ideal S128 .f32) (p : Fin 4000) (q : Fin 128) :
    broadcastTo S4000x128 (shapeCast S1x128 b shapeCasts_S128_S1x128) broadcasts_S1x128_S4000x128 (ix2 p q)
      = b (ix1 q) := by
  rw [broadcastTo_1b_ab_apply, shapeCast_a_1a_apply]

/-- The bias repeated on all 100000 rows holds b[q] at row r, column q. -/
theorem biasRows_apply (b : (⟨Cert.ReferenceIdeal.S128, .f32⟩ : BufTy).Contents (Elt Ideal)) (r : Fin 100000)
    (q : Fin 128) : Cert.Layers.biasRows (F := Ideal) b (ix2 r q) = b (ix1 q) := by
  unfold Cert.Layers.biasRows
  rw [broadcastInDim_apply _ Cert.ReferenceIdeal.Gen.bcast_S1x128_S100000x128_0_1 _ (ix2 r q) (ix2 (0 : Fin 1) q)
    (fun a => match a with
      | ⟨0, _⟩ => by show 0 = if (1 : Nat) = 1 then 0 else r.val; rw [if_pos rfl]
      | ⟨1, _⟩ => by show q.val = if (128 : Nat) = 1 then 0 else q.val; rw [if_neg (by decide)])]
  exact broadcastInDim_apply _ Cert.ReferenceIdeal.Gen.bcast_S128_S1x128_1 b (ix2 (0 : Fin 1) q) (ix1 q)
    (fun a => match a with
      | ⟨0, _⟩ => by show q.val = if (128 : Nat) = 1 then 0 else q.val; rw [if_neg (by decide)])

/-! ## The bias-add layer and its block -/

/-- The bias-add payload at row p, column q of a block: the block's entry plus b[q]. -/
theorem addBiasBlock_apply (b : Vec Ideal S128 .f32) (x : Vec Ideal S4000x128 .f32) (p : Fin 4000) (q : Fin 128) :
    k3_pay1 b x (ix2 p q) = x (ix2 p q) + b (ix1 q) := by
  unfold k3_pay1
  rw [addf_apply, biasBlock_apply, shapeCast_self]

/-- The bias-add layer at row r, column q: the array's entry plus b[q]. -/
theorem addBias_apply (A : (⟨Cert.ReferenceIdeal.S100000x128, .f32⟩ : BufTy).Contents (Elt Ideal))
    (b : (⟨Cert.ReferenceIdeal.S128, .f32⟩ : BufTy).Contents (Elt Ideal)) (r : Fin 100000) (q : Fin 128) :
    Cert.Layers.addBias (F := Ideal) A b (ix2 r q) = A (ix2 r q) + b (ix1 q) := by
  unfold Cert.Layers.addBias
  rw [addf_apply, biasRows_apply]

/-- A block of the bias-add layer: where the block's entry at j is the array's entry at i, the bias block is the
    bias, and i's column is j's column, the payload's entry at j is the layer's entry at i. -/
theorem addBias_block_eq (A : (⟨Cert.ReferenceIdeal.S100000x128, .f32⟩ : BufTy).Contents (Elt Ideal))
    (B : (⟨Cert.ReferenceIdeal.S128, .f32⟩ : BufTy).Contents (Elt Ideal))
    (b : Vec Ideal S128 .f32) (x : Vec Ideal S4000x128 .f32) (j : S4000x128.Idx) (i : S100000x128.Idx)
    (hx : x j = A i) (hb : ∀ q : Fin 128, b (ix1 q) = B (ix1 q)) (hi : (i 1).val = (j 1).val) :
    k3_pay1 b x j = Cert.Layers.addBias (F := Ideal) A B i := by
  obtain ⟨p, q, rfl⟩ : ∃ (p : Fin 4000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi
  rw [addBiasBlock_apply, addBias_apply, hx, hb]

/-- The last bias region's payload is the same tree of operations. -/
theorem pay7_eq (b : Vec Ideal S128 .f32) (x : Vec Ideal S4000x128 .f32) : k7_pay1 b x = k3_pay1 b x := rfl

/-! ## The same with the positive part -/

/-- The bias-add-then-positive-part payload at row p, column q of a block. -/
theorem addBiasReluBlock_apply (b : Vec Ideal S128 .f32) (x : Vec Ideal S4000x128 .f32) (p : Fin 4000)
    (q : Fin 128) :
    k1_pay1 b x (ix2 p q) = max (x (ix2 p q) + b (ix1 q)) (FloatOps.ofBits (F := Ideal) .f32 0x00000000#32) := by
  unfold k1_pay1
  rw [maximumf_apply, addf_apply, biasBlock_apply, shapeCast_self, broadcast_apply]

/-- The bias-add-then-positive-part layer at row r, column q: the zero it compares with is the same word's value. -/
theorem addBiasRelu_apply (A : (⟨Cert.ReferenceIdeal.S100000x128, .f32⟩ : BufTy).Contents (Elt Ideal))
    (b : (⟨Cert.ReferenceIdeal.S128, .f32⟩ : BufTy).Contents (Elt Ideal)) (r : Fin 100000) (q : Fin 128) :
    Cert.Layers.addBiasRelu (F := Ideal) A b (ix2 r q)
      = max (A (ix2 r q) + b (ix1 q)) (FloatOps.ofBits (F := Ideal) .f32 0x00000000#32) := by
  unfold Cert.Layers.addBiasRelu
  rw [maximumf_apply, addBias_apply,
    broadcastInDim_apply _ Cert.ReferenceIdeal.Gen.bcast_S_S100000x128 _ (ix2 r q) ix0 (fun a => a.elim0)]
  rfl

/-- A block of the bias-add-then-positive-part layer, as for the bias-add layer. -/
theorem addBiasRelu_block_eq (A : (⟨Cert.ReferenceIdeal.S100000x128, .f32⟩ : BufTy).Contents (Elt Ideal))
    (B : (⟨Cert.ReferenceIdeal.S128, .f32⟩ : BufTy).Contents (Elt Ideal))
    (b : Vec Ideal S128 .f32) (x : Vec Ideal S4000x128 .f32) (j : S4000x128.Idx) (i : S100000x128.Idx)
    (hx : x j = A i) (hb : ∀ q : Fin 128, b (ix1 q) = B (ix1 q)) (hi : (i 1).val = (j 1).val) :
    k1_pay1 b x j = Cert.Layers.addBiasRelu (F := Ideal) A B i := by
  obtain ⟨p, q, rfl⟩ : ∃ (p : Fin 4000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi
  rw [addBiasReluBlock_apply, addBiasRelu_apply, hx, hb]

/-- The third bias region's payload is the same tree of operations. -/
theorem pay5_eq (b : Vec Ideal S128 .f32) (x : Vec Ideal S4000x128 .f32) : k5_pay1 b x = k1_pay1 b x := rfl

/-! ## The regions -/

variable (V : (c : Dev nD) → (b : Ref sig .tc) → Buf (Elt Ideal) ((c : Thread nD τ).loc b))

/-! ## Region 1: the first bias, then the positive part -/

/-- The printed index maps over the grid: the input block and the output block sit at the same rows
    (row block t, column block 0), and the bias window is the whole vector at every point. -/
theorem index_facts1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point t writes back is block t of the bias-add-then-positive-part layer of the two arrays the region finds. -/
theorem bias1_flushed (c : Dev nD) (t : Fin cfg1.N) :
    (dat1 (F := Ideal) V c).flushed 2 t = ((cfg1.win 2).blk t).view.read (Elt Ideal)
      (Cert.Layers.addBiasRelu (F := Ideal) (V c (Pipeline.arrRef spec1 0)) (V c (Pipeline.arrRef spec1 1))) := by
  show (cfg1.win 2).cut (grid1.coords t) ((dat1 V c).after 2 t) = _
  rw [after1_2]
  unfold out1_2
  rw [View.canon_unit_zero zero2]
  simp only [View.ld_unit_zero (S := S4000x128) zero2, View.ld_unit_zero (S := S128) zero1]
  obtain ⟨e0, e1, e2, e3, e4⟩ := index_facts1 t
  funext j
  show k1_pay1 (iblk1 V c 1 t) (iblk1 V c 0 t) j
    = Cert.Layers.addBiasRelu (F := Ideal) (V c (Pipeline.arrRef spec1 0)) (V c (Pipeline.arrRef spec1 1))
        (((cfg1.win 2).blk t).view.emb j)
  refine addBiasRelu_block_eq _ _ _ _ j _ ?_ (fun q => ?_) ?_
  · -- the input block's entry: both blocks start at row 4000 t, column 0
    show V c (Pipeline.arrRef spec1 0) (((cfg1.win 0).blk t).view.emb j)
      = V c (Pipeline.arrRef spec1 0) (((cfg1.win 2).blk t).view.emb j)
    refine congrArg _ (funext fun a => Fin.ext ?_)
    match a with
    | ⟨0, _⟩ =>
      show win1_0.index t (0 : Fin 2) * 4000 + 1 * (j 0).val = win1_2.index t (0 : Fin 2) * 4000 + 1 * (j 0).val
      omega
    | ⟨1, _⟩ =>
      show win1_0.index t (1 : Fin 2) * 128 + 1 * (j 1).val = win1_2.index t (1 : Fin 2) * 128 + 1 * (j 1).val
      omega
  · -- the bias block is the whole bias vector
    show V c (Pipeline.arrRef spec1 1) (((cfg1.win 1).blk t).view.emb (ix1 q)) = V c (Pipeline.arrRef spec1 1) (ix1 q)
    refine congrArg _ (funext fun a => Fin.ext ?_)
    match a with
    | ⟨0, _⟩ => show win1_1.index t (0 : Fin 1) * 128 + 1 * q.val = q.val; omega
  · -- the output block keeps the column
    show win1_2.index t (1 : Fin 2) * 128 + 1 * (j 1).val = (j 1).val; omega

/-- An index of the array is in point t's output block iff each coordinate is in the block's range on its axis. -/
theorem mem_block1 (t : Fin cfg1.N) (i : S100000x128.Idx) :
    i ∈ ((cfg1.win 2).blk t).view.set ↔ ∀ a : Fin 2, win1_2.index t a * S4000x128.size a ≤ (i a).val
      ∧ (i a).val < win1_2.index t a * S4000x128.size a + S4000x128.size a := by
  show i ∈ ((View.whole main_v44).slice (win1_2.rect t)).set ↔ _
  rw [View.set_slice_whole, Rect.mem_set_unit]
  exact Iff.rfl

/-- Row r of the array is written back by point r / 4000: the 25 blocks of 4000 rows tile the 100000 rows. -/
theorem cover1 (i : S100000x128.Idx) :
    ∃ t : Fin cfg1.N, (cfg1.win 2).flush t = true ∧ i ∈ ((cfg1.win 2).blk t).view.set := by
  have hN : cfg1.N = 25 := N_1
  have hi0 : (i 0).val < 100000 := (i 0).isLt
  have hi1 : (i 1).val < 128 := (i 1).isLt
  refine ⟨⟨(i 0).val / 4000, by rw [hN]; omega⟩, flush1_2 _, ?_⟩
  rw [mem_block1]
  obtain ⟨-, -, -, e3, e4⟩ := index_facts1 ⟨(i 0).val / 4000, by rw [hN]; omega⟩
  intro a
  match a with
  | ⟨0, _⟩ =>
    show win1_2.index _ (0 : Fin 2) * 4000 ≤ (i 0).val ∧ (i 0).val < win1_2.index _ (0 : Fin 2) * 4000 + 4000
    rw [e3]
    show (i 0).val / 4000 * 4000 ≤ (i 0).val ∧ (i 0).val < (i 0).val / 4000 * 4000 + 4000
    omega
  | ⟨1, _⟩ =>
    show win1_2.index _ (1 : Fin 2) * 128 ≤ (i 1).val ∧ (i 1).val < win1_2.index _ (1 : Fin 2) * 128 + 128
    rw [e4]
    omega

/-- Region 1 leaves its output array at the bias-add-then-positive-part layer of the two arrays it finds. -/
theorem bias1_array (c : Dev nD) :
    (dat1 (F := Ideal) V c).arrAt 2 cfg1.N
      = Cert.Layers.addBiasRelu (F := Ideal) (V c (Pipeline.arrRef spec1 0)) (V c (Pipeline.arrRef spec1 1)) :=
  (dat1 (F := Ideal) V c).arrAt_eq_of_cover 2 _ (fun t _ => bias1_flushed V c t) cover1

/-! ## Region 3: the second bias -/

/-- The printed index maps over the grid: the input block and the output block sit at the same rows
    (row block t, column block 0), and the bias window is the whole vector at every point. -/
theorem index_facts3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- What point t writes back is block t of the bias-add layer of the two arrays the region finds. -/
theorem bias3_flushed (c : Dev nD) (t : Fin cfg3.N) :
    (dat3 (F := Ideal) V c).flushed 2 t = ((cfg3.win 2).blk t).view.read (Elt Ideal)
      (Cert.Layers.addBias (F := Ideal) (V c (Pipeline.arrRef spec3 0)) (V c (Pipeline.arrRef spec3 1))) := by
  show (cfg3.win 2).cut (grid3.coords t) ((dat3 V c).after 2 t) = _
  rw [after3_2]
  unfold out3_2
  rw [View.canon_unit_zero zero2]
  simp only [View.ld_unit_zero (S := S4000x128) zero2, View.ld_unit_zero (S := S128) zero1]
  obtain ⟨e0, e1, e2, e3, e4⟩ := index_facts3 t
  funext j
  show k3_pay1 (iblk3 V c 1 t) (iblk3 V c 0 t) j
    = Cert.Layers.addBias (F := Ideal) (V c (Pipeline.arrRef spec3 0)) (V c (Pipeline.arrRef spec3 1))
        (((cfg3.win 2).blk t).view.emb j)
  refine addBias_block_eq _ _ _ _ j _ ?_ (fun q => ?_) ?_
  · -- the input block's entry: both blocks start at row 4000 t, column 0
    show V c (Pipeline.arrRef spec3 0) (((cfg3.win 0).blk t).view.emb j)
      = V c (Pipeline.arrRef spec3 0) (((cfg3.win 2).blk t).view.emb j)
    refine congrArg _ (funext fun a => Fin.ext ?_)
    match a with
    | ⟨0, _⟩ =>
      show win3_0.index t (0 : Fin 2) * 4000 + 1 * (j 0).val = win3_2.index t (0 : Fin 2) * 4000 + 1 * (j 0).val
      omega
    | ⟨1, _⟩ =>
      show win3_0.index t (1 : Fin 2) * 128 + 1 * (j 1).val = win3_2.index t (1 : Fin 2) * 128 + 1 * (j 1).val
      omega
  · -- the bias block is the whole bias vector
    show V c (Pipeline.arrRef spec3 1) (((cfg3.win 1).blk t).view.emb (ix1 q)) = V c (Pipeline.arrRef spec3 1) (ix1 q)
    refine congrArg _ (funext fun a => Fin.ext ?_)
    match a with
    | ⟨0, _⟩ => show win3_1.index t (0 : Fin 1) * 128 + 1 * q.val = q.val; omega
  · -- the output block keeps the column
    show win3_2.index t (1 : Fin 2) * 128 + 1 * (j 1).val = (j 1).val; omega

/-- An index of the array is in point t's output block iff each coordinate is in the block's range on its axis. -/
theorem mem_block3 (t : Fin cfg3.N) (i : S100000x128.Idx) :
    i ∈ ((cfg3.win 2).blk t).view.set ↔ ∀ a : Fin 2, win3_2.index t a * S4000x128.size a ≤ (i a).val
      ∧ (i a).val < win3_2.index t a * S4000x128.size a + S4000x128.size a := by
  show i ∈ ((View.whole main_v59).slice (win3_2.rect t)).set ↔ _
  rw [View.set_slice_whole, Rect.mem_set_unit]
  exact Iff.rfl

/-- Row r of the array is written back by point r / 4000: the 25 blocks of 4000 rows tile the 100000 rows. -/
theorem cover3 (i : S100000x128.Idx) :
    ∃ t : Fin cfg3.N, (cfg3.win 2).flush t = true ∧ i ∈ ((cfg3.win 2).blk t).view.set := by
  have hN : cfg3.N = 25 := N_3
  have hi0 : (i 0).val < 100000 := (i 0).isLt
  have hi1 : (i 1).val < 128 := (i 1).isLt
  refine ⟨⟨(i 0).val / 4000, by rw [hN]; omega⟩, flush3_2 _, ?_⟩
  rw [mem_block3]
  obtain ⟨-, -, -, e3, e4⟩ := index_facts3 ⟨(i 0).val / 4000, by rw [hN]; omega⟩
  intro a
  match a with
  | ⟨0, _⟩ =>
    show win3_2.index _ (0 : Fin 2) * 4000 ≤ (i 0).val ∧ (i 0).val < win3_2.index _ (0 : Fin 2) * 4000 + 4000
    rw [e3]
    show (i 0).val / 4000 * 4000 ≤ (i 0).val ∧ (i 0).val < (i 0).val / 4000 * 4000 + 4000
    omega
  | ⟨1, _⟩ =>
    show win3_2.index _ (1 : Fin 2) * 128 ≤ (i 1).val ∧ (i 1).val < win3_2.index _ (1 : Fin 2) * 128 + 128
    rw [e4]
    omega

/-- Region 3 leaves its output array at the bias-add layer of the two arrays it finds. -/
theorem bias3_array (c : Dev nD) :
    (dat3 (F := Ideal) V c).arrAt 2 cfg3.N
      = Cert.Layers.addBias (F := Ideal) (V c (Pipeline.arrRef spec3 0)) (V c (Pipeline.arrRef spec3 1)) :=
  (dat3 (F := Ideal) V c).arrAt_eq_of_cover 2 _ (fun t _ => bias3_flushed V c t) cover3

/-! ## Region 5: the third bias, then the positive part -/

/-- The printed index maps over the grid: the input block and the output block sit at the same rows
    (row block t, column block 0), and the bias window is the whole vector at every point. -/
theorem index_facts5 : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- What point t writes back is block t of the bias-add-then-positive-part layer of the two arrays the region finds. -/
theorem bias5_flushed (c : Dev nD) (t : Fin cfg5.N) :
    (dat5 (F := Ideal) V c).flushed 2 t = ((cfg5.win 2).blk t).view.read (Elt Ideal)
      (Cert.Layers.addBiasRelu (F := Ideal) (V c (Pipeline.arrRef spec5 0)) (V c (Pipeline.arrRef spec5 1))) := by
  show (cfg5.win 2).cut (grid5.coords t) ((dat5 V c).after 2 t) = _
  rw [after5_2]
  unfold out5_2
  rw [View.canon_unit_zero zero2]
  simp only [View.ld_unit_zero (S := S4000x128) zero2, View.ld_unit_zero (S := S128) zero1]
  obtain ⟨e0, e1, e2, e3, e4⟩ := index_facts5 t
  funext j
  show k5_pay1 (iblk5 V c 1 t) (iblk5 V c 0 t) j
    = Cert.Layers.addBiasRelu (F := Ideal) (V c (Pipeline.arrRef spec5 0)) (V c (Pipeline.arrRef spec5 1))
        (((cfg5.win 2).blk t).view.emb j)
  rw [pay5_eq]
  refine addBiasRelu_block_eq _ _ _ _ j _ ?_ (fun q => ?_) ?_
  · -- the input block's entry: both blocks start at row 4000 t, column 0
    show V c (Pipeline.arrRef spec5 0) (((cfg5.win 0).blk t).view.emb j)
      = V c (Pipeline.arrRef spec5 0) (((cfg5.win 2).blk t).view.emb j)
    refine congrArg _ (funext fun a => Fin.ext ?_)
    match a with
    | ⟨0, _⟩ =>
      show win5_0.index t (0 : Fin 2) * 4000 + 1 * (j 0).val = win5_2.index t (0 : Fin 2) * 4000 + 1 * (j 0).val
      omega
    | ⟨1, _⟩ =>
      show win5_0.index t (1 : Fin 2) * 128 + 1 * (j 1).val = win5_2.index t (1 : Fin 2) * 128 + 1 * (j 1).val
      omega
  · -- the bias block is the whole bias vector
    show V c (Pipeline.arrRef spec5 1) (((cfg5.win 1).blk t).view.emb (ix1 q)) = V c (Pipeline.arrRef spec5 1) (ix1 q)
    refine congrArg _ (funext fun a => Fin.ext ?_)
    match a with
    | ⟨0, _⟩ => show win5_1.index t (0 : Fin 1) * 128 + 1 * q.val = q.val; omega
  · -- the output block keeps the column
    show win5_2.index t (1 : Fin 2) * 128 + 1 * (j 1).val = (j 1).val; omega

/-- An index of the array is in point t's output block iff each coordinate is in the block's range on its axis. -/
theorem mem_block5 (t : Fin cfg5.N) (i : S100000x128.Idx) :
    i ∈ ((cfg5.win 2).blk t).view.set ↔ ∀ a : Fin 2, win5_2.index t a * S4000x128.size a ≤ (i a).val
      ∧ (i a).val < win5_2.index t a * S4000x128.size a + S4000x128.size a := by
  show i ∈ ((View.whole main_v74).slice (win5_2.rect t)).set ↔ _
  rw [View.set_slice_whole, Rect.mem_set_unit]
  exact Iff.rfl

/-- Row r of the array is written back by point r / 4000: the 25 blocks of 4000 rows tile the 100000 rows. -/
theorem cover5 (i : S100000x128.Idx) :
    ∃ t : Fin cfg5.N, (cfg5.win 2).flush t = true ∧ i ∈ ((cfg5.win 2).blk t).view.set := by
  have hN : cfg5.N = 25 := N_5
  have hi0 : (i 0).val < 100000 := (i 0).isLt
  have hi1 : (i 1).val < 128 := (i 1).isLt
  refine ⟨⟨(i 0).val / 4000, by rw [hN]; omega⟩, flush5_2 _, ?_⟩
  rw [mem_block5]
  obtain ⟨-, -, -, e3, e4⟩ := index_facts5 ⟨(i 0).val / 4000, by rw [hN]; omega⟩
  intro a
  match a with
  | ⟨0, _⟩ =>
    show win5_2.index _ (0 : Fin 2) * 4000 ≤ (i 0).val ∧ (i 0).val < win5_2.index _ (0 : Fin 2) * 4000 + 4000
    rw [e3]
    show (i 0).val / 4000 * 4000 ≤ (i 0).val ∧ (i 0).val < (i 0).val / 4000 * 4000 + 4000
    omega
  | ⟨1, _⟩ =>
    show win5_2.index _ (1 : Fin 2) * 128 ≤ (i 1).val ∧ (i 1).val < win5_2.index _ (1 : Fin 2) * 128 + 128
    rw [e4]
    omega

/-- Region 5 leaves its output array at the bias-add-then-positive-part layer of the two arrays it finds. -/
theorem bias5_array (c : Dev nD) :
    (dat5 (F := Ideal) V c).arrAt 2 cfg5.N
      = Cert.Layers.addBiasRelu (F := Ideal) (V c (Pipeline.arrRef spec5 0)) (V c (Pipeline.arrRef spec5 1)) :=
  (dat5 (F := Ideal) V c).arrAt_eq_of_cover 2 _ (fun t _ => bias5_flushed V c t) cover5

/-! ## Region 7: the fourth bias -/

/-- The printed index maps over the grid: the input block and the output block sit at the same rows
    (row block t, column block 0), and the bias window is the whole vector at every point. -/
theorem index_facts7 : ∀ t : Fin cfg7.N, win7_0.index t (0 : Fin 2) = t.val ∧ win7_0.index t (1 : Fin 2) = 0
    ∧ win7_1.index t (0 : Fin 1) = 0
    ∧ win7_2.index t (0 : Fin 2) = t.val ∧ win7_2.index t (1 : Fin 2) = 0 :=
  (by decide +kernel : ∀ t : Fin grid7.N, _)

/-- What point t writes back is block t of the bias-add layer of the two arrays the region finds. -/
theorem bias7_flushed (c : Dev nD) (t : Fin cfg7.N) :
    (dat7 (F := Ideal) V c).flushed 2 t = ((cfg7.win 2).blk t).view.read (Elt Ideal)
      (Cert.Layers.addBias (F := Ideal) (V c (Pipeline.arrRef spec7 0)) (V c (Pipeline.arrRef spec7 1))) := by
  show (cfg7.win 2).cut (grid7.coords t) ((dat7 V c).after 2 t) = _
  rw [after7_2]
  unfold out7_2
  rw [View.canon_unit_zero zero2]
  simp only [View.ld_unit_zero (S := S4000x128) zero2, View.ld_unit_zero (S := S128) zero1]
  obtain ⟨e0, e1, e2, e3, e4⟩ := index_facts7 t
  funext j
  show k7_pay1 (iblk7 V c 1 t) (iblk7 V c 0 t) j
    = Cert.Layers.addBias (F := Ideal) (V c (Pipeline.arrRef spec7 0)) (V c (Pipeline.arrRef spec7 1))
        (((cfg7.win 2).blk t).view.emb j)
  rw [pay7_eq]
  refine addBias_block_eq _ _ _ _ j _ ?_ (fun q => ?_) ?_
  · -- the input block's entry: both blocks start at row 4000 t, column 0
    show V c (Pipeline.arrRef spec7 0) (((cfg7.win 0).blk t).view.emb j)
      = V c (Pipeline.arrRef spec7 0) (((cfg7.win 2).blk t).view.emb j)
    refine congrArg _ (funext fun a => Fin.ext ?_)
    match a with
    | ⟨0, _⟩ =>
      show win7_0.index t (0 : Fin 2) * 4000 + 1 * (j 0).val = win7_2.index t (0 : Fin 2) * 4000 + 1 * (j 0).val
      omega
    | ⟨1, _⟩ =>
      show win7_0.index t (1 : Fin 2) * 128 + 1 * (j 1).val = win7_2.index t (1 : Fin 2) * 128 + 1 * (j 1).val
      omega
  · -- the bias block is the whole bias vector
    show V c (Pipeline.arrRef spec7 1) (((cfg7.win 1).blk t).view.emb (ix1 q)) = V c (Pipeline.arrRef spec7 1) (ix1 q)
    refine congrArg _ (funext fun a => Fin.ext ?_)
    match a with
    | ⟨0, _⟩ => show win7_1.index t (0 : Fin 1) * 128 + 1 * q.val = q.val; omega
  · -- the output block keeps the column
    show win7_2.index t (1 : Fin 2) * 128 + 1 * (j 1).val = (j 1).val; omega

/-- An index of the array is in point t's output block iff each coordinate is in the block's range on its axis. -/
theorem mem_block7 (t : Fin cfg7.N) (i : S100000x128.Idx) :
    i ∈ ((cfg7.win 2).blk t).view.set ↔ ∀ a : Fin 2, win7_2.index t a * S4000x128.size a ≤ (i a).val
      ∧ (i a).val < win7_2.index t a * S4000x128.size a + S4000x128.size a := by
  show i ∈ ((View.whole main_v89).slice (win7_2.rect t)).set ↔ _
  rw [View.set_slice_whole, Rect.mem_set_unit]
  exact Iff.rfl

/-- Row r of the array is written back by point r / 4000: the 25 blocks of 4000 rows tile the 100000 rows. -/
theorem cover7 (i : S100000x128.Idx) :
    ∃ t : Fin cfg7.N, (cfg7.win 2).flush t = true ∧ i ∈ ((cfg7.win 2).blk t).view.set := by
  have hN : cfg7.N = 25 := N_7
  have hi0 : (i 0).val < 100000 := (i 0).isLt
  have hi1 : (i 1).val < 128 := (i 1).isLt
  refine ⟨⟨(i 0).val / 4000, by rw [hN]; omega⟩, flush7_2 _, ?_⟩
  rw [mem_block7]
  obtain ⟨-, -, -, e3, e4⟩ := index_facts7 ⟨(i 0).val / 4000, by rw [hN]; omega⟩
  intro a
  match a with
  | ⟨0, _⟩ =>
    show win7_2.index _ (0 : Fin 2) * 4000 ≤ (i 0).val ∧ (i 0).val < win7_2.index _ (0 : Fin 2) * 4000 + 4000
    rw [e3]
    show (i 0).val / 4000 * 4000 ≤ (i 0).val ∧ (i 0).val < (i 0).val / 4000 * 4000 + 4000
    omega
  | ⟨1, _⟩ =>
    show win7_2.index _ (1 : Fin 2) * 128 ≤ (i 1).val ∧ (i 1).val < win7_2.index _ (1 : Fin 2) * 128 + 128
    rw [e4]
    omega

/-- Region 7 leaves its output array at the bias-add layer of the two arrays it finds. -/
theorem bias7_array (c : Dev nD) :
    (dat7 (F := Ideal) V c).arrAt 2 cfg7.N
      = Cert.Layers.addBias (F := Ideal) (V c (Pipeline.arrRef spec7 0)) (V c (Pipeline.arrRef spec7 1)) :=
  (dat7 (F := Ideal) V c).arrAt_eq_of_cover 2 _ (fun t _ => bias7_flushed V c t) cover7

end Cert.BiasRegions

end
-- ==== Proof.ClassifierRegion.lean ====
/-
  The classifier region: the last stage of the network.

  For every row r of the final hidden features h and every class j the region computes
      logit[r, j] = Σ_k h[r, k] · w[k, j] + b[j],
      m[r]        = the largest logit of the row (the maximum over the 16 classes, started from −∞),
      z[r, j]     = logit[r, j] − m[r],
      out[r, j]   = z[r, j] − log Σ_j exp z[r, j],
  the row-wise log-softmax of the logits.  The kernel does this on blocks of 4000 rows; the whole-array function
  `Cert.Layers.classify` does it on all 100000 rows at once.  Both apply the same operations in the same order to each
  row, so each is read at an index as ONE expression of the row (`logSoftmaxRow` of `logit`), with no algebra beyond
  0 + x = x and max(−∞, x) = x; the blocks then tile the array.
-/
import proofs.«111109_j996432412812_1_alg».proof.Proof.Gen.KernelIdeal.Frame
import proofs.«111109_j996432412812_1_alg».proof.Proof.Layers
import Idealize.ShloMosaic.Lib.Pipeline.Value
import Idealize.ShloMosaic.Lib.ValueIdx
import Idealize.ShloMosaic.Lib.ValueLayout
import Idealize.ShloMosaic.PureOps.Ideal.Laws

noncomputable section

namespace Cert.ClassifierRegion

open Idealize.ShloMosaic Idealize.ShloMosaic.TcCoe Idealize.SL.Sem Cert.KernelIdeal Cert.KernelIdeal.Gen
open Idealize.ShloMosaic.ValueIdx
open Idealize.ShloMosaic.Pipeline (Dat)

/-! ## One row of the computation -/

/-- The value −∞ a row's maximum starts from. -/
abbrev negInf : EReal := Ideal.ofBits .f32 0xFF800000#32

/-- The logits of one row `x` of features: the product with the weight matrix plus the bias. -/
def logit (x : Fin 128 → EReal) (w : S128x16.Idx → EReal) (b : S16.Idx → EReal) (q : Fin 16) : EReal :=
  (∑ k : Fin 128, x k * w (ix2 k q)) + b (ix1 q)

/-- The largest entry of a row of 16 values, started from −∞. -/
def rowTop (l : Fin 16 → EReal) : EReal := (Finset.univ : Finset (Fin 16)).fold max negInf l

/-- The log-softmax of one row of 16 logits at class `q`. -/
def logSoftmaxRow (l : Fin 16 → EReal) (q : Fin 16) : EReal :=
  (l q - rowTop l) - Ideal.log (∑ j : Fin 16, Ideal.exp (l j - rowTop l))

/-- From −∞ the maximum with anything is that thing. -/
theorem max_negInf (y : EReal) : max negInf y = y := by
  show max (Ideal.ofBits .f32 0xFF800000#32) y = y
  simp [Ideal.ofBits, Ideal.ieee]

/-! ## Column forms of the layout operations -/

section Columns
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along `b` classes reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The kernel's block operations read at an index -/

/-- The row `p` of a `[4000, 16]` block with the class `k` put back is `(p, k)`. -/
theorem lift_block (h : S4000x16.Reduces [1] S4000) (p : Fin 4000) (k : Fin (S4000x16.size 1)) :
    h.lift (ix1 p) k = ix2 p (⟨k.val, k.isLt⟩ : Fin 16) := by
  funext c; apply Fin.ext
  match c with
  | ⟨0, _⟩ => rfl
  | ⟨1, _⟩ => rfl

/-- The block's maximum over the classes, from −∞, at row `p`: the largest entry of the row. -/
theorem blockRowMax_apply (x : FVec Ideal S4000x16 .f32) (h : S4000x16.Reduces [1] S4000) (hφ : FKind.Formats .f32)
    (hacc : (0xFF800000#32 : BitVec 32) = 0xFF800000#32) (p : Fin 4000) :
    multiReduction .maximumf [1] S4000 x 0xFF800000#32 h hφ hacc (ix1 p) = rowTop fun k => x (ix2 p k) := by
  refine (Ideal.multiReduction_maximumf_single x 0xFF800000#32 h hφ hacc (ix1 p)).trans ?_
  have hf : (x ∘ h.lift (ix1 p)) = fun k : Fin 16 => x (ix2 p k) := funext fun k => congrArg x (lift_block h p k)
  exact congrArg (fun f => Finset.fold max (Ideal.ofBits .f32 0xFF800000#32) f (Finset.univ : Finset (Fin 16))) hf

/-- The block's sum over the classes at row `p`: the sum of the row. -/
theorem blockRowSum_apply (x : FVec Ideal S4000x16 .f32) (h : S4000x16.Reduces [1] S4000) (hφ : FKind.Formats .f32)
    (hacc : (0x00000000#32 : BitVec 32) = 0x00000000#32) (p : Fin 4000) :
    multiReduction .add [1] S4000 x 0x00000000#32 h hφ hacc (ix1 p) = ∑ k : Fin 16, x (ix2 p k) := by
  refine (Ideal.multiReduction_add_single x 0x00000000#32 h hφ hacc (ix1 p)).trans ?_
  exact Finset.sum_congr rfl fun k _ => congrArg x (lift_block h p k)

/-- The left operand's index of the block product at output `i` and contraction index `c`: row `i 0` … -/
theorem blockDot_lhs_0 (i : S4000x16.Idx) (c : dot_S4000x128_S128x16_S4000x16_1_0_0_1_n_n.contr.Idx) :
    (dot_S4000x128_S128x16_S4000x16_1_0_0_1_n_n.lhsIdx i c 0).val = (i 0).val := by
  unfold DotDims.lhsIdx
  rw [dif_neg (show ¬(0 : Fin S4000x128.rank) ∈ dot_S4000x128_S128x16_S4000x16_1_0_0_1_n_n.lhsBatch by decide), dif_pos (show (0 : Fin S4000x128.rank) ∈ dot_S4000x128_S128x16_S4000x16_1_0_0_1_n_n.lhsNonContracting by decide)]
  rfl
/-- … and feature `c`. -/
theorem blockDot_lhs_1 (i : S4000x16.Idx) (c : dot_S4000x128_S128x16_S4000x16_1_0_0_1_n_n.contr.Idx) :
    (dot_S4000x128_S128x16_S4000x16_1_0_0_1_n_n.lhsIdx i c 1).val = (c ⟨0, by decide⟩).val :=
  dot_S4000x128_S128x16_S4000x16_1_0_0_1_n_n.lhsIdx_val_of_single rfl i c
/-- The right operand's index: feature `c` … -/
theorem blockDot_rhs_0 (i : S4000x16.Idx) (c : dot_S4000x128_S128x16_S4000x16_1_0_0_1_n_n.contr.Idx) :
    (dot_S4000x128_S128x16_S4000x16_1_0_0_1_n_n.rhsIdx i c 0).val = (c ⟨0, by decide⟩).val :=
  dot_S4000x128_S128x16_S4000x16_1_0_0_1_n_n.rhsIdx_val_of_single rfl i c
/-- … and class `i 1`. -/
theorem blockDot_rhs_1 (i : S4000x16.Idx) (c : dot_S4000x128_S128x16_S4000x16_1_0_0_1_n_n.contr.Idx) :
    (dot_S4000x128_S128x16_S4000x16_1_0_0_1_n_n.rhsIdx i c 1).val = (i 1).val := by
  unfold DotDims.rhsIdx
  rw [dif_neg (show ¬(1 : Fin S128x16.rank) ∈ dot_S4000x128_S128x16_S4000x16_1_0_0_1_n_n.rhsBatch by decide), dif_pos (show (1 : Fin S128x16.rank) ∈ dot_S4000x128_S128x16_S4000x16_1_0_0_1_n_n.rhsNonContracting by decide)]
  rfl

/-- The block's product with the weights at `(p, q)`: the sum over the 128 features of row `p` times column `q`. -/
theorem blockDense_apply (x : FVec Ideal S4000x128 .bf16) (w : FVec Ideal S128x16 .bf16) (p : Fin 4000) (q : Fin 16) :
    matmul dot_S4000x128_S128x16_S4000x16_1_0_0_1_n_n none x w (constant S4000x16 .f32 0x00000000#32) (ix2 p q)
      = ∑ k : Fin 128, x (ix2 p k) * w (ix2 k q) := by
  simp only [matmul]
  rw [Ideal.matmul_constant_zero_apply, ← Equiv.sum_comp (contrEquiv1 dot_S4000x128_S128x16_S4000x16_1_0_0_1_n_n 128 rfl rfl).symm]
  refine Finset.sum_congr rfl fun k _ => ?_
  have hk := contrEquiv1_symm_val dot_S4000x128_S128x16_S4000x16_1_0_0_1_n_n 128 rfl rfl k
  have el : dot_S4000x128_S128x16_S4000x16_1_0_0_1_n_n.lhsIdx (ix2 p q) ((contrEquiv1 dot_S4000x128_S128x16_S4000x16_1_0_0_1_n_n 128 rfl rfl).symm k) = ix2 p k :=
    funext fun a => Fin.ext (by
      match a with
      | ⟨0, _⟩ => exact blockDot_lhs_0 _ _
      | ⟨1, _⟩ => exact (blockDot_lhs_1 _ _).trans hk)
  have er : dot_S4000x128_S128x16_S4000x16_1_0_0_1_n_n.rhsIdx (ix2 p q) ((contrEquiv1 dot_S4000x128_S128x16_S4000x16_1_0_0_1_n_n 128 rfl rfl).symm k) = ix2 k q :=
    funext fun a => Fin.ext (by
      match a with
      | ⟨0, _⟩ => exact (blockDot_rhs_0 _ _).trans hk
      | ⟨1, _⟩ => exact blockDot_rhs_1 _ _)
  rw [el, er]

/-- The block's logits at `(p, q)`: row `p`'s product with column `q` of the weights plus the bias of class `q`
    (the changes of format are the identity on extended reals). -/
theorem blockLogits_apply (v0 : Vec Ideal S4000x128 .f32) (v3 : Vec Ideal S128x16 .f32) (v6 : Vec Ideal S16 .f32)
    (h0 : S4000x128.ShapeCasts S4000x128) (hb : FTy.bits .bf16 < FTy.bits .f32) (h1 : S16.ShapeCasts S1x16)
    (h2 : S1x16.Broadcasts S4000x16) (p : Fin 4000) (q : Fin 16) :
    (addf (matmul dot_S4000x128_S128x16_S4000x16_1_0_0_1_n_n none (truncf .bf16 (shapeCast S4000x128 v0 h0) hb)
        (truncf .bf16 v3 hb) (constant S4000x16 .f32 0x00000000#32))
      (broadcastTo S4000x16 (shapeCast S1x16 v6 h1) h2) : FVec Ideal S4000x16 .f32) (ix2 p q)
      = logit (fun k => v0 (ix2 p k)) v3 v6 q := by
  rw [addf_apply, blockDense_apply, broadcastTo_1b_ab_apply, shapeCast_a_1a_apply, shapeCast_self]
  rfl

/-- The vector exponential and logarithm at an index are the extended reals'. -/
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

/-- A block of logits minus each row's largest entry (kept as a column and repeated along the classes), at `(p, q)`. -/
theorem blockShifted_apply (x : FVec Ideal S4000x16 .f32) (h : S4000x16.Reduces [1] S4000) (hφ : FKind.Formats .f32)
    (hacc : (0xFF800000#32 : BitVec 32) = 0xFF800000#32) (h1 : S4000.ShapeCasts S4000x1) (h2 : S4000x1.Broadcasts S4000x16)
    (p : Fin 4000) (q : Fin 16) :
    subf x (broadcastTo S4000x16 (shapeCast S4000x1 (multiReduction .maximumf [1] S4000 x 0xFF800000#32 h hφ hacc) h1) h2) (ix2 p q)
      = x (ix2 p q) - rowTop fun k => x (ix2 p k) := by
  rw [subf_apply, broadcastTo_a1_ab_apply, shapeCast_a_a1_apply, blockRowMax_apply]

/-- The block's log-softmax at `(p, q)`: the log-softmax of row `p` at class `q`. -/
theorem blockLogSoftmax_apply (x : FVec Ideal S4000x16 .f32) (h : S4000x16.Reduces [1] S4000) (hφ : FKind.Formats .f32)
    (hacc : (0xFF800000#32 : BitVec 32) = 0xFF800000#32) (hacc0 : (0x00000000#32 : BitVec 32) = 0x00000000#32)
    (h1 : S4000.ShapeCasts S4000x1) (h2 : S4000x1.Broadcasts S4000x16) (p : Fin 4000) (q : Fin 16) :
    subf (subf x (broadcastTo S4000x16 (shapeCast S4000x1 (multiReduction .maximumf [1] S4000 x 0xFF800000#32 h hφ hacc) h1) h2))
      (broadcastTo S4000x16 (log (shapeCast S4000x1 (multiReduction .add [1] S4000
        (exp (subf x (broadcastTo S4000x16 (shapeCast S4000x1 (multiReduction .maximumf [1] S4000 x 0xFF800000#32 h hφ hacc) h1) h2)))
        0x00000000#32 h hφ hacc0) h1)) h2) (ix2 p q)
      = logSoftmaxRow (fun k => x (ix2 p k)) q := by
  rw [subf_apply, blockShifted_apply, broadcastTo_a1_ab_apply, log_apply, shapeCast_a_a1_apply, blockRowSum_apply]
  unfold logSoftmaxRow
  refine congrArg (fun s => (x (ix2 p q) - rowTop fun k => x (ix2 p k)) - Ideal.log s) (Finset.sum_congr rfl fun k _ => ?_)
  rw [exp_apply, blockShifted_apply]

/-! ## The kernel's payload at an index -/

/-- THE PAYLOAD AT `(p, q)`: the log-softmax, at class `q`, of the logits of row `p` of the block. -/
theorem payload_apply (v0 : Vec Ideal S4000x128 .f32) (v3 : Vec Ideal S128x16 .f32) (v6 : Vec Ideal S16 .f32)
    (p : Fin 4000) (q : Fin 16) :
    k8_pay1 v0 v3 v6 (ix2 p q) = logSoftmaxRow (fun j => logit (fun k => v0 (ix2 p k)) v3 v6 j) q := by
  unfold k8_pay1
  rw [blockLogSoftmax_apply]
  simp only [blockLogits_apply]

/-! ## The whole-array classifier read at an index -/

/-- Row `r` of an `[a, b]` array with the class `k` put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  match c with
  | ⟨0, _⟩ => rfl
  | ⟨1, _⟩ => rfl

/-- The host's exponential and logarithm at an index are the extended reals'. -/
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-- A per-row value as a column, at `(r, u)`: the value of row `r`. -/
theorem asColumn_apply (v : FVec Ideal S100000 .f32) (r : Fin 100000) (u : Fin 1) :
    Cert.Layers.asColumn (F := Ideal) v (ix2 r u) = v (ix1 r) := by
  unfold Cert.Layers.asColumn
  exact broadcastInDim_apply _ _ v _ (ix1 r) (fun a => match a with
    | ⟨0, _⟩ => by show r.val = if (100000 : Nat) = 1 then 0 else r.val; rw [if_neg (by decide)])

/-- A column repeated along the 16 classes, at `(r, q)`: the column at row `r`. -/
theorem alongClasses_apply (v : FVec Ideal Cert.ReferenceIdeal.S100000x1 .f32) (r : Fin 100000) (q : Fin 16) :
    Cert.Layers.alongClasses (F := Ideal) v (ix2 r q) = v (ix2 r (0 : Fin 1)) := by
  unfold Cert.Layers.alongClasses
  exact broadcastInDim_apply _ _ v _ (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- The array's row maxima at row `r`: the largest entry of the row (the outer maximum with −∞ changes nothing). -/
theorem arrayRowMax_apply (l : FVec Ideal S100000x16 .f32) (r : Fin 100000) :
    Cert.Layers.rowMax (F := Ideal) l (ix1 r) = rowTop fun k => l (ix2 r k) := by
  unfold Cert.Layers.rowMax
  rw [maximumf_apply, broadcastInDim_apply _ _ _ (ix1 r) ix0 (fun a => a.elim0), constant_apply, max_negInf]
  have hR : S100000x16.Reduces [1] S100000 := by decide
  rw [Host.reduce_eq_fold_single FloatOps.maximumf l _ _ hR _]
  have hf : (l ∘ hR.lift (ix1 r)) = fun k : Fin 16 => l (ix2 r k) := funext fun k => congrArg l (lift_rows hR r k)
  exact congrArg (fun f => Finset.fold max negInf f (Finset.univ : Finset (Fin 16))) hf

/-- The left operand's index of the array product at output `i` and contraction index `c`: row `i 0` … -/
theorem arrayDot_lhs_0 (i : S100000x16.Idx) (c : Cert.ReferenceIdeal.dot_S100000x128_S128x16_S100000x16_1_0_0_1_n_n.contr.Idx) :
    (Cert.ReferenceIdeal.dot_S100000x128_S128x16_S100000x16_1_0_0_1_n_n.lhsIdx i c 0).val = (i 0).val := by
  unfold DotDims.lhsIdx
  rw [dif_neg (show ¬(0 : Fin S100000x128.rank) ∈ Cert.ReferenceIdeal.dot_S100000x128_S128x16_S100000x16_1_0_0_1_n_n.lhsBatch by decide), dif_pos (show (0 : Fin S100000x128.rank) ∈ Cert.ReferenceIdeal.dot_S100000x128_S128x16_S100000x16_1_0_0_1_n_n.lhsNonContracting by decide)]
  rfl
/-- … and feature `c`. -/
theorem arrayDot_lhs_1 (i : S100000x16.Idx) (c : Cert.ReferenceIdeal.dot_S100000x128_S128x16_S100000x16_1_0_0_1_n_n.contr.Idx) :
    (Cert.ReferenceIdeal.dot_S100000x128_S128x16_S100000x16_1_0_0_1_n_n.lhsIdx i c 1).val = (c ⟨0, by decide⟩).val :=
  Cert.ReferenceIdeal.dot_S100000x128_S128x16_S100000x16_1_0_0_1_n_n.lhsIdx_val_of_single rfl i c
/-- The right operand's index: feature `c` … -/
theorem arrayDot_rhs_0 (i : S100000x16.Idx) (c : Cert.ReferenceIdeal.dot_S100000x128_S128x16_S100000x16_1_0_0_1_n_n.contr.Idx) :
    (Cert.ReferenceIdeal.dot_S100000x128_S128x16_S100000x16_1_0_0_1_n_n.rhsIdx i c 0).val = (c ⟨0, by decide⟩).val :=
  Cert.ReferenceIdeal.dot_S100000x128_S128x16_S100000x16_1_0_0_1_n_n.rhsIdx_val_of_single rfl i c
/-- … and class `i 1`. -/
theorem arrayDot_rhs_1 (i : S100000x16.Idx) (c : Cert.ReferenceIdeal.dot_S100000x128_S128x16_S100000x16_1_0_0_1_n_n.contr.Idx) :
    (Cert.ReferenceIdeal.dot_S100000x128_S128x16_S100000x16_1_0_0_1_n_n.rhsIdx i c 1).val = (i 1).val := by
  unfold DotDims.rhsIdx
  rw [dif_neg (show ¬(1 : Fin S128x16.rank) ∈ Cert.ReferenceIdeal.dot_S100000x128_S128x16_S100000x16_1_0_0_1_n_n.rhsBatch by decide), dif_pos (show (1 : Fin S128x16.rank) ∈ Cert.ReferenceIdeal.dot_S100000x128_S128x16_S100000x16_1_0_0_1_n_n.rhsNonContracting by decide)]
  rfl

/-- The array's product with the weights at `(r, q)`: the sum over the 128 features of row `r` times column `q`. -/
theorem arrayDense_apply (x : FVec Ideal S100000x128 .f32) (w : FVec Ideal S128x16 .f32) (r : Fin 100000) (q : Fin 16) :
    Host.dotGeneral Cert.ReferenceIdeal.dot_S100000x128_S128x16_S100000x16_1_0_0_1_n_n none x w (ix2 r q)
      = ∑ k : Fin 128, x (ix2 r k) * w (ix2 k q) := by
  simp only [Host.dotGeneral]
  rw [Ideal.dotGeneral_apply, ← Equiv.sum_comp (contrEquiv1 Cert.ReferenceIdeal.dot_S100000x128_S128x16_S100000x16_1_0_0_1_n_n 128 rfl rfl).symm]
  refine Finset.sum_congr rfl fun k _ => ?_
  have hk := contrEquiv1_symm_val Cert.ReferenceIdeal.dot_S100000x128_S128x16_S100000x16_1_0_0_1_n_n 128 rfl rfl k
  have el : Cert.ReferenceIdeal.dot_S100000x128_S128x16_S100000x16_1_0_0_1_n_n.lhsIdx (ix2 r q) ((contrEquiv1 Cert.ReferenceIdeal.dot_S100000x128_S128x16_S100000x16_1_0_0_1_n_n 128 rfl rfl).symm k) = ix2 r k :=
    funext fun a => Fin.ext (by
      match a with
      | ⟨0, _⟩ => exact arrayDot_lhs_0 _ _
      | ⟨1, _⟩ => exact (arrayDot_lhs_1 _ _).trans hk)
  have er : Cert.ReferenceIdeal.dot_S100000x128_S128x16_S100000x16_1_0_0_1_n_n.rhsIdx (ix2 r q) ((contrEquiv1 Cert.ReferenceIdeal.dot_S100000x128_S128x16_S100000x16_1_0_0_1_n_n 128 rfl rfl).symm k) = ix2 k q :=
    funext fun a => Fin.ext (by
      match a with
      | ⟨0, _⟩ => exact (arrayDot_rhs_0 _ _).trans hk
      | ⟨1, _⟩ => exact arrayDot_rhs_1 _ _)
  rw [el, er]

/-- The array's logits at `(r, q)`: row `r`'s product with column `q` of the weights plus the bias of class `q`. -/
theorem logits_apply (h : FVec Ideal S100000x128 .f32) (w : FVec Ideal S128x16 .f32) (b : FVec Ideal S16 .f32)
    (r : Fin 100000) (q : Fin 16) :
    Cert.Layers.logits (F := Ideal) h w b (ix2 r q) = logit (fun k => h (ix2 r k)) w b q := by
  unfold Cert.Layers.logits
  rw [addf_apply, arrayDense_apply,
    broadcastInDim_apply _ _ _ (ix2 r q) (ix2 (0 : Fin 1) q) (fun a => match a with
      | ⟨0, _⟩ => by show 0 = if (1 : Nat) = 1 then 0 else r.val; rw [if_pos rfl]
      | ⟨1, _⟩ => by show q.val = if (16 : Nat) = 1 then 0 else q.val; rw [if_neg (by decide)]),
    broadcastInDim_apply _ _ b (ix2 (0 : Fin 1) q) (ix1 q) (fun a => match a with
      | ⟨0, _⟩ => by show q.val = if (16 : Nat) = 1 then 0 else q.val; rw [if_neg (by decide)])]
  rfl

/-- The array's sum over the classes, from zero, at row `r`: the sum of the row. -/
theorem arrayRowSum_apply (x : FVec Ideal S100000x16 .f32) (h' : S100000x16.ReducesTo [1] S100000) (hu : 0 < S_.numel) (r : Fin 100000) :
    Host.reduceAdd x (constant (F := Ideal) S_ .f32 0x00000000#32) h' hu (ix1 r) = ∑ k : Fin 16, x (ix2 r k) := by
  have hR : S100000x16.Reduces [1] S100000 := by decide
  simp only [Host.reduceAdd, Ideal.hostReduceAdd_def]
  rw [Ideal.hostReduceAdd_single h' hR, constant_apply, Ideal.ofBits_zero_f32, zero_add]
  exact Finset.sum_congr rfl fun k _ => congrArg x (lift_rows hR r k)

/-- Each row minus its largest entry, at `(r, q)`. -/
theorem shifted_apply (l : FVec Ideal S100000x16 .f32) (r : Fin 100000) (q : Fin 16) :
    Cert.Layers.shifted (F := Ideal) l (ix2 r q) = l (ix2 r q) - rowTop fun k => l (ix2 r k) := by
  unfold Cert.Layers.shifted
  rw [subf_apply, alongClasses_apply, asColumn_apply, arrayRowMax_apply]

/-- The array's log-softmax at `(r, q)`: the log-softmax of row `r` at class `q`. -/
theorem logSoftmax_apply (l : FVec Ideal S100000x16 .f32) (r : Fin 100000) (q : Fin 16) :
    Cert.Layers.logSoftmax (F := Ideal) l (ix2 r q) = logSoftmaxRow (fun k => l (ix2 r k)) q := by
  unfold Cert.Layers.logSoftmax
  rw [subf_apply, shifted_apply, alongClasses_apply, hostLog_apply, asColumn_apply, arrayRowSum_apply]
  unfold logSoftmaxRow
  refine congrArg (fun s => (l (ix2 r q) - rowTop fun k => l (ix2 r k)) - Ideal.log s) (Finset.sum_congr rfl fun k _ => ?_)
  rw [hostExp_apply, shifted_apply]

/-- THE CLASSIFIER AT `(r, q)`: the log-softmax, at class `q`, of the logits of row `r` of the features. -/
theorem classify_apply (h : FVec Ideal S100000x128 .f32) (w : FVec Ideal S128x16 .f32) (b : FVec Ideal S16 .f32)
    (r : Fin 100000) (q : Fin 16) :
    Cert.Layers.classify (F := Ideal) h w b (ix2 r q) = logSoftmaxRow (fun j => logit (fun k => h (ix2 r k)) w b j) q := by
  unfold Cert.Layers.classify
  rw [logSoftmax_apply]
  simp only [logits_apply]

/-! ## From blocks to the array -/

/-- A block whose rows are rows `4000·t … 4000·t + 3999` of the features `H`, with the whole weights and bias, computes at its
    index `j` the classifier of the whole arrays at the array's index `i = (4000·t + j 0, j 1)`: both are the log-softmax of the
    same row's logits. -/
theorem block_value (H : FVec Ideal S100000x128 .f32) (W : FVec Ideal S128x16 .f32) (B : FVec Ideal S16 .f32) (t : ℕ)
    (v0 : Vec Ideal S4000x128 .f32) (v3 : Vec Ideal S128x16 .f32) (v6 : Vec Ideal S16 .f32)
    (hv0 : ∀ (x : S4000x128.Idx) (i : S100000x128.Idx), (i 0).val = t * 4000 + (x 0).val → (i 1).val = (x 1).val → v0 x = H i)
    (hv3 : v3 = W) (hv6 : v6 = B)
    (j : S4000x16.Idx) (i : S100000x16.Idx) (hi0 : (i 0).val = t * 4000 + (j 0).val) (hi1 : (i 1).val = (j 1).val) :
    k8_pay1 v0 v3 v6 j = Cert.Layers.classify (F := Ideal) H W B i := by
  subst hv3 hv6
  obtain ⟨p, q, rfl⟩ : ∃ (p : Fin 4000) (q : Fin 16), j = ix2 p q := ⟨j 0, j 1, eq_ix2 j⟩
  obtain ⟨r, q', rfl⟩ : ∃ (r : Fin 100000) (q' : Fin 16), i = ix2 r q' := ⟨i 0, i 1, eq_ix2 i⟩
  obtain rfl : q' = q := Fin.ext hi1
  rw [payload_apply, classify_apply]
  have hrow : (fun k : Fin 128 => v0 (ix2 p k)) = fun k => H (ix2 r k) := funext fun k => hv0 (ix2 p k) (ix2 r k) hi0 rfl
  rw [hrow]

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The index maps over the grid: at point `t` the features' and the output's block is block `t` of the rows, and the
    weights' and bias's block is the whole array. -/
theorem index_facts : ∀ t : Fin cfg8.N, win8_0.index t (0 : Fin 2) = t.val ∧ win8_0.index t (1 : Fin 2) = 0
    ∧ win8_1.index t (0 : Fin 2) = 0 ∧ win8_1.index t (1 : Fin 2) = 0 ∧ win8_2.index t (0 : Fin 1) = 0
    ∧ win8_3.index t (0 : Fin 2) = t.val ∧ win8_3.index t (1 : Fin 2) = 0 :=
  (by decide +kernel : ∀ t : Fin grid8.N, _)

/-- The features' block at point `t` is rows `4000·t … 4000·t + 3999` of the features. -/
theorem features_block (c : Dev nD) (t : Fin cfg8.N) (x : S4000x128.Idx) (i : S100000x128.Idx)
    (h0 : (i 0).val = t.val * 4000 + (x 0).val) (h1 : (i 1).val = (x 1).val) :
    (iblk8 V c 0 t : Vec Ideal S4000x128 .f32) x = (V c (Pipeline.arrRef spec8 0) : FVec Ideal S100000x128 .f32) i := by
  obtain ⟨e0, e1, -⟩ := index_facts t
  have he : ((cfg8.win 0).blk t).view.emb x = i := by
    funext a; apply Fin.ext
    match a with
    | ⟨0, _⟩ => show win8_0.index t (0 : Fin 2) * 4000 + 1 * (x 0).val = (i 0).val; rw [e0, h0]; omega
    | ⟨1, _⟩ => show win8_0.index t (1 : Fin 2) * 128 + 1 * (x 1).val = (i 1).val; rw [e1, h1]; omega
  show V c (Pipeline.arrRef spec8 0) (((cfg8.win 0).blk t).view.emb x) = V c (Pipeline.arrRef spec8 0) i
  rw [he]

/-- The weights' block at every point is the whole weight matrix. -/
theorem weights_block (c : Dev nD) (t : Fin cfg8.N) :
    (iblk8 V c 1 t : Vec Ideal S128x16 .f32) = (V c (Pipeline.arrRef spec8 1) : FVec Ideal S128x16 .f32) := by
  obtain ⟨-, -, e2, e3, -⟩ := index_facts t
  funext x
  have he : ((cfg8.win 1).blk t).view.emb x = x := by
    funext a; apply Fin.ext
    match a with
    | ⟨0, _⟩ => show win8_1.index t (0 : Fin 2) * 128 + 1 * (x 0).val = (x 0).val; rw [e2]; omega
    | ⟨1, _⟩ => show win8_1.index t (1 : Fin 2) * 16 + 1 * (x 1).val = (x 1).val; rw [e3]; omega
  show V c (Pipeline.arrRef spec8 1) (((cfg8.win 1).blk t).view.emb x) = V c (Pipeline.arrRef spec8 1) x
  rw [he]

/-- The bias's block at every point is the whole bias vector. -/
theorem bias_block (c : Dev nD) (t : Fin cfg8.N) :
    (iblk8 V c 2 t : Vec Ideal S16 .f32) = (V c (Pipeline.arrRef spec8 2) : FVec Ideal S16 .f32) := by
  obtain ⟨-, -, -, -, e4, -⟩ := index_facts t
  funext x
  have he : ((cfg8.win 2).blk t).view.emb x = x := by
    funext a; apply Fin.ext
    match a with
    | ⟨0, _⟩ => show win8_2.index t (0 : Fin 1) * 16 + 1 * (x 0).val = (x 0).val; rw [e4]; omega
  show V c (Pipeline.arrRef spec8 2) (((cfg8.win 2).blk t).view.emb x) = V c (Pipeline.arrRef spec8 2) x
  rw [he]

/-- WHAT POINT `t` WRITES BACK is block `t` of the classifier of the arrays as the region finds them. -/
theorem flushed_eq (c : Dev nD) (t : Fin cfg8.N) :
    (dat8 (F := Ideal) V c).flushed 3 t = ((cfg8.win 3).blk t).view.read (Elt Ideal)
      (Cert.Layers.classify (F := Ideal) (V c (Pipeline.arrRef spec8 0)) (V c (Pipeline.arrRef spec8 1)) (V c (Pipeline.arrRef spec8 2))) := by
  show (cfg8.win 3).cut (grid8.coords t) ((dat8 V c).after 3 t) = _
  rw [after8_3]
  unfold out8_3
  rw [View.canon_unit_zero zeros2]
  simp only [View.ld_unit_zero (S := S4000x128) zeros2, View.ld_unit_zero (S := S128x16) zeros2, View.ld_unit_zero (S := S16) zeros1]
  obtain ⟨-, -, -, -, -, e5, e6⟩ := index_facts t
  funext j
  show k8_pay1 (iblk8 V c 0 t) (iblk8 V c 1 t) (iblk8 V c 2 t) ((cfg8.win 3).xinj (grid8.coords t) j)
    = Cert.Layers.classify (F := Ideal) (V c (Pipeline.arrRef spec8 0)) (V c (Pipeline.arrRef spec8 1)) (V c (Pipeline.arrRef spec8 2))
        (((cfg8.win 3).blk t).view.emb j)
  refine block_value _ _ _ t.val _ _ _ (features_block V c t) (weights_block V c t) (bias_block V c t) _ _ ?_ ?_
  · show win8_3.index t (0 : Fin 2) * 4000 + 1 * (j 0).val = t.val * 4000 + (j 0).val
    rw [e5]; omega
  · show win8_3.index t (1 : Fin 2) * 16 + 1 * (j 1).val = (j 1).val
    rw [e6]; omega

/-- An index of the array is in point `t`'s block iff each coordinate is in the block's range on its axis. -/
theorem mem_blk (t : Fin cfg8.N) (i : S100000x16.Idx) :
    i ∈ ((cfg8.win 3).blk t).view.set ↔ ∀ a : Fin 2, win8_3.index t a * S4000x16.size a ≤ (i a).val ∧ (i a).val < win8_3.index t a * S4000x16.size a + S4000x16.size a := by
  show i ∈ ((View.whole main_v90).slice (win8_3.rect t)).set ↔ _
  rw [View.set_slice_whole, Rect.mem_set_unit]
  exact Iff.rfl

/-- Every index of the array is in some point's block: row `r` is covered by point `r / 4000`. -/
theorem covered (i : S100000x16.Idx) :
    ∃ t : Fin cfg8.N, (cfg8.win 3).flush t = true ∧ i ∈ ((cfg8.win 3).blk t).view.set := by
  have hN : grid8.N = 25 := N_8
  have hi0 : (i 0).val < 100000 := idx2_lt0 i
  have hi1 : (i 1).val < 16 := idx2_lt1 i
  obtain ⟨t, ht⟩ : ∃ t : Fin cfg8.N, t.val = (i 0).val / 4000 := ⟨⟨(i 0).val / 4000, by show _ < grid8.N; rw [hN]; omega⟩, rfl⟩
  refine ⟨t, flush8_3 t, ?_⟩
  rw [mem_blk]
  obtain ⟨-, -, -, -, -, e5, e6⟩ := index_facts t
  intro a
  match a with
  | ⟨0, _⟩ =>
    show win8_3.index t (0 : Fin 2) * 4000 ≤ (i 0).val ∧ (i 0).val < win8_3.index t (0 : Fin 2) * 4000 + 4000
    rw [e5, ht]; omega
  | ⟨1, _⟩ =>
    show win8_3.index t (1 : Fin 2) * 16 ≤ (i 1).val ∧ (i 1).val < win8_3.index t (1 : Fin 2) * 16 + 16
    rw [e6]; omega

/-- THE OUTPUT ARRAY after the region: the classifier of the features, weights and bias as the region finds them. -/
theorem classify_array (c : Dev nD) :
    (dat8 (F := Ideal) V c).arrAt 3 cfg8.N = Cert.Layers.classify (F := Ideal) (V c (Pipeline.arrRef spec8 0))
      (V c (Pipeline.arrRef spec8 1)) (V c (Pipeline.arrRef spec8 2)) :=
  (dat8 V c).arrAt_eq_of_cover 3 _ (fun t _ => flushed_eq V c t) covered

end Cert.ClassifierRegion

end
-- ==== Proof.KernelChain.lean ====
/-
  The kernel program computes the network.

  The contents of the kernel program's buffers are followed through its sixteen segments. The three host stretches
  before the first region leave the source list, the target list and the weights of the edge list; each dense-product
  region leaves the product of the features it finds with its weight matrix; each aggregation stretch applies the
  aggregation over the graph to the product, at the three edge quantities, which no later segment changes; each bias
  region adds its bias (and takes the positive part in the first and third layer); the last region applies the
  classifier. Composed, the result buffer after the last region holds the network of the twelve argument arrays.
-/
import proofs.«111109_j996432412812_1_alg».proof.Proof.Gen.KernelIdeal.Frame
import proofs.«111109_j996432412812_1_alg».proof.Proof.Carry
import proofs.«111109_j996432412812_1_alg».proof.Proof.Network
import proofs.«111109_j996432412812_1_alg».proof.Proof.DenseRegions
import proofs.«111109_j996432412812_1_alg».proof.Proof.BiasRegions
import proofs.«111109_j996432412812_1_alg».proof.Proof.ClassifierRegion
import Idealize.ShloMosaic.Lib.StableHlo.Run

set_option maxRecDepth 16384
set_option maxHeartbeats 4000000

noncomputable section

namespace Cert.KernelChain

open Cert.KernelIdeal Cert.KernelIdeal.Gen Cert.Layers Cert.Graph Cert.Network
open Idealize.ShloMosaic Idealize.ShloMosaic.TcCoe Idealize.SL.Sem Idealize.ShloMosaic.StableHlo

/-! ## The host stretches, read off at their result buffers -/

section Host
variable (W : Valuation τ sig (Elt Ideal))

/-- The source list after the first host stretch. -/
theorem src_of : StableHlo.after hostOps0 W (Proc.devRef .tc main_v3) = edgeSrc (F := Ideal) (W (Proc.devRef .tc main_arg1)) := by
  after_results_simp; exact rfl

/-- The target list after the first host stretch. -/
theorem dst_of : StableHlo.after hostOps0 W (Proc.devRef .tc main_v6) = edgeDst (F := Ideal) (W (Proc.devRef .tc main_arg1)) := by
  after_results_simp; exact rfl

/-- Where the degree is positive, after the first host stretch. -/
theorem positive_of : (StableHlo.after hostOps0 W (Proc.devRef .tc main_v12) : (⟨Cert.ReferenceIdeal.S100000, .i1⟩ : BufTy).Contents (Elt Ideal))
    = cmpf (F := Ideal) .ogt (degree (F := Ideal) (edgeDst (W (Proc.devRef .tc main_arg1))))
        (broadcastInDim Cert.ReferenceIdeal.S100000 ![] Cert.ReferenceIdeal.Gen.bcast_S_S100000 (constant Cert.ReferenceIdeal.S_ .f32 0x00000000#32)) := by
  after_results_simp; exact rfl

/-- The inverse square root of the degree, after the first host stretch. -/
theorem rsqrt_of : (StableHlo.after hostOps0 W (Proc.devRef .tc main_v13) : (⟨Cert.ReferenceIdeal.S100000, .f32⟩ : BufTy).Contents (Elt Ideal))
    = Host.rsqrt (F := Ideal) (φ := .f32) (degree (F := Ideal) (edgeDst (W (Proc.devRef .tc main_arg1)))) := by
  after_results_simp; exact rfl

/-- The zero put where the degree is not positive. -/
theorem zero_of : (StableHlo.after hostOps0 W (Proc.devRef .tc main_cst_2) : (⟨Cert.ReferenceIdeal.S_, .f32⟩ : BufTy).Contents (Elt Ideal))
    = constant (F := Ideal) Cert.ReferenceIdeal.S_ .f32 0x00000000#32 := by
  after_results_simp

/-- The second host stretch selects between the two. -/
theorem select_of : StableHlo.after hostOps0_1 W (Proc.devRef .tc main_v14)
    = select (W (Proc.devRef .tc main_v12)) (W (Proc.devRef .tc main_v13))
        (broadcastInDim Cert.ReferenceIdeal.S100000 ![] Cert.ReferenceIdeal.Gen.bcast_S_S100000 (id (W (Proc.devRef .tc main_cst_2)))) := by
  after_results_simp; exact rfl

/-- The inverse square root degrees after the first two host stretches. -/
theorem invSqrtDegree_of : StableHlo.after hostOps0_1 (StableHlo.after hostOps0 W) (Proc.devRef .tc main_v14)
    = invSqrtDegree (F := Ideal) (edgeDst (W (Proc.devRef .tc main_arg1))) := by
  refine (select_of (StableHlo.after hostOps0 W)).trans ?_
  rw [positive_of, rsqrt_of, zero_of]
  exact rfl

/-- The weights after the third host stretch, from the per-node factor and the two lists it finds. -/
theorem weight_of : StableHlo.after hostOps0_2 W (Proc.devRef .tc main_v29)
    = weightOf (F := Ideal) (W (Proc.devRef .tc main_v14)) (W (Proc.devRef .tc main_v3)) (W (Proc.devRef .tc main_v6)) := by
  after_results_simp; exact rfl

/-- The aggregation stretch of the first layer. -/
theorem aggregate1_of : StableHlo.after hostOps1 W (Proc.devRef .tc main_v43)
    = aggregate (F := Ideal) (W (Proc.devRef .tc main_v30)) (W (Proc.devRef .tc main_v3)) (W (Proc.devRef .tc main_v6)) (W (Proc.devRef .tc main_v29)) := by
  after_results_simp; exact rfl

theorem aggregate3_of : StableHlo.after hostOps3 W (Proc.devRef .tc main_v58)
    = aggregate (F := Ideal) (W (Proc.devRef .tc main_v45)) (W (Proc.devRef .tc main_v3)) (W (Proc.devRef .tc main_v6)) (W (Proc.devRef .tc main_v29)) := by
  after_results_simp; exact rfl

theorem aggregate5_of : StableHlo.after hostOps5 W (Proc.devRef .tc main_v73)
    = aggregate (F := Ideal) (W (Proc.devRef .tc main_v60)) (W (Proc.devRef .tc main_v3)) (W (Proc.devRef .tc main_v6)) (W (Proc.devRef .tc main_v29)) := by
  after_results_simp; exact rfl

theorem aggregate7_of : StableHlo.after hostOps7 W (Proc.devRef .tc main_v88)
    = aggregate (F := Ideal) (W (Proc.devRef .tc main_v75)) (W (Proc.devRef .tc main_v3)) (W (Proc.devRef .tc main_v6)) (W (Proc.devRef .tc main_v29)) := by
  after_results_simp; exact rfl

end Host

variable (m : (ℓ : Loc nD τ sig) → Buf (Elt Ideal) ℓ) (ρ : Dev nD → PrngReg) (c : Dev nD)

/-! ## The edge quantities at the first region's entry -/

theorem src_at_entry : W3 m ρ c (Proc.devRef .tc main_v3) = edgeSrc (F := Ideal) (m ((c : Thread nD τ).loc main_arg1)) :=
  ((StableHlo.after_of_writes_sub hostOps0_2 _ Cert.Carry.written0_2_sub (by decide)).trans
    (StableHlo.after_of_writes_sub hostOps0_1 _ Cert.Carry.written0_1_sub (by decide))).trans (src_of (W0 m ρ c))

theorem dst_at_entry : W3 m ρ c (Proc.devRef .tc main_v6) = edgeDst (F := Ideal) (m ((c : Thread nD τ).loc main_arg1)) :=
  ((StableHlo.after_of_writes_sub hostOps0_2 _ Cert.Carry.written0_2_sub (by decide)).trans
    (StableHlo.after_of_writes_sub hostOps0_1 _ Cert.Carry.written0_1_sub (by decide))).trans (dst_of (W0 m ρ c))

theorem weight_at_entry : W3 m ρ c (Proc.devRef .tc main_v29) = edgeWeight (F := Ideal) (edgeSrc (m ((c : Thread nD τ).loc main_arg1))) (edgeDst (m ((c : Thread nD τ).loc main_arg1))) := by
  have hdis : W2 m ρ c (Proc.devRef .tc main_v14) = invSqrtDegree (F := Ideal) (edgeDst (m ((c : Thread nD τ).loc main_arg1))) :=
    invSqrtDegree_of (W0 m ρ c)
  have hsrc : W2 m ρ c (Proc.devRef .tc main_v3) = edgeSrc (F := Ideal) (m ((c : Thread nD τ).loc main_arg1)) :=
    (StableHlo.after_of_writes_sub hostOps0_1 _ Cert.Carry.written0_1_sub (by decide)).trans (src_of (W0 m ρ c))
  have hdst : W2 m ρ c (Proc.devRef .tc main_v6) = edgeDst (F := Ideal) (m ((c : Thread nD τ).loc main_arg1)) :=
    (StableHlo.after_of_writes_sub hostOps0_1 _ Cert.Carry.written0_1_sub (by decide)).trans (dst_of (W0 m ρ c))
  refine (weight_of (W2 m ρ c)).trans ?_
  rw [hdis, hsrc, hdst]
  exact rfl

/-- At a later boundary `s` the three edge quantities are still those of the first region's entry. -/
theorem propagate_at (h : (⟨Cert.ReferenceIdeal.S100000x128, .f32⟩ : BufTy).Contents (Elt Ideal))
    (s d : (⟨Cert.ReferenceIdeal.S1700000, .i32⟩ : BufTy).Contents (Elt Ideal)) (wt : (⟨Cert.ReferenceIdeal.S1700000, .f32⟩ : BufTy).Contents (Elt Ideal))
    (hs : s = edgeSrc (F := Ideal) (m ((c : Thread nD τ).loc main_arg1))) (hd : d = edgeDst (F := Ideal) (m ((c : Thread nD τ).loc main_arg1)))
    (hw : wt = edgeWeight (F := Ideal) (edgeSrc (m ((c : Thread nD τ).loc main_arg1))) (edgeDst (m ((c : Thread nD τ).loc main_arg1)))) :
    aggregate (F := Ideal) h s d wt = propagate h (m ((c : Thread nD τ).loc main_arg1)) := by
  subst hs hd hw; rfl

/-! ## The feature array at each boundary -/

/-- After region 0: the first dense product. -/
theorem at4 : W4 m ρ c (Proc.devRef .tc main_v30) = dense0 (F := Ideal) (m ((c : Thread nD τ).loc main_arg0)) (m ((c : Thread nD τ).loc main_arg2)) :=
  (W4_arr m ρ c 2).trans ((Cert.DenseRegions.dense0_array (V3 m ρ) c).trans
    (congrArg₂ (dense0 (F := Ideal)) ((Cert.Carry.arg_at_entry m ρ c main_arg0 (by decide))) ((Cert.Carry.arg_at_entry m ρ c main_arg2 (by decide)))))

/-- After the first aggregation stretch. -/
theorem at5 : W5 m ρ c (Proc.devRef .tc main_v43) = propagate (F := Ideal) (dense0 (m ((c : Thread nD τ).loc main_arg0)) (m ((c : Thread nD τ).loc main_arg2))) (m ((c : Thread nD τ).loc main_arg1)) :=
  (aggregate1_of (W4 m ρ c)).trans ((congrArg (fun h => aggregate (F := Ideal) h _ _ _) (at4 m ρ c)).trans
    (propagate_at m c _ _ _ _
      ((Cert.Carry.upTo4 m ρ c main_v3 (by decide)).trans (src_at_entry m ρ c))
      ((Cert.Carry.upTo4 m ρ c main_v6 (by decide)).trans (dst_at_entry m ρ c))
      ((Cert.Carry.upTo4 m ρ c main_v29 (by decide)).trans (weight_at_entry m ρ c))))

/-- After region 1: the first layer. -/
theorem at6 : W6 m ρ c (Proc.devRef .tc main_v44) = layerIn (F := Ideal) (m ((c : Thread nD τ).loc main_arg0)) (m ((c : Thread nD τ).loc main_arg1)) (m ((c : Thread nD τ).loc main_arg2)) (m ((c : Thread nD τ).loc main_arg3)) :=
  (W6_arr m ρ c 2).trans ((Cert.BiasRegions.bias1_array (V5 m ρ) c).trans
    (congrArg₂ (addBiasRelu (F := Ideal)) (at5 m ρ c) ((Cert.Carry.upTo5 m ρ c main_arg3 (by decide)).trans ((Cert.Carry.arg_at_entry m ρ c main_arg3 (by decide))))))

/-- After region 2: the second dense product. -/
theorem at7 : W7 m ρ c (Proc.devRef .tc main_v45) = dense (F := Ideal) (layerIn (m ((c : Thread nD τ).loc main_arg0)) (m ((c : Thread nD τ).loc main_arg1)) (m ((c : Thread nD τ).loc main_arg2)) (m ((c : Thread nD τ).loc main_arg3))) (m ((c : Thread nD τ).loc main_arg4)) :=
  (W7_arr m ρ c 2).trans ((Cert.DenseRegions.dense2_array (V6 m ρ) c).trans
    (congrArg₂ (dense (F := Ideal)) (at6 m ρ c) ((Cert.Carry.upTo6 m ρ c main_arg4 (by decide)).trans ((Cert.Carry.arg_at_entry m ρ c main_arg4 (by decide))))))

/-- After the second aggregation stretch. -/
theorem at8 : W8 m ρ c (Proc.devRef .tc main_v58) = propagate (F := Ideal) (dense (layerIn (F := Ideal) (m ((c : Thread nD τ).loc main_arg0)) (m ((c : Thread nD τ).loc main_arg1)) (m ((c : Thread nD τ).loc main_arg2)) (m ((c : Thread nD τ).loc main_arg3))) (m ((c : Thread nD τ).loc main_arg4))) (m ((c : Thread nD τ).loc main_arg1)) :=
  (aggregate3_of (W7 m ρ c)).trans ((congrArg (fun h => aggregate (F := Ideal) h _ _ _) (at7 m ρ c)).trans
    (propagate_at m c _ _ _ _
      ((Cert.Carry.upTo7 m ρ c main_v3 (by decide)).trans (src_at_entry m ρ c))
      ((Cert.Carry.upTo7 m ρ c main_v6 (by decide)).trans (dst_at_entry m ρ c))
      ((Cert.Carry.upTo7 m ρ c main_v29 (by decide)).trans (weight_at_entry m ρ c))))

/-- After region 3: the second layer. -/
theorem at9 : W9 m ρ c (Proc.devRef .tc main_v59) = (layerLinear (F := Ideal) (layerIn (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) :=
  (W9_arr m ρ c 2).trans ((Cert.BiasRegions.bias3_array (V8 m ρ) c).trans
    (congrArg₂ (addBias (F := Ideal)) (at8 m ρ c) ((Cert.Carry.upTo8 m ρ c main_arg5 (by decide)).trans ((Cert.Carry.arg_at_entry m ρ c main_arg5 (by decide))))))

/-- After region 4: the third dense product. -/
theorem at10 : W10 m ρ c (Proc.devRef .tc main_v60) = dense (F := Ideal) (layerLinear (F := Ideal) (layerIn (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6)) :=
  (W10_arr m ρ c 2).trans ((Cert.DenseRegions.dense4_array (V9 m ρ) c).trans
    (congrArg₂ (dense (F := Ideal)) (at9 m ρ c) ((Cert.Carry.upTo9 m ρ c main_arg6 (by decide)).trans ((Cert.Carry.arg_at_entry m ρ c main_arg6 (by decide))))))

/-- After the third aggregation stretch. -/
theorem at11 : W11 m ρ c (Proc.devRef .tc main_v73) = propagate (F := Ideal) (dense (layerLinear (F := Ideal) (layerIn (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6))) (m ((c : Thread nD τ).loc main_arg1)) :=
  (aggregate5_of (W10 m ρ c)).trans ((congrArg (fun h => aggregate (F := Ideal) h _ _ _) (at10 m ρ c)).trans
    (propagate_at m c _ _ _ _
      ((Cert.Carry.upTo10 m ρ c main_v3 (by decide)).trans (src_at_entry m ρ c))
      ((Cert.Carry.upTo10 m ρ c main_v6 (by decide)).trans (dst_at_entry m ρ c))
      ((Cert.Carry.upTo10 m ρ c main_v29 (by decide)).trans (weight_at_entry m ρ c))))

/-- After region 5: the third layer. -/
theorem at12 : W12 m ρ c (Proc.devRef .tc main_v74) = (layerRelu (F := Ideal) (layerLinear (F := Ideal) (layerIn (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg1)) (m ((c : Thread nD τ).loc main_arg6)) (m ((c : Thread nD τ).loc main_arg7))) :=
  (W12_arr m ρ c 2).trans ((Cert.BiasRegions.bias5_array (V11 m ρ) c).trans
    (congrArg₂ (addBiasRelu (F := Ideal)) (at11 m ρ c) ((Cert.Carry.upTo11 m ρ c main_arg7 (by decide)).trans ((Cert.Carry.arg_at_entry m ρ c main_arg7 (by decide))))))

/-- After region 6: the fourth dense product. -/
theorem at13 : W13 m ρ c (Proc.devRef .tc main_v75) = dense (F := Ideal) (layerRelu (F := Ideal) (layerLinear (F := Ideal) (layerIn (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg1)) (m ((c : Thread nD τ).loc main_arg6)) (m ((c : Thread nD τ).loc main_arg7))) (m ((c : Thread nD τ).loc main_arg8)) :=
  (W13_arr m ρ c 2).trans ((Cert.DenseRegions.dense6_array (V12 m ρ) c).trans
    (congrArg₂ (dense (F := Ideal)) (at12 m ρ c) ((Cert.Carry.upTo12 m ρ c main_arg8 (by decide)).trans ((Cert.Carry.arg_at_entry m ρ c main_arg8 (by decide))))))

/-- After the fourth aggregation stretch. -/
theorem at14 : W14 m ρ c (Proc.devRef .tc main_v88) = propagate (F := Ideal) (dense (layerRelu (F := Ideal) (layerLinear (F := Ideal) (layerIn (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg1)) (m ((c : Thread nD τ).loc main_arg6)) (m ((c : Thread nD τ).loc main_arg7))) (m ((c : Thread nD τ).loc main_arg8))) (m ((c : Thread nD τ).loc main_arg1)) :=
  (aggregate7_of (W13 m ρ c)).trans ((congrArg (fun h => aggregate (F := Ideal) h _ _ _) (at13 m ρ c)).trans
    (propagate_at m c _ _ _ _
      ((Cert.Carry.upTo13 m ρ c main_v3 (by decide)).trans (src_at_entry m ρ c))
      ((Cert.Carry.upTo13 m ρ c main_v6 (by decide)).trans (dst_at_entry m ρ c))
      ((Cert.Carry.upTo13 m ρ c main_v29 (by decide)).trans (weight_at_entry m ρ c))))

/-- After region 7: the fourth layer. -/
theorem at15 : W15 m ρ c (Proc.devRef .tc main_v89) = (layerLinear (F := Ideal) (layerRelu (F := Ideal) (layerLinear (F := Ideal) (layerIn (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg1)) (m ((c : Thread nD τ).loc main_arg6)) (m ((c : Thread nD τ).loc main_arg7))) (m ((c : Thread nD τ).loc main_arg1)) (m ((c : Thread nD τ).loc main_arg8)) (m ((c : Thread nD τ).loc main_arg9))) :=
  (W15_arr m ρ c 2).trans ((Cert.BiasRegions.bias7_array (V14 m ρ) c).trans
    (congrArg₂ (addBias (F := Ideal)) (at14 m ρ c) ((Cert.Carry.upTo14 m ρ c main_arg9 (by decide)).trans ((Cert.Carry.arg_at_entry m ρ c main_arg9 (by decide))))))

/-- After the last region: the network of the argument arrays. -/
theorem result_eq : W16 m ρ c (Proc.devRef .tc main_v90)
    = network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W16_arr m ρ c 3).trans ((Cert.ClassifierRegion.classify_array (V15 m ρ) c).trans
    (congr (congrArg₂ (classify (F := Ideal)) (at15 m ρ c) ((Cert.Carry.upTo15 m ρ c main_arg10 (by decide)).trans ((Cert.Carry.arg_at_entry m ρ c main_arg10 (by decide))))) ((Cert.Carry.upTo15 m ρ c main_arg11 (by decide)).trans ((Cert.Carry.arg_at_entry m ρ c main_arg11 (by decide))))))

end Cert.KernelChain

end
-- ==== Proof.RefOps.lean ====
/-
  The reference program as a line of host operations, and its run.

  The reference has no kernel: its entry point is 145 host operations in a row, and every weakly fair execution of
  it terminates with each buffer at the fold of the operations over the launch memory. The line is cut here into
  the pieces the network is made of — the edge lists and weights, then per layer the dense product, the aggregation
  and the bias, then the logits and the four steps of the log-softmax — so that the fold can be computed piece by piece.
-/
import proofs.«111109_j996432412812_1_alg».proof.Proof.Gen.ReferenceIdeal
import Idealize.ShloMosaic.Lib.StableHlo.Run

noncomputable section

namespace Cert.RefOps

open Cert.ReferenceIdeal Cert.ReferenceIdeal.Gen Idealize.ShloMosaic Idealize.ShloMosaic.TcCoe Idealize.SL.Sem Idealize.ShloMosaic.StableHlo

variable {F : FTy → Type} [FloatOps F]

/-! ## The pieces of the line -/

/-- The source and target lists with their self loops, the degree of every node, where it is positive and its inverse square root. -/
abbrev edgeOps : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The inverse square root degree where the degree is positive, zero elsewhere (an outlined select). -/
abbrev selectOps : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The wrapped index columns of the two lists, the per-node factor gathered at both ends, and their product: the weights. -/
abbrev weightOps : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- The first dense product. -/
abbrev denseOps1 : List (HloOp τ sig (Elt F)) :=
  [ binary main_arg0 main_arg2 main_v30 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ]

/-- The first aggregation over the graph. -/
abbrev aggregateOps1 : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The first bias and positive part. -/
abbrev biasOps1 : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

/-- The second dense product. -/
abbrev denseOps2 : List (HloOp τ sig (Elt F)) :=
  [ binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The second aggregation over the graph. -/
abbrev aggregateOps2 : List (HloOp τ sig (Elt F)) :=
  [ nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The second bias. -/
abbrev biasOps2 : List (HloOp τ sig (Elt F)) :=
  [ unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)) ]

/-- The third dense product. -/
abbrev denseOps3 : List (HloOp τ sig (Elt F)) :=
  [ binary main_v64 main_arg6 main_v65 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The third aggregation over the graph. -/
abbrev aggregateOps3 : List (HloOp τ sig (Elt F)) :=
  [ nullary main_c_12 (constantI S_ 32 0#32),
    unary main_c_12 main_v66 (broadcastInDim S1700000 ![] bcast_S_S1700000 : (⟨S_, .i32⟩ : BufTy).Contents (Elt F) → (⟨S1700000, .i32⟩ : BufTy).Contents (Elt F)),
    binary main_v3 main_v66 main_v67 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v68 (broadcastInDim S1700000 ![] bcast_S_S1700000 : (⟨S_, .i32⟩ : BufTy).Contents (Elt F) → (⟨S1700000, .i32⟩ : BufTy).Contents (Elt F)),
    binary main_v3 main_v68 main_v69 (addi : (⟨S1700000, .i32⟩ : BufTy).Contents (Elt F) → (⟨S1700000, .i32⟩ : BufTy).Contents (Elt F) → (⟨S1700000, .i32⟩ : BufTy).Contents (Elt F)),
    ternary main_v67 main_v69 main_v3 main_v70 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v70 main_v71 (broadcastInDim S1700000x1 ![0] bcast_S1700000_S1700000x1_0 : (⟨S1700000, .i32⟩ : BufTy).Contents (Elt F) → (⟨S1700000x1, .i32⟩ : BufTy).Contents (Elt F)),
    binary main_v65 main_v71 main_v72 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v73 (broadcastInDim S1700000x1 ![0] bcast_S1700000_S1700000x1_0 : (⟨S1700000, .f32⟩ : BufTy).Contents (Elt F) → (⟨S1700000x1, .f32⟩ : BufTy).Contents (Elt F)),
    unary main_v73 main_v74 (broadcastInDim S1700000x128 ![0, 1] bcast_S1700000x1_S1700000x128_0_1 : (⟨S1700000x1, .f32⟩ : BufTy).Contents (Elt F) → (⟨S1700000x128, .f32⟩ : BufTy).Contents (Elt F)),
    binary main_v72 main_v74 main_v75 (mulf : (⟨S1700000x128, .f32⟩ : BufTy).Contents (Elt F) → (⟨S1700000x128, .f32⟩ : BufTy).Contents (Elt F) → (⟨S1700000x128, .f32⟩ : BufTy).Contents (Elt F)),
    nullary main_cst_14 (constant S_ .f32 0x00000000#32),
    unary main_cst_14 main_v76 (broadcastInDim S100000x128 ![] bcast_S_S100000x128 : (⟨S_, .f32⟩ : BufTy).Contents (Elt F) → (⟨S100000x128, .f32⟩ : BufTy).Contents (Elt F)),
    unary main_v6 main_v77 (broadcastInDim S1700000x1 ![0] bcast_S1700000_S1700000x1_0 : (⟨S1700000, .i32⟩ : BufTy).Contents (Elt F) → (⟨S1700000x1, .i32⟩ : BufTy).Contents (Elt F)),
    ternary main_v76 main_v77 main_v75 main_v78 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The third bias and positive part. -/
abbrev biasOps3 : List (HloOp τ sig (Elt F)) :=
  [ unary main_arg7 main_v79 (broadcastInDim S1x128 ![1] bcast_S128_S1x128_1 : (⟨S128, .f32⟩ : BufTy).Contents (Elt F) → (⟨S1x128, .f32⟩ : BufTy).Contents (Elt F)),
    unary main_v79 main_v80 (broadcastInDim S100000x128 ![0, 1] bcast_S1x128_S100000x128_0_1 : (⟨S1x128, .f32⟩ : BufTy).Contents (Elt F) → (⟨S100000x128, .f32⟩ : BufTy).Contents (Elt F)),
    binary main_v78 main_v80 main_v81 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v81) (TRef.of (T := ⟨S100000x128, .f32⟩) main_call2_v0) (TRef.of (T := ⟨S100000x128, .f32⟩) main_v82) maximumf ]

/-- The fourth dense product. -/
abbrev denseOps4 : List (HloOp τ sig (Elt F)) :=
  [ binary main_v82 main_arg8 main_v83 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The fourth aggregation over the graph. -/
abbrev aggregateOps4 : List (HloOp τ sig (Elt F)) :=
  [ nullary main_c_15 (constantI S_ 32 0#32),
    unary main_c_15 main_v84 (broadcastInDim S1700000 ![] bcast_S_S1700000 : (⟨S_, .i32⟩ : BufTy).Contents (Elt F) → (⟨S1700000, .i32⟩ : BufTy).Contents (Elt F)),
    binary main_v3 main_v84 main_v85 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v86 (broadcastInDim S1700000 ![] bcast_S_S1700000 : (⟨S_, .i32⟩ : BufTy).Contents (Elt F) → (⟨S1700000, .i32⟩ : BufTy).Contents (Elt F)),
    binary main_v3 main_v86 main_v87 (addi : (⟨S1700000, .i32⟩ : BufTy).Contents (Elt F) → (⟨S1700000, .i32⟩ : BufTy).Contents (Elt F) → (⟨S1700000, .i32⟩ : BufTy).Contents (Elt F)),
    ternary main_v85 main_v87 main_v3 main_v88 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v88 main_v89 (broadcastInDim S1700000x1 ![0] bcast_S1700000_S1700000x1_0 : (⟨S1700000, .i32⟩ : BufTy).Contents (Elt F) → (⟨S1700000x1, .i32⟩ : BufTy).Contents (Elt F)),
    binary main_v83 main_v89 main_v90 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v91 (broadcastInDim S1700000x1 ![0] bcast_S1700000_S1700000x1_0 : (⟨S1700000, .f32⟩ : BufTy).Contents (Elt F) → (⟨S1700000x1, .f32⟩ : BufTy).Contents (Elt F)),
    unary main_v91 main_v92 (broadcastInDim S1700000x128 ![0, 1] bcast_S1700000x1_S1700000x128_0_1 : (⟨S1700000x1, .f32⟩ : BufTy).Contents (Elt F) → (⟨S1700000x128, .f32⟩ : BufTy).Contents (Elt F)),
    binary main_v90 main_v92 main_v93 (mulf : (⟨S1700000x128, .f32⟩ : BufTy).Contents (Elt F) → (⟨S1700000x128, .f32⟩ : BufTy).Contents (Elt F) → (⟨S1700000x128, .f32⟩ : BufTy).Contents (Elt F)),
    nullary main_cst_17 (constant S_ .f32 0x00000000#32),
    unary main_cst_17 main_v94 (broadcastInDim S100000x128 ![] bcast_S_S100000x128 : (⟨S_, .f32⟩ : BufTy).Contents (Elt F) → (⟨S100000x128, .f32⟩ : BufTy).Contents (Elt F)),
    unary main_v6 main_v95 (broadcastInDim S1700000x1 ![0] bcast_S1700000_S1700000x1_0 : (⟨S1700000, .i32⟩ : BufTy).Contents (Elt F) → (⟨S1700000x1, .i32⟩ : BufTy).Contents (Elt F)),
    ternary main_v94 main_v95 main_v93 main_v96 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The fourth bias. -/
abbrev biasOps4 : List (HloOp τ sig (Elt F)) :=
  [ unary main_arg9 main_v97 (broadcastInDim S1x128 ![1] bcast_S128_S1x128_1 : (⟨S128, .f32⟩ : BufTy).Contents (Elt F) → (⟨S1x128, .f32⟩ : BufTy).Contents (Elt F)),
    unary main_v97 main_v98 (broadcastInDim S100000x128 ![0, 1] bcast_S1x128_S100000x128_0_1 : (⟨S1x128, .f32⟩ : BufTy).Contents (Elt F) → (⟨S100000x128, .f32⟩ : BufTy).Contents (Elt F)),
    binary main_v96 main_v98 main_v99 (addf : (⟨S100000x128, .f32⟩ : BufTy).Contents (Elt F) → (⟨S100000x128, .f32⟩ : BufTy).Contents (Elt F) → (⟨S100000x128, .f32⟩ : BufTy).Contents (Elt F)) ]

/-- The classifier's dense product and bias: the logits. -/
abbrev logitOps : List (HloOp τ sig (Elt F)) :=
  [ binary main_v99 main_arg10 main_v100 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    unary main_arg11 main_v101 (broadcastInDim S1x16 ![1] bcast_S16_S1x16_1 : (⟨S16, .f32⟩ : BufTy).Contents (Elt F) → (⟨S1x16, .f32⟩ : BufTy).Contents (Elt F)),
    unary main_v101 main_v102 (broadcastInDim S100000x16 ![0, 1] bcast_S1x16_S100000x16_0_1 : (⟨S1x16, .f32⟩ : BufTy).Contents (Elt F) → (⟨S100000x16, .f32⟩ : BufTy).Contents (Elt F)),
    binary main_v100 main_v102 main_v103 (addf : (⟨S100000x16, .f32⟩ : BufTy).Contents (Elt F) → (⟨S100000x16, .f32⟩ : BufTy).Contents (Elt F) → (⟨S100000x16, .f32⟩ : BufTy).Contents (Elt F)) ]

/-- The largest entry of each row of the logits (an outlined function's first operations). -/
abbrev rowMaxOps : List (HloOp τ sig (Elt F)) :=
  [ TRef.nullary (TRef.of (T := ⟨S_, .f32⟩) main_call3_cst) (constant S_ .f32 0xFF800000#32),
    TRef.binary (TRef.of (T := ⟨S100000x16, .f32⟩) main_v103) (TRef.of (T := ⟨S_, .f32⟩) main_call3_cst) (TRef.of (T := ⟨S100000, .f32⟩) main_call3_v0) (fun x v => Host.reduce FloatOps.maximumf x v reducesTo_S100000x16_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]

/-- Each row minus its largest entry. -/
abbrev shiftOps : List (HloOp τ sig (Elt F)) :=
  [ TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x16, .f32⟩) main_call3_v4) (broadcastInDim S100000x16 ![0, 1] bcast_S100000x1_S100000x16_0_1),
    TRef.binary (TRef.of (T := ⟨S100000x16, .f32⟩) main_v103) (TRef.of (T := ⟨S100000x16, .f32⟩) main_call3_v4) (TRef.of (T := ⟨S100000x16, .f32⟩) main_call3_v5) subf ]

/-- The sum over each row of the exponentials. -/
abbrev sumExpOps : List (HloOp τ sig (Elt F)) :=
  [ TRef.unary (TRef.of (T := ⟨S100000x16, .f32⟩) main_call3_v5) (TRef.of (T := ⟨S100000x16, .f32⟩) main_call3_v6) Host.exp,
    TRef.nullary (TRef.of (T := ⟨S_, .f32⟩) main_call3_cst_1) (constant S_ .f32 0x00000000#32),
    TRef.binary (TRef.of (T := ⟨S100000x16, .f32⟩) main_call3_v6) (TRef.of (T := ⟨S_, .f32⟩) main_call3_cst_1) (TRef.of (T := ⟨S100000, .f32⟩) main_call3_v7) (fun x v => Host.reduceAdd x v reducesTo_S100000x16_S100000_d1 h_S_) ]

/-- The shifted rows minus the logarithm of that sum. -/
abbrev minusLogOps : List (HloOp τ sig (Elt F)) :=
  [ TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x16, .f32⟩) main_call3_v10) (broadcastInDim S100000x16 ![0, 1] bcast_S100000x1_S100000x16_0_1),
    TRef.binary (TRef.of (T := ⟨S100000x16, .f32⟩) main_call3_v5) (TRef.of (T := ⟨S100000x16, .f32⟩) main_call3_v10) (TRef.of (T := ⟨S100000x16, .f32⟩) main_v104) subf ]

/-! ## The whole line -/

/-- The entry point's 145 operations, in order (an outlined function's operations stand in its call's place). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    binary main_v64 main_arg6 main_v65 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_12 (constantI S_ 32 0#32),
    unary main_c_12 main_v66 (broadcastInDim S1700000 ![] bcast_S_S1700000 : (⟨S_, .i32⟩ : BufTy).Contents (Elt F) → (⟨S1700000, .i32⟩ : BufTy).Contents (Elt F)),
    binary main_v3 main_v66 main_v67 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v68 (broadcastInDim S1700000 ![] bcast_S_S1700000 : (⟨S_, .i32⟩ : BufTy).Contents (Elt F) → (⟨S1700000, .i32⟩ : BufTy).Contents (Elt F)),
    binary main_v3 main_v68 main_v69 (addi : (⟨S1700000, .i32⟩ : BufTy).Contents (Elt F) → (⟨S1700000, .i32⟩ : BufTy).Contents (Elt F) → (⟨S1700000, .i32⟩ : BufTy).Contents (Elt F)),
    ternary main_v67 main_v69 main_v3 main_v70 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v70 main_v71 (broadcastInDim S1700000x1 ![0] bcast_S1700000_S1700000x1_0 : (⟨S1700000, .i32⟩ : BufTy).Contents (Elt F) → (⟨S1700000x1, .i32⟩ : BufTy).Contents (Elt F)),
    binary main_v65 main_v71 main_v72 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v73 (broadcastInDim S1700000x1 ![0] bcast_S1700000_S1700000x1_0 : (⟨S1700000, .f32⟩ : BufTy).Contents (Elt F) → (⟨S1700000x1, .f32⟩ : BufTy).Contents (Elt F)),
    unary main_v73 main_v74 (broadcastInDim S1700000x128 ![0, 1] bcast_S1700000x1_S1700000x128_0_1 : (⟨S1700000x1, .f32⟩ : BufTy).Contents (Elt F) → (⟨S1700000x128, .f32⟩ : BufTy).Contents (Elt F)),
    binary main_v72 main_v74 main_v75 (mulf : (⟨S1700000x128, .f32⟩ : BufTy).Contents (Elt F) → (⟨S1700000x128, .f32⟩ : BufTy).Contents (Elt F) → (⟨S1700000x128, .f32⟩ : BufTy).Contents (Elt F)),
    nullary main_cst_14 (constant S_ .f32 0x00000000#32),
    unary main_cst_14 main_v76 (broadcastInDim S100000x128 ![] bcast_S_S100000x128 : (⟨S_, .f32⟩ : BufTy).Contents (Elt F) → (⟨S100000x128, .f32⟩ : BufTy).Contents (Elt F)),
    unary main_v6 main_v77 (broadcastInDim S1700000x1 ![0] bcast_S1700000_S1700000x1_0 : (⟨S1700000, .i32⟩ : BufTy).Contents (Elt F) → (⟨S1700000x1, .i32⟩ : BufTy).Contents (Elt F)),
    ternary main_v76 main_v77 main_v75 main_v78 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg7 main_v79 (broadcastInDim S1x128 ![1] bcast_S128_S1x128_1 : (⟨S128, .f32⟩ : BufTy).Contents (Elt F) → (⟨S1x128, .f32⟩ : BufTy).Contents (Elt F)),
    unary main_v79 main_v80 (broadcastInDim S100000x128 ![0, 1] bcast_S1x128_S100000x128_0_1 : (⟨S1x128, .f32⟩ : BufTy).Contents (Elt F) → (⟨S100000x128, .f32⟩ : BufTy).Contents (Elt F)),
    binary main_v78 main_v80 main_v81 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v81) (TRef.of (T := ⟨S100000x128, .f32⟩) main_call2_v0) (TRef.of (T := ⟨S100000x128, .f32⟩) main_v82) maximumf,
    binary main_v82 main_arg8 main_v83 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_15 (constantI S_ 32 0#32),
    unary main_c_15 main_v84 (broadcastInDim S1700000 ![] bcast_S_S1700000 : (⟨S_, .i32⟩ : BufTy).Contents (Elt F) → (⟨S1700000, .i32⟩ : BufTy).Contents (Elt F)),
    binary main_v3 main_v84 main_v85 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v86 (broadcastInDim S1700000 ![] bcast_S_S1700000 : (⟨S_, .i32⟩ : BufTy).Contents (Elt F) → (⟨S1700000, .i32⟩ : BufTy).Contents (Elt F)),
    binary main_v3 main_v86 main_v87 (addi : (⟨S1700000, .i32⟩ : BufTy).Contents (Elt F) → (⟨S1700000, .i32⟩ : BufTy).Contents (Elt F) → (⟨S1700000, .i32⟩ : BufTy).Contents (Elt F)),
    ternary main_v85 main_v87 main_v3 main_v88 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v88 main_v89 (broadcastInDim S1700000x1 ![0] bcast_S1700000_S1700000x1_0 : (⟨S1700000, .i32⟩ : BufTy).Contents (Elt F) → (⟨S1700000x1, .i32⟩ : BufTy).Contents (Elt F)),
    binary main_v83 main_v89 main_v90 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v91 (broadcastInDim S1700000x1 ![0] bcast_S1700000_S1700000x1_0 : (⟨S1700000, .f32⟩ : BufTy).Contents (Elt F) → (⟨S1700000x1, .f32⟩ : BufTy).Contents (Elt F)),
    unary main_v91 main_v92 (broadcastInDim S1700000x128 ![0, 1] bcast_S1700000x1_S1700000x128_0_1 : (⟨S1700000x1, .f32⟩ : BufTy).Contents (Elt F) → (⟨S1700000x128, .f32⟩ : BufTy).Contents (Elt F)),
    binary main_v90 main_v92 main_v93 (mulf : (⟨S1700000x128, .f32⟩ : BufTy).Contents (Elt F) → (⟨S1700000x128, .f32⟩ : BufTy).Contents (Elt F) → (⟨S1700000x128, .f32⟩ : BufTy).Contents (Elt F)),
    nullary main_cst_17 (constant S_ .f32 0x00000000#32),
    unary main_cst_17 main_v94 (broadcastInDim S100000x128 ![] bcast_S_S100000x128 : (⟨S_, .f32⟩ : BufTy).Contents (Elt F) → (⟨S100000x128, .f32⟩ : BufTy).Contents (Elt F)),
    unary main_v6 main_v95 (broadcastInDim S1700000x1 ![0] bcast_S1700000_S1700000x1_0 : (⟨S1700000, .i32⟩ : BufTy).Contents (Elt F) → (⟨S1700000x1, .i32⟩ : BufTy).Contents (Elt F)),
    ternary main_v94 main_v95 main_v93 main_v96 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg9 main_v97 (broadcastInDim S1x128 ![1] bcast_S128_S1x128_1 : (⟨S128, .f32⟩ : BufTy).Contents (Elt F) → (⟨S1x128, .f32⟩ : BufTy).Contents (Elt F)),
    unary main_v97 main_v98 (broadcastInDim S100000x128 ![0, 1] bcast_S1x128_S100000x128_0_1 : (⟨S1x128, .f32⟩ : BufTy).Contents (Elt F) → (⟨S100000x128, .f32⟩ : BufTy).Contents (Elt F)),
    binary main_v96 main_v98 main_v99 (addf : (⟨S100000x128, .f32⟩ : BufTy).Contents (Elt F) → (⟨S100000x128, .f32⟩ : BufTy).Contents (Elt F) → (⟨S100000x128, .f32⟩ : BufTy).Contents (Elt F)),
    binary main_v99 main_arg10 main_v100 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    unary main_arg11 main_v101 (broadcastInDim S1x16 ![1] bcast_S16_S1x16_1 : (⟨S16, .f32⟩ : BufTy).Contents (Elt F) → (⟨S1x16, .f32⟩ : BufTy).Contents (Elt F)),
    unary main_v101 main_v102 (broadcastInDim S100000x16 ![0, 1] bcast_S1x16_S100000x16_0_1 : (⟨S1x16, .f32⟩ : BufTy).Contents (Elt F) → (⟨S100000x16, .f32⟩ : BufTy).Contents (Elt F)),
    binary main_v100 main_v102 main_v103 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call3_cst) (constant S_ .f32 0xFF800000#32),
    TRef.binary (TRef.of (T := ⟨S100000x16, .f32⟩) main_v103) (TRef.of (T := ⟨S_, .f32⟩) main_call3_cst) (TRef.of (T := ⟨S100000, .f32⟩) main_call3_v0) (fun x v => Host.reduce FloatOps.maximumf x v reducesTo_S100000x16_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x16, .f32⟩) main_call3_v4) (broadcastInDim S100000x16 ![0, 1] bcast_S100000x1_S100000x16_0_1),
    TRef.binary (TRef.of (T := ⟨S100000x16, .f32⟩) main_v103) (TRef.of (T := ⟨S100000x16, .f32⟩) main_call3_v4) (TRef.of (T := ⟨S100000x16, .f32⟩) main_call3_v5) subf,
    TRef.unary (TRef.of (T := ⟨S100000x16, .f32⟩) main_call3_v5) (TRef.of (T := ⟨S100000x16, .f32⟩) main_call3_v6) Host.exp,
    TRef.nullary (TRef.of (T := ⟨S_, .f32⟩) main_call3_cst_1) (constant S_ .f32 0x00000000#32),
    TRef.binary (TRef.of (T := ⟨S100000x16, .f32⟩) main_call3_v6) (TRef.of (T := ⟨S_, .f32⟩) main_call3_cst_1) (TRef.of (T := ⟨S100000, .f32⟩) main_call3_v7) (fun x v => Host.reduceAdd x v reducesTo_S100000x16_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x16, .f32⟩) main_call3_v10) (broadcastInDim S100000x16 ![0, 1] bcast_S100000x1_S100000x16_0_1),
    TRef.binary (TRef.of (T := ⟨S100000x16, .f32⟩) main_call3_v5) (TRef.of (T := ⟨S100000x16, .f32⟩) main_call3_v10) (TRef.of (T := ⟨S100000x16, .f32⟩) main_v104) subf ]

/-- The line is its pieces one after the other. -/
theorem ops_split : (ops : List (HloOp τ sig (Elt F))) =
    edgeOps ++ (selectOps ++ (weightOps ++ (denseOps1 ++ (aggregateOps1 ++ (biasOps1 ++ (denseOps2 ++ (aggregateOps2 ++ (biasOps2 ++ (denseOps3 ++ (aggregateOps3 ++ (biasOps3 ++ (denseOps4 ++ (aggregateOps4 ++ (biasOps4 ++ (logitOps ++ (rowMaxOps ++ (shiftOps ++ (sumExpOps ++ (minusLogOps))))))))))))))))))) := rfl

set_option maxRecDepth 8192 in
set_option maxHeartbeats 4000000 in
/-- The printed entry point is the line run in order. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Folding two lines one after the other is folding their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 4000000 in
/-- Every weakly fair execution of the reference terminates without a fault, with every buffer at the fold of the
    line over the launch memory. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.RefOps

end
-- ==== Proof.RefChain.lean ====
/-
  The reference program computes the network.

  The reference's line of host operations is folded piece by piece over a valuation of the buffers. The first three
  pieces leave the source list, the target list and the weights; then each dense-product operation, aggregation
  piece and bias piece applies the corresponding layer function to the features the previous piece left, at the
  arguments and the three edge quantities, which no later piece writes; the last pieces are the logits and the four
  steps of the log-softmax. Composed, the result buffer holds the network of the twelve argument arrays.
-/
import proofs.«111109_j996432412812_1_alg».proof.Proof.RefOps
import proofs.«111109_j996432412812_1_alg».proof.Proof.Network

set_option maxRecDepth 16384
set_option maxHeartbeats 4000000

noncomputable section

namespace Cert.RefChain

open Cert.ReferenceIdeal Cert.ReferenceIdeal.Gen Cert.RefOps Cert.Layers Cert.Graph Cert.Network
open Idealize.ShloMosaic Idealize.ShloMosaic.TcCoe Idealize.SL.Sem Idealize.ShloMosaic.StableHlo

/-! ## The buffers each piece writes -/

abbrev written_edgeOps : List (Ref sig .tc) := [main_v0, main_v1, main_v2, main_v3, main_v4, main_v5, main_v6, main_cst, main_v7, main_cst_0, main_v8, main_v9, main_v10, main_cst_1, main_v11, main_v12, main_v13, main_cst_2]
theorem written_edgeOps_sub : (edgeOps : List (HloOp τ sig (Elt Ideal))).Forall fun op => op.writes ⊆ (written_edgeOps.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written_selectOps : List (Ref sig .tc) := [main_call0_v0, main_call0_v1, main_v14]
theorem written_selectOps_sub : (selectOps : List (HloOp τ sig (Elt Ideal))).Forall fun op => op.writes ⊆ (written_selectOps.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written_weightOps : List (Ref sig .tc) := [main_c, main_v15, main_v16, main_c_3, main_v17, main_v18, main_v19, main_v20, main_v21, main_c_4, main_v22, main_v23, main_c_5, main_v24, main_v25, main_v26, main_v27, main_v28, main_v29]
theorem written_weightOps_sub : (weightOps : List (HloOp τ sig (Elt Ideal))).Forall fun op => op.writes ⊆ (written_weightOps.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written_denseOps1 : List (Ref sig .tc) := [main_v30]
theorem written_denseOps1_sub : (denseOps1 : List (HloOp τ sig (Elt Ideal))).Forall fun op => op.writes ⊆ (written_denseOps1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written_aggregateOps1 : List (Ref sig .tc) := [main_c_6, main_v31, main_v32, main_c_7, main_v33, main_v34, main_v35, main_v36, main_v37, main_v38, main_v39, main_v40, main_cst_8, main_v41, main_v42, main_v43]
theorem written_aggregateOps1_sub : (aggregateOps1 : List (HloOp τ sig (Elt Ideal))).Forall fun op => op.writes ⊆ (written_aggregateOps1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written_biasOps1 : List (Ref sig .tc) := [main_v44, main_v45, main_v46, main_call1_cst, main_call1_v0, main_v47]
theorem written_biasOps1_sub : (biasOps1 : List (HloOp τ sig (Elt Ideal))).Forall fun op => op.writes ⊆ (written_biasOps1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written_denseOps2 : List (Ref sig .tc) := [main_v48]
theorem written_denseOps2_sub : (denseOps2 : List (HloOp τ sig (Elt Ideal))).Forall fun op => op.writes ⊆ (written_denseOps2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written_aggregateOps2 : List (Ref sig .tc) := [main_c_9, main_v49, main_v50, main_c_10, main_v51, main_v52, main_v53, main_v54, main_v55, main_v56, main_v57, main_v58, main_cst_11, main_v59, main_v60, main_v61]
theorem written_aggregateOps2_sub : (aggregateOps2 : List (HloOp τ sig (Elt Ideal))).Forall fun op => op.writes ⊆ (written_aggregateOps2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written_biasOps2 : List (Ref sig .tc) := [main_v62, main_v63, main_v64]
theorem written_biasOps2_sub : (biasOps2 : List (HloOp τ sig (Elt Ideal))).Forall fun op => op.writes ⊆ (written_biasOps2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written_denseOps3 : List (Ref sig .tc) := [main_v65]
theorem written_denseOps3_sub : (denseOps3 : List (HloOp τ sig (Elt Ideal))).Forall fun op => op.writes ⊆ (written_denseOps3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written_aggregateOps3 : List (Ref sig .tc) := [main_c_12, main_v66, main_v67, main_c_13, main_v68, main_v69, main_v70, main_v71, main_v72, main_v73, main_v74, main_v75, main_cst_14, main_v76, main_v77, main_v78]
theorem written_aggregateOps3_sub : (aggregateOps3 : List (HloOp τ sig (Elt Ideal))).Forall fun op => op.writes ⊆ (written_aggregateOps3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written_biasOps3 : List (Ref sig .tc) := [main_v79, main_v80, main_v81, main_call2_cst, main_call2_v0, main_v82]
theorem written_biasOps3_sub : (biasOps3 : List (HloOp τ sig (Elt Ideal))).Forall fun op => op.writes ⊆ (written_biasOps3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written_denseOps4 : List (Ref sig .tc) := [main_v83]
theorem written_denseOps4_sub : (denseOps4 : List (HloOp τ sig (Elt Ideal))).Forall fun op => op.writes ⊆ (written_denseOps4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written_aggregateOps4 : List (Ref sig .tc) := [main_c_15, main_v84, main_v85, main_c_16, main_v86, main_v87, main_v88, main_v89, main_v90, main_v91, main_v92, main_v93, main_cst_17, main_v94, main_v95, main_v96]
theorem written_aggregateOps4_sub : (aggregateOps4 : List (HloOp τ sig (Elt Ideal))).Forall fun op => op.writes ⊆ (written_aggregateOps4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written_biasOps4 : List (Ref sig .tc) := [main_v97, main_v98, main_v99]
theorem written_biasOps4_sub : (biasOps4 : List (HloOp τ sig (Elt Ideal))).Forall fun op => op.writes ⊆ (written_biasOps4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written_logitOps : List (Ref sig .tc) := [main_v100, main_v101, main_v102, main_v103]
theorem written_logitOps_sub : (logitOps : List (HloOp τ sig (Elt Ideal))).Forall fun op => op.writes ⊆ (written_logitOps.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written_rowMaxOps : List (Ref sig .tc) := [main_call3_cst, main_call3_v0, main_call3_cst_0, main_call3_v1, main_call3_v2]
theorem written_rowMaxOps_sub : (rowMaxOps : List (HloOp τ sig (Elt Ideal))).Forall fun op => op.writes ⊆ (written_rowMaxOps.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written_shiftOps : List (Ref sig .tc) := [main_call3_v3, main_call3_v4, main_call3_v5]
theorem written_shiftOps_sub : (shiftOps : List (HloOp τ sig (Elt Ideal))).Forall fun op => op.writes ⊆ (written_shiftOps.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written_sumExpOps : List (Ref sig .tc) := [main_call3_v6, main_call3_cst_1, main_call3_v7]
theorem written_sumExpOps_sub : (sumExpOps : List (HloOp τ sig (Elt Ideal))).Forall fun op => op.writes ⊆ (written_sumExpOps.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written_minusLogOps : List (Ref sig .tc) := [main_call3_v8, main_call3_v9, main_call3_v10, main_v104]
theorem written_minusLogOps_sub : (minusLogOps : List (HloOp τ sig (Elt Ideal))).Forall fun op => op.writes ⊆ (written_minusLogOps.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## The valuation after each piece -/

variable (W : Valuation τ sig (Elt Ideal))

abbrev R1 : Valuation τ sig (Elt Ideal) := after edgeOps W
abbrev R2 : Valuation τ sig (Elt Ideal) := after selectOps (R1 W)
abbrev R3 : Valuation τ sig (Elt Ideal) := after weightOps (R2 W)
abbrev R4 : Valuation τ sig (Elt Ideal) := after denseOps1 (R3 W)
abbrev R5 : Valuation τ sig (Elt Ideal) := after aggregateOps1 (R4 W)
abbrev R6 : Valuation τ sig (Elt Ideal) := after biasOps1 (R5 W)
abbrev R7 : Valuation τ sig (Elt Ideal) := after denseOps2 (R6 W)
abbrev R8 : Valuation τ sig (Elt Ideal) := after aggregateOps2 (R7 W)
abbrev R9 : Valuation τ sig (Elt Ideal) := after biasOps2 (R8 W)
abbrev R10 : Valuation τ sig (Elt Ideal) := after denseOps3 (R9 W)
abbrev R11 : Valuation τ sig (Elt Ideal) := after aggregateOps3 (R10 W)
abbrev R12 : Valuation τ sig (Elt Ideal) := after biasOps3 (R11 W)
abbrev R13 : Valuation τ sig (Elt Ideal) := after denseOps4 (R12 W)
abbrev R14 : Valuation τ sig (Elt Ideal) := after aggregateOps4 (R13 W)
abbrev R15 : Valuation τ sig (Elt Ideal) := after biasOps4 (R14 W)
abbrev R16 : Valuation τ sig (Elt Ideal) := after logitOps (R15 W)
abbrev R17 : Valuation τ sig (Elt Ideal) := after rowMaxOps (R16 W)
abbrev R18 : Valuation τ sig (Elt Ideal) := after shiftOps (R17 W)
abbrev R19 : Valuation τ sig (Elt Ideal) := after sumExpOps (R18 W)
abbrev R20 : Valuation τ sig (Elt Ideal) := after minusLogOps (R19 W)

/-- The fold of the whole line is the fold of its pieces in order. -/
theorem after_ops : after ops W = R20 W := by
  rw [ops_split]
  simp only [after_append]

/-! ## The buffers carried through the line -/

/-- The twelve argument arrays. -/
abbrev args : List (Ref sig .tc) :=
  [main_arg0, main_arg1, main_arg2, main_arg3, main_arg4, main_arg5, main_arg6, main_arg7, main_arg8, main_arg9, main_arg10, main_arg11]

/-- The argument arrays and the three edge quantities. -/
abbrev carried : List (Ref sig .tc) := args ++ [main_v3, main_v6, main_v29]

/-- The first three pieces write no argument. -/
theorem arg_at_entry (r : Ref sig .tc) (hr : r ∈ args) : R3 W (Proc.devRef .tc r) = W (Proc.devRef .tc r) :=
  (after_of_writes_sub weightOps _ written_weightOps_sub ((by decide : ∀ r ∈ args, r ∉ written_weightOps) r hr)).trans
    ((after_of_writes_sub selectOps _ written_selectOps_sub ((by decide : ∀ r ∈ args, r ∉ written_selectOps) r hr)).trans
      (after_of_writes_sub edgeOps _ written_edgeOps_sub ((by decide : ∀ r ∈ args, r ∉ written_edgeOps) r hr)))

theorem step4 (r : Ref sig .tc) (hr : r ∈ carried) : R4 W (Proc.devRef .tc r) = R3 W (Proc.devRef .tc r) :=
  after_of_writes_sub denseOps1 _ written_denseOps1_sub ((by decide : ∀ r ∈ carried, r ∉ written_denseOps1) r hr)
theorem upTo4 (r : Ref sig .tc) (hr : r ∈ carried) : R4 W (Proc.devRef .tc r) = R3 W (Proc.devRef .tc r) :=
  step4 W r hr
theorem step5 (r : Ref sig .tc) (hr : r ∈ carried) : R5 W (Proc.devRef .tc r) = R4 W (Proc.devRef .tc r) :=
  after_of_writes_sub aggregateOps1 _ written_aggregateOps1_sub ((by decide : ∀ r ∈ carried, r ∉ written_aggregateOps1) r hr)
theorem upTo5 (r : Ref sig .tc) (hr : r ∈ carried) : R5 W (Proc.devRef .tc r) = R3 W (Proc.devRef .tc r) :=
  (step5 W r hr).trans (upTo4 W r hr)
theorem step6 (r : Ref sig .tc) (hr : r ∈ carried) : R6 W (Proc.devRef .tc r) = R5 W (Proc.devRef .tc r) :=
  after_of_writes_sub biasOps1 _ written_biasOps1_sub ((by decide : ∀ r ∈ carried, r ∉ written_biasOps1) r hr)
theorem upTo6 (r : Ref sig .tc) (hr : r ∈ carried) : R6 W (Proc.devRef .tc r) = R3 W (Proc.devRef .tc r) :=
  (step6 W r hr).trans (upTo5 W r hr)
theorem step7 (r : Ref sig .tc) (hr : r ∈ carried) : R7 W (Proc.devRef .tc r) = R6 W (Proc.devRef .tc r) :=
  after_of_writes_sub denseOps2 _ written_denseOps2_sub ((by decide : ∀ r ∈ carried, r ∉ written_denseOps2) r hr)
theorem upTo7 (r : Ref sig .tc) (hr : r ∈ carried) : R7 W (Proc.devRef .tc r) = R3 W (Proc.devRef .tc r) :=
  (step7 W r hr).trans (upTo6 W r hr)
theorem step8 (r : Ref sig .tc) (hr : r ∈ carried) : R8 W (Proc.devRef .tc r) = R7 W (Proc.devRef .tc r) :=
  after_of_writes_sub aggregateOps2 _ written_aggregateOps2_sub ((by decide : ∀ r ∈ carried, r ∉ written_aggregateOps2) r hr)
theorem upTo8 (r : Ref sig .tc) (hr : r ∈ carried) : R8 W (Proc.devRef .tc r) = R3 W (Proc.devRef .tc r) :=
  (step8 W r hr).trans (upTo7 W r hr)
theorem step9 (r : Ref sig .tc) (hr : r ∈ carried) : R9 W (Proc.devRef .tc r) = R8 W (Proc.devRef .tc r) :=
  after_of_writes_sub biasOps2 _ written_biasOps2_sub ((by decide : ∀ r ∈ carried, r ∉ written_biasOps2) r hr)
theorem upTo9 (r : Ref sig .tc) (hr : r ∈ carried) : R9 W (Proc.devRef .tc r) = R3 W (Proc.devRef .tc r) :=
  (step9 W r hr).trans (upTo8 W r hr)
theorem step10 (r : Ref sig .tc) (hr : r ∈ carried) : R10 W (Proc.devRef .tc r) = R9 W (Proc.devRef .tc r) :=
  after_of_writes_sub denseOps3 _ written_denseOps3_sub ((by decide : ∀ r ∈ carried, r ∉ written_denseOps3) r hr)
theorem upTo10 (r : Ref sig .tc) (hr : r ∈ carried) : R10 W (Proc.devRef .tc r) = R3 W (Proc.devRef .tc r) :=
  (step10 W r hr).trans (upTo9 W r hr)
theorem step11 (r : Ref sig .tc) (hr : r ∈ carried) : R11 W (Proc.devRef .tc r) = R10 W (Proc.devRef .tc r) :=
  after_of_writes_sub aggregateOps3 _ written_aggregateOps3_sub ((by decide : ∀ r ∈ carried, r ∉ written_aggregateOps3) r hr)
theorem upTo11 (r : Ref sig .tc) (hr : r ∈ carried) : R11 W (Proc.devRef .tc r) = R3 W (Proc.devRef .tc r) :=
  (step11 W r hr).trans (upTo10 W r hr)
theorem step12 (r : Ref sig .tc) (hr : r ∈ carried) : R12 W (Proc.devRef .tc r) = R11 W (Proc.devRef .tc r) :=
  after_of_writes_sub biasOps3 _ written_biasOps3_sub ((by decide : ∀ r ∈ carried, r ∉ written_biasOps3) r hr)
theorem upTo12 (r : Ref sig .tc) (hr : r ∈ carried) : R12 W (Proc.devRef .tc r) = R3 W (Proc.devRef .tc r) :=
  (step12 W r hr).trans (upTo11 W r hr)
theorem step13 (r : Ref sig .tc) (hr : r ∈ carried) : R13 W (Proc.devRef .tc r) = R12 W (Proc.devRef .tc r) :=
  after_of_writes_sub denseOps4 _ written_denseOps4_sub ((by decide : ∀ r ∈ carried, r ∉ written_denseOps4) r hr)
theorem upTo13 (r : Ref sig .tc) (hr : r ∈ carried) : R13 W (Proc.devRef .tc r) = R3 W (Proc.devRef .tc r) :=
  (step13 W r hr).trans (upTo12 W r hr)
theorem step14 (r : Ref sig .tc) (hr : r ∈ carried) : R14 W (Proc.devRef .tc r) = R13 W (Proc.devRef .tc r) :=
  after_of_writes_sub aggregateOps4 _ written_aggregateOps4_sub ((by decide : ∀ r ∈ carried, r ∉ written_aggregateOps4) r hr)
theorem upTo14 (r : Ref sig .tc) (hr : r ∈ carried) : R14 W (Proc.devRef .tc r) = R3 W (Proc.devRef .tc r) :=
  (step14 W r hr).trans (upTo13 W r hr)
theorem step15 (r : Ref sig .tc) (hr : r ∈ carried) : R15 W (Proc.devRef .tc r) = R14 W (Proc.devRef .tc r) :=
  after_of_writes_sub biasOps4 _ written_biasOps4_sub ((by decide : ∀ r ∈ carried, r ∉ written_biasOps4) r hr)
theorem upTo15 (r : Ref sig .tc) (hr : r ∈ carried) : R15 W (Proc.devRef .tc r) = R3 W (Proc.devRef .tc r) :=
  (step15 W r hr).trans (upTo14 W r hr)
theorem step16 (r : Ref sig .tc) (hr : r ∈ carried) : R16 W (Proc.devRef .tc r) = R15 W (Proc.devRef .tc r) :=
  after_of_writes_sub logitOps _ written_logitOps_sub ((by decide : ∀ r ∈ carried, r ∉ written_logitOps) r hr)
theorem upTo16 (r : Ref sig .tc) (hr : r ∈ carried) : R16 W (Proc.devRef .tc r) = R3 W (Proc.devRef .tc r) :=
  (step16 W r hr).trans (upTo15 W r hr)
theorem step17 (r : Ref sig .tc) (hr : r ∈ carried) : R17 W (Proc.devRef .tc r) = R16 W (Proc.devRef .tc r) :=
  after_of_writes_sub rowMaxOps _ written_rowMaxOps_sub ((by decide : ∀ r ∈ carried, r ∉ written_rowMaxOps) r hr)
theorem upTo17 (r : Ref sig .tc) (hr : r ∈ carried) : R17 W (Proc.devRef .tc r) = R3 W (Proc.devRef .tc r) :=
  (step17 W r hr).trans (upTo16 W r hr)
theorem step18 (r : Ref sig .tc) (hr : r ∈ carried) : R18 W (Proc.devRef .tc r) = R17 W (Proc.devRef .tc r) :=
  after_of_writes_sub shiftOps _ written_shiftOps_sub ((by decide : ∀ r ∈ carried, r ∉ written_shiftOps) r hr)
theorem upTo18 (r : Ref sig .tc) (hr : r ∈ carried) : R18 W (Proc.devRef .tc r) = R3 W (Proc.devRef .tc r) :=
  (step18 W r hr).trans (upTo17 W r hr)
theorem step19 (r : Ref sig .tc) (hr : r ∈ carried) : R19 W (Proc.devRef .tc r) = R18 W (Proc.devRef .tc r) :=
  after_of_writes_sub sumExpOps _ written_sumExpOps_sub ((by decide : ∀ r ∈ carried, r ∉ written_sumExpOps) r hr)
theorem upTo19 (r : Ref sig .tc) (hr : r ∈ carried) : R19 W (Proc.devRef .tc r) = R3 W (Proc.devRef .tc r) :=
  (step19 W r hr).trans (upTo18 W r hr)
theorem step20 (r : Ref sig .tc) (hr : r ∈ carried) : R20 W (Proc.devRef .tc r) = R19 W (Proc.devRef .tc r) :=
  after_of_writes_sub minusLogOps _ written_minusLogOps_sub ((by decide : ∀ r ∈ carried, r ∉ written_minusLogOps) r hr)
theorem upTo20 (r : Ref sig .tc) (hr : r ∈ carried) : R20 W (Proc.devRef .tc r) = R3 W (Proc.devRef .tc r) :=
  (step20 W r hr).trans (upTo19 W r hr)

/-! ## The log-softmax in four steps -/

/-- A row array minus a per-row value. -/
def shiftBy (l : (⟨S100000x16, .f32⟩ : BufTy).Contents (Elt Ideal)) (mx : (⟨S100000, .f32⟩ : BufTy).Contents (Elt Ideal)) : (⟨S100000x16, .f32⟩ : BufTy).Contents (Elt Ideal) :=
  subf l (alongClasses (asColumn mx))

/-- The sum over each row of the exponentials. -/
def sumExp (z : (⟨S100000x16, .f32⟩ : BufTy).Contents (Elt Ideal)) : (⟨S100000, .f32⟩ : BufTy).Contents (Elt Ideal) :=
  Host.reduceAdd (F := Ideal) (Host.exp (F := Ideal) z) (constant S_ .f32 0x00000000#32) reducesTo_S100000x16_S100000_d1 h_S_

/-- A row array minus the logarithm of a per-row value. -/
def minusLog (z : (⟨S100000x16, .f32⟩ : BufTy).Contents (Elt Ideal)) (s : (⟨S100000, .f32⟩ : BufTy).Contents (Elt Ideal)) : (⟨S100000x16, .f32⟩ : BufTy).Contents (Elt Ideal) :=
  subf z (alongClasses (Host.log (asColumn s)))

/-- The log-softmax is these steps in order. -/
theorem logSoftmax_eq (l : (⟨S100000x16, .f32⟩ : BufTy).Contents (Elt Ideal)) :
    logSoftmax (F := Ideal) l = minusLog (shiftBy l (rowMax l)) (sumExp (shiftBy l (rowMax l))) := rfl

/-! ## Typed references of an outlined function

An outlined function's operations read and write their buffers through the buffer's declared type; for a literal
buffer that transport is the identity. -/

theorem toBuf_main_call3_cst (v : (⟨S_, .f32⟩ : BufTy).Contents (Elt Ideal)) : (TRef.of (sig := sig) (T := ⟨S_, .f32⟩) main_call3_cst).toBuf (Val := Elt Ideal) v = v := rfl
theorem ofBuf_main_call3_cst (v : (⟨S_, .f32⟩ : BufTy).Contents (Elt Ideal)) : (TRef.of (sig := sig) (T := ⟨S_, .f32⟩) main_call3_cst).ofBuf (Val := Elt Ideal) v = v := rfl
theorem toBuf_main_call3_v0 (v : (⟨S100000, .f32⟩ : BufTy).Contents (Elt Ideal)) : (TRef.of (sig := sig) (T := ⟨S100000, .f32⟩) main_call3_v0).toBuf (Val := Elt Ideal) v = v := rfl
theorem ofBuf_main_call3_v0 (v : (⟨S100000, .f32⟩ : BufTy).Contents (Elt Ideal)) : (TRef.of (sig := sig) (T := ⟨S100000, .f32⟩) main_call3_v0).ofBuf (Val := Elt Ideal) v = v := rfl
theorem toBuf_main_v103 (v : (⟨S100000x16, .f32⟩ : BufTy).Contents (Elt Ideal)) : (TRef.of (sig := sig) (T := ⟨S100000x16, .f32⟩) main_v103).toBuf (Val := Elt Ideal) v = v := rfl
theorem ofBuf_main_v103 (v : (⟨S100000x16, .f32⟩ : BufTy).Contents (Elt Ideal)) : (TRef.of (sig := sig) (T := ⟨S100000x16, .f32⟩) main_v103).ofBuf (Val := Elt Ideal) v = v := rfl

/-! ## What each piece computes, from the valuation it finds -/

section Pieces
variable (U : Valuation τ sig (Elt Ideal))

theorem src_of : after edgeOps U (Proc.devRef .tc main_v3) = edgeSrc (F := Ideal) (U (Proc.devRef .tc main_arg1)) := by
  after_results_simp; exact rfl

theorem dst_of : after edgeOps U (Proc.devRef .tc main_v6) = edgeDst (F := Ideal) (U (Proc.devRef .tc main_arg1)) := by
  after_results_simp; exact rfl

theorem positive_of : (after edgeOps U (Proc.devRef .tc main_v12) : (⟨S100000, .i1⟩ : BufTy).Contents (Elt Ideal))
    = cmpf (F := Ideal) .ogt (degree (F := Ideal) (edgeDst (U (Proc.devRef .tc main_arg1))))
        (broadcastInDim S100000 ![] bcast_S_S100000 (constant S_ .f32 0x00000000#32)) := by
  after_results_simp; exact rfl

theorem rsqrt_of : (after edgeOps U (Proc.devRef .tc main_v13) : (⟨S100000, .f32⟩ : BufTy).Contents (Elt Ideal))
    = Host.rsqrt (F := Ideal) (φ := .f32) (degree (F := Ideal) (edgeDst (U (Proc.devRef .tc main_arg1)))) := by
  after_results_simp; exact rfl

theorem zero_of : (after edgeOps U (Proc.devRef .tc main_cst_2) : (⟨S_, .f32⟩ : BufTy).Contents (Elt Ideal))
    = constant (F := Ideal) S_ .f32 0x00000000#32 := by
  after_results_simp

theorem select_of : after selectOps U (Proc.devRef .tc main_v14)
    = select (U (Proc.devRef .tc main_v12)) (U (Proc.devRef .tc main_v13)) (broadcastInDim S100000 ![] bcast_S_S100000 (id (U (Proc.devRef .tc main_cst_2)))) := by
  after_results_simp; exact rfl

theorem invSqrtDegree_of : after selectOps (after edgeOps U) (Proc.devRef .tc main_v14)
    = invSqrtDegree (F := Ideal) (edgeDst (U (Proc.devRef .tc main_arg1))) := by
  refine (select_of (after edgeOps U)).trans ?_
  rw [positive_of, rsqrt_of, zero_of]
  exact rfl

theorem weight_of : after weightOps U (Proc.devRef .tc main_v29)
    = weightOf (F := Ideal) (U (Proc.devRef .tc main_v14)) (U (Proc.devRef .tc main_v3)) (U (Proc.devRef .tc main_v6)) := by
  after_results_simp; exact rfl

theorem denseOps1_of : after denseOps1 U (Proc.devRef .tc main_v30) = dense0 (F := Ideal) (U (Proc.devRef .tc main_arg0)) (U (Proc.devRef .tc main_arg2)) := by
  after_results_simp; exact rfl

theorem aggregateOps1_of : after aggregateOps1 U (Proc.devRef .tc main_v43) = aggregate (F := Ideal) (U (Proc.devRef .tc main_v30)) (U (Proc.devRef .tc main_v3)) (U (Proc.devRef .tc main_v6)) (U (Proc.devRef .tc main_v29)) := by
  after_results_simp; exact rfl

theorem biasOps1_of : after biasOps1 U (Proc.devRef .tc main_v47) = addBiasRelu (F := Ideal) (U (Proc.devRef .tc main_v43)) (U (Proc.devRef .tc main_arg3)) := by
  after_results_simp; exact rfl

theorem denseOps2_of : after denseOps2 U (Proc.devRef .tc main_v48) = dense (F := Ideal) (U (Proc.devRef .tc main_v47)) (U (Proc.devRef .tc main_arg4)) := by
  after_results_simp; exact rfl

theorem aggregateOps2_of : after aggregateOps2 U (Proc.devRef .tc main_v61) = aggregate (F := Ideal) (U (Proc.devRef .tc main_v48)) (U (Proc.devRef .tc main_v3)) (U (Proc.devRef .tc main_v6)) (U (Proc.devRef .tc main_v29)) := by
  after_results_simp; exact rfl

theorem biasOps2_of : after biasOps2 U (Proc.devRef .tc main_v64) = addBias (F := Ideal) (U (Proc.devRef .tc main_v61)) (U (Proc.devRef .tc main_arg5)) := by
  after_results_simp; exact rfl

theorem denseOps3_of : after denseOps3 U (Proc.devRef .tc main_v65) = dense (F := Ideal) (U (Proc.devRef .tc main_v64)) (U (Proc.devRef .tc main_arg6)) := by
  after_results_simp; exact rfl

theorem aggregateOps3_of : after aggregateOps3 U (Proc.devRef .tc main_v78) = aggregate (F := Ideal) (U (Proc.devRef .tc main_v65)) (U (Proc.devRef .tc main_v3)) (U (Proc.devRef .tc main_v6)) (U (Proc.devRef .tc main_v29)) := by
  after_results_simp; exact rfl

theorem biasOps3_of : after biasOps3 U (Proc.devRef .tc main_v82) = addBiasRelu (F := Ideal) (U (Proc.devRef .tc main_v78)) (U (Proc.devRef .tc main_arg7)) := by
  after_results_simp; exact rfl

theorem denseOps4_of : after denseOps4 U (Proc.devRef .tc main_v83) = dense (F := Ideal) (U (Proc.devRef .tc main_v82)) (U (Proc.devRef .tc main_arg8)) := by
  after_results_simp; exact rfl

theorem aggregateOps4_of : after aggregateOps4 U (Proc.devRef .tc main_v96) = aggregate (F := Ideal) (U (Proc.devRef .tc main_v83)) (U (Proc.devRef .tc main_v3)) (U (Proc.devRef .tc main_v6)) (U (Proc.devRef .tc main_v29)) := by
  after_results_simp; exact rfl

theorem biasOps4_of : after biasOps4 U (Proc.devRef .tc main_v99) = addBias (F := Ideal) (U (Proc.devRef .tc main_v96)) (U (Proc.devRef .tc main_arg9)) := by
  after_results_simp; exact rfl

theorem logitOps_of : after logitOps U (Proc.devRef .tc main_v103) = logits (F := Ideal) (U (Proc.devRef .tc main_v99)) (U (Proc.devRef .tc main_arg10)) (U (Proc.devRef .tc main_arg11)) := by
  after_results_simp; exact rfl

theorem rowMaxOps_of : after rowMaxOps U (Proc.devRef .tc main_call3_v2) = rowMax (F := Ideal) (U (Proc.devRef .tc main_v103)) := by
  after_results_simp
  repeat (first | rw [toBuf_main_call3_cst] | rw [ofBuf_main_call3_cst] | rw [toBuf_main_call3_v0] | rw [ofBuf_main_call3_v0] | rw [toBuf_main_v103] | rw [ofBuf_main_v103])
  exact rfl

theorem shiftOps_of : after shiftOps U (Proc.devRef .tc main_call3_v5) = shiftBy (U (Proc.devRef .tc main_v103)) (U (Proc.devRef .tc main_call3_v2)) := by
  after_results_simp; exact rfl

theorem sumExpOps_of : after sumExpOps U (Proc.devRef .tc main_call3_v7) = sumExp (U (Proc.devRef .tc main_call3_v5)) := by
  after_results_simp
  repeat (first | rw [toBuf_main_call3_cst] | rw [ofBuf_main_call3_cst] | rw [toBuf_main_call3_v0] | rw [ofBuf_main_call3_v0] | rw [toBuf_main_v103] | rw [ofBuf_main_v103])
  exact rfl

theorem minusLogOps_of : after minusLogOps U (Proc.devRef .tc main_v104) = minusLog (U (Proc.devRef .tc main_call3_v5)) (U (Proc.devRef .tc main_call3_v7)) := by
  after_results_simp; exact rfl

end Pieces

/-! ## The edge quantities after the first three pieces -/

theorem src_at_entry : R3 W (Proc.devRef .tc main_v3) = edgeSrc (F := Ideal) (W (Proc.devRef .tc main_arg1)) :=
  ((after_of_writes_sub weightOps _ written_weightOps_sub (by decide)).trans
    (after_of_writes_sub selectOps _ written_selectOps_sub (by decide))).trans (src_of W)

theorem dst_at_entry : R3 W (Proc.devRef .tc main_v6) = edgeDst (F := Ideal) (W (Proc.devRef .tc main_arg1)) :=
  ((after_of_writes_sub weightOps _ written_weightOps_sub (by decide)).trans
    (after_of_writes_sub selectOps _ written_selectOps_sub (by decide))).trans (dst_of W)

theorem weight_at_entry : R3 W (Proc.devRef .tc main_v29) = edgeWeight (F := Ideal) (edgeSrc (W (Proc.devRef .tc main_arg1))) (edgeDst (W (Proc.devRef .tc main_arg1))) := by
  have hdis : R2 W (Proc.devRef .tc main_v14) = invSqrtDegree (F := Ideal) (edgeDst (W (Proc.devRef .tc main_arg1))) := invSqrtDegree_of W
  have hsrc : R2 W (Proc.devRef .tc main_v3) = edgeSrc (F := Ideal) (W (Proc.devRef .tc main_arg1)) :=
    (after_of_writes_sub selectOps _ written_selectOps_sub (by decide)).trans (src_of W)
  have hdst : R2 W (Proc.devRef .tc main_v6) = edgeDst (F := Ideal) (W (Proc.devRef .tc main_arg1)) :=
    (after_of_writes_sub selectOps _ written_selectOps_sub (by decide)).trans (dst_of W)
  refine (weight_of (R2 W)).trans ?_
  rw [hdis, hsrc, hdst]
  exact rfl

/-- An aggregation at the three edge quantities is the propagation over the graph of the edge array. -/
theorem propagate_at (h : (⟨S100000x128, .f32⟩ : BufTy).Contents (Elt Ideal)) (s d : (⟨S1700000, .i32⟩ : BufTy).Contents (Elt Ideal)) (wt : (⟨S1700000, .f32⟩ : BufTy).Contents (Elt Ideal))
    (hs : s = edgeSrc (F := Ideal) (W (Proc.devRef .tc main_arg1))) (hd : d = edgeDst (F := Ideal) (W (Proc.devRef .tc main_arg1)))
    (hw : wt = edgeWeight (F := Ideal) (edgeSrc (W (Proc.devRef .tc main_arg1))) (edgeDst (W (Proc.devRef .tc main_arg1)))) :
    aggregate (F := Ideal) h s d wt = propagate h (W (Proc.devRef .tc main_arg1)) := by
  subst hs hd hw; rfl

/-! ## The feature array after each piece -/

theorem at4 : R4 W (Proc.devRef .tc main_v30) = dense0 (F := Ideal) (W (Proc.devRef .tc main_arg0)) (W (Proc.devRef .tc main_arg2)) :=
  (denseOps1_of (R3 W)).trans (congrArg₂ (dense0 (F := Ideal)) (arg_at_entry W main_arg0 (by decide)) (arg_at_entry W main_arg2 (by decide)))

theorem at5 : R5 W (Proc.devRef .tc main_v43) = propagate (F := Ideal) (dense0 (W (Proc.devRef .tc main_arg0)) (W (Proc.devRef .tc main_arg2))) (W (Proc.devRef .tc main_arg1)) :=
  (aggregateOps1_of (R4 W)).trans ((congrArg (fun h => aggregate (F := Ideal) h _ _ _) (at4 W)).trans
    (propagate_at W _ _ _ _
      ((upTo4 W main_v3 (by decide)).trans (src_at_entry W))
      ((upTo4 W main_v6 (by decide)).trans (dst_at_entry W))
      ((upTo4 W main_v29 (by decide)).trans (weight_at_entry W))))

theorem at6 : R6 W (Proc.devRef .tc main_v47) = (layerIn (F := Ideal) (W (Proc.devRef .tc main_arg0)) (W (Proc.devRef .tc main_arg1)) (W (Proc.devRef .tc main_arg2)) (W (Proc.devRef .tc main_arg3))) :=
  (biasOps1_of (R5 W)).trans (congrArg₂ (addBiasRelu (F := Ideal)) (at5 W) ((upTo5 W main_arg3 (by decide)).trans (arg_at_entry W main_arg3 (by decide))))

theorem at7 : R7 W (Proc.devRef .tc main_v48) = dense (F := Ideal) (layerIn (F := Ideal) (W (Proc.devRef .tc main_arg0)) (W (Proc.devRef .tc main_arg1)) (W (Proc.devRef .tc main_arg2)) (W (Proc.devRef .tc main_arg3))) (W (Proc.devRef .tc main_arg4)) :=
  (denseOps2_of (R6 W)).trans (congrArg₂ (dense (F := Ideal)) (at6 W) ((upTo6 W main_arg4 (by decide)).trans (arg_at_entry W main_arg4 (by decide))))

theorem at8 : R8 W (Proc.devRef .tc main_v61) = propagate (F := Ideal) (dense (layerIn (F := Ideal) (W (Proc.devRef .tc main_arg0)) (W (Proc.devRef .tc main_arg1)) (W (Proc.devRef .tc main_arg2)) (W (Proc.devRef .tc main_arg3))) (W (Proc.devRef .tc main_arg4))) (W (Proc.devRef .tc main_arg1)) :=
  (aggregateOps2_of (R7 W)).trans ((congrArg (fun h => aggregate (F := Ideal) h _ _ _) (at7 W)).trans
    (propagate_at W _ _ _ _
      ((upTo7 W main_v3 (by decide)).trans (src_at_entry W))
      ((upTo7 W main_v6 (by decide)).trans (dst_at_entry W))
      ((upTo7 W main_v29 (by decide)).trans (weight_at_entry W))))

theorem at9 : R9 W (Proc.devRef .tc main_v64) = (layerLinear (F := Ideal) (layerIn (F := Ideal) (W (Proc.devRef .tc main_arg0)) (W (Proc.devRef .tc main_arg1)) (W (Proc.devRef .tc main_arg2)) (W (Proc.devRef .tc main_arg3))) (W (Proc.devRef .tc main_arg1)) (W (Proc.devRef .tc main_arg4)) (W (Proc.devRef .tc main_arg5))) :=
  (biasOps2_of (R8 W)).trans (congrArg₂ (addBias (F := Ideal)) (at8 W) ((upTo8 W main_arg5 (by decide)).trans (arg_at_entry W main_arg5 (by decide))))

theorem at10 : R10 W (Proc.devRef .tc main_v65) = dense (F := Ideal) (layerLinear (F := Ideal) (layerIn (F := Ideal) (W (Proc.devRef .tc main_arg0)) (W (Proc.devRef .tc main_arg1)) (W (Proc.devRef .tc main_arg2)) (W (Proc.devRef .tc main_arg3))) (W (Proc.devRef .tc main_arg1)) (W (Proc.devRef .tc main_arg4)) (W (Proc.devRef .tc main_arg5))) (W (Proc.devRef .tc main_arg6)) :=
  (denseOps3_of (R9 W)).trans (congrArg₂ (dense (F := Ideal)) (at9 W) ((upTo9 W main_arg6 (by decide)).trans (arg_at_entry W main_arg6 (by decide))))

theorem at11 : R11 W (Proc.devRef .tc main_v78) = propagate (F := Ideal) (dense (layerLinear (F := Ideal) (layerIn (F := Ideal) (W (Proc.devRef .tc main_arg0)) (W (Proc.devRef .tc main_arg1)) (W (Proc.devRef .tc main_arg2)) (W (Proc.devRef .tc main_arg3))) (W (Proc.devRef .tc main_arg1)) (W (Proc.devRef .tc main_arg4)) (W (Proc.devRef .tc main_arg5))) (W (Proc.devRef .tc main_arg6))) (W (Proc.devRef .tc main_arg1)) :=
  (aggregateOps3_of (R10 W)).trans ((congrArg (fun h => aggregate (F := Ideal) h _ _ _) (at10 W)).trans
    (propagate_at W _ _ _ _
      ((upTo10 W main_v3 (by decide)).trans (src_at_entry W))
      ((upTo10 W main_v6 (by decide)).trans (dst_at_entry W))
      ((upTo10 W main_v29 (by decide)).trans (weight_at_entry W))))

theorem at12 : R12 W (Proc.devRef .tc main_v82) = (layerRelu (F := Ideal) (layerLinear (F := Ideal) (layerIn (F := Ideal) (W (Proc.devRef .tc main_arg0)) (W (Proc.devRef .tc main_arg1)) (W (Proc.devRef .tc main_arg2)) (W (Proc.devRef .tc main_arg3))) (W (Proc.devRef .tc main_arg1)) (W (Proc.devRef .tc main_arg4)) (W (Proc.devRef .tc main_arg5))) (W (Proc.devRef .tc main_arg1)) (W (Proc.devRef .tc main_arg6)) (W (Proc.devRef .tc main_arg7))) :=
  (biasOps3_of (R11 W)).trans (congrArg₂ (addBiasRelu (F := Ideal)) (at11 W) ((upTo11 W main_arg7 (by decide)).trans (arg_at_entry W main_arg7 (by decide))))

theorem at13 : R13 W (Proc.devRef .tc main_v83) = dense (F := Ideal) (layerRelu (F := Ideal) (layerLinear (F := Ideal) (layerIn (F := Ideal) (W (Proc.devRef .tc main_arg0)) (W (Proc.devRef .tc main_arg1)) (W (Proc.devRef .tc main_arg2)) (W (Proc.devRef .tc main_arg3))) (W (Proc.devRef .tc main_arg1)) (W (Proc.devRef .tc main_arg4)) (W (Proc.devRef .tc main_arg5))) (W (Proc.devRef .tc main_arg1)) (W (Proc.devRef .tc main_arg6)) (W (Proc.devRef .tc main_arg7))) (W (Proc.devRef .tc main_arg8)) :=
  (denseOps4_of (R12 W)).trans (congrArg₂ (dense (F := Ideal)) (at12 W) ((upTo12 W main_arg8 (by decide)).trans (arg_at_entry W main_arg8 (by decide))))

theorem at14 : R14 W (Proc.devRef .tc main_v96) = propagate (F := Ideal) (dense (layerRelu (F := Ideal) (layerLinear (F := Ideal) (layerIn (F := Ideal) (W (Proc.devRef .tc main_arg0)) (W (Proc.devRef .tc main_arg1)) (W (Proc.devRef .tc main_arg2)) (W (Proc.devRef .tc main_arg3))) (W (Proc.devRef .tc main_arg1)) (W (Proc.devRef .tc main_arg4)) (W (Proc.devRef .tc main_arg5))) (W (Proc.devRef .tc main_arg1)) (W (Proc.devRef .tc main_arg6)) (W (Proc.devRef .tc main_arg7))) (W (Proc.devRef .tc main_arg8))) (W (Proc.devRef .tc main_arg1)) :=
  (aggregateOps4_of (R13 W)).trans ((congrArg (fun h => aggregate (F := Ideal) h _ _ _) (at13 W)).trans
    (propagate_at W _ _ _ _
      ((upTo13 W main_v3 (by decide)).trans (src_at_entry W))
      ((upTo13 W main_v6 (by decide)).trans (dst_at_entry W))
      ((upTo13 W main_v29 (by decide)).trans (weight_at_entry W))))

theorem at15 : R15 W (Proc.devRef .tc main_v99) = (layerLinear (F := Ideal) (layerRelu (F := Ideal) (layerLinear (F := Ideal) (layerIn (F := Ideal) (W (Proc.devRef .tc main_arg0)) (W (Proc.devRef .tc main_arg1)) (W (Proc.devRef .tc main_arg2)) (W (Proc.devRef .tc main_arg3))) (W (Proc.devRef .tc main_arg1)) (W (Proc.devRef .tc main_arg4)) (W (Proc.devRef .tc main_arg5))) (W (Proc.devRef .tc main_arg1)) (W (Proc.devRef .tc main_arg6)) (W (Proc.devRef .tc main_arg7))) (W (Proc.devRef .tc main_arg1)) (W (Proc.devRef .tc main_arg8)) (W (Proc.devRef .tc main_arg9))) :=
  (biasOps4_of (R14 W)).trans (congrArg₂ (addBias (F := Ideal)) (at14 W) ((upTo14 W main_arg9 (by decide)).trans (arg_at_entry W main_arg9 (by decide))))

theorem at16 : R16 W (Proc.devRef .tc main_v103) = logits (F := Ideal) (layerLinear (F := Ideal) (layerRelu (F := Ideal) (layerLinear (F := Ideal) (layerIn (F := Ideal) (W (Proc.devRef .tc main_arg0)) (W (Proc.devRef .tc main_arg1)) (W (Proc.devRef .tc main_arg2)) (W (Proc.devRef .tc main_arg3))) (W (Proc.devRef .tc main_arg1)) (W (Proc.devRef .tc main_arg4)) (W (Proc.devRef .tc main_arg5))) (W (Proc.devRef .tc main_arg1)) (W (Proc.devRef .tc main_arg6)) (W (Proc.devRef .tc main_arg7))) (W (Proc.devRef .tc main_arg1)) (W (Proc.devRef .tc main_arg8)) (W (Proc.devRef .tc main_arg9))) (W (Proc.devRef .tc main_arg10)) (W (Proc.devRef .tc main_arg11)) :=
  (logitOps_of (R15 W)).trans (congr (congrArg₂ (logits (F := Ideal)) (at15 W) ((upTo15 W main_arg10 (by decide)).trans (arg_at_entry W main_arg10 (by decide)))) ((upTo15 W main_arg11 (by decide)).trans (arg_at_entry W main_arg11 (by decide))))

theorem at17 : R17 W (Proc.devRef .tc main_call3_v2) = rowMax (F := Ideal) (logits (F := Ideal) (layerLinear (F := Ideal) (layerRelu (F := Ideal) (layerLinear (F := Ideal) (layerIn (F := Ideal) (W (Proc.devRef .tc main_arg0)) (W (Proc.devRef .tc main_arg1)) (W (Proc.devRef .tc main_arg2)) (W (Proc.devRef .tc main_arg3))) (W (Proc.devRef .tc main_arg1)) (W (Proc.devRef .tc main_arg4)) (W (Proc.devRef .tc main_arg5))) (W (Proc.devRef .tc main_arg1)) (W (Proc.devRef .tc main_arg6)) (W (Proc.devRef .tc main_arg7))) (W (Proc.devRef .tc main_arg1)) (W (Proc.devRef .tc main_arg8)) (W (Proc.devRef .tc main_arg9))) (W (Proc.devRef .tc main_arg10)) (W (Proc.devRef .tc main_arg11))) :=
  (rowMaxOps_of (R16 W)).trans (congrArg (rowMax (F := Ideal)) (at16 W))

/-- The logits are still there after the row maximum is taken. -/
theorem logits_kept : R17 W (Proc.devRef .tc main_v103) = (logits (F := Ideal) (layerLinear (F := Ideal) (layerRelu (F := Ideal) (layerLinear (F := Ideal) (layerIn (F := Ideal) (W (Proc.devRef .tc main_arg0)) (W (Proc.devRef .tc main_arg1)) (W (Proc.devRef .tc main_arg2)) (W (Proc.devRef .tc main_arg3))) (W (Proc.devRef .tc main_arg1)) (W (Proc.devRef .tc main_arg4)) (W (Proc.devRef .tc main_arg5))) (W (Proc.devRef .tc main_arg1)) (W (Proc.devRef .tc main_arg6)) (W (Proc.devRef .tc main_arg7))) (W (Proc.devRef .tc main_arg1)) (W (Proc.devRef .tc main_arg8)) (W (Proc.devRef .tc main_arg9))) (W (Proc.devRef .tc main_arg10)) (W (Proc.devRef .tc main_arg11))) :=
  (after_of_writes_sub rowMaxOps _ written_rowMaxOps_sub (by decide)).trans (at16 W)

theorem at18 : R18 W (Proc.devRef .tc main_call3_v5) = shiftBy (logits (F := Ideal) (layerLinear (F := Ideal) (layerRelu (F := Ideal) (layerLinear (F := Ideal) (layerIn (F := Ideal) (W (Proc.devRef .tc main_arg0)) (W (Proc.devRef .tc main_arg1)) (W (Proc.devRef .tc main_arg2)) (W (Proc.devRef .tc main_arg3))) (W (Proc.devRef .tc main_arg1)) (W (Proc.devRef .tc main_arg4)) (W (Proc.devRef .tc main_arg5))) (W (Proc.devRef .tc main_arg1)) (W (Proc.devRef .tc main_arg6)) (W (Proc.devRef .tc main_arg7))) (W (Proc.devRef .tc main_arg1)) (W (Proc.devRef .tc main_arg8)) (W (Proc.devRef .tc main_arg9))) (W (Proc.devRef .tc main_arg10)) (W (Proc.devRef .tc main_arg11))) (rowMax (logits (F := Ideal) (layerLinear (F := Ideal) (layerRelu (F := Ideal) (layerLinear (F := Ideal) (layerIn (F := Ideal) (W (Proc.devRef .tc main_arg0)) (W (Proc.devRef .tc main_arg1)) (W (Proc.devRef .tc main_arg2)) (W (Proc.devRef .tc main_arg3))) (W (Proc.devRef .tc main_arg1)) (W (Proc.devRef .tc main_arg4)) (W (Proc.devRef .tc main_arg5))) (W (Proc.devRef .tc main_arg1)) (W (Proc.devRef .tc main_arg6)) (W (Proc.devRef .tc main_arg7))) (W (Proc.devRef .tc main_arg1)) (W (Proc.devRef .tc main_arg8)) (W (Proc.devRef .tc main_arg9))) (W (Proc.devRef .tc main_arg10)) (W (Proc.devRef .tc main_arg11)))) :=
  (shiftOps_of (R17 W)).trans (congrArg₂ shiftBy (logits_kept W) (at17 W))

theorem at19 : R19 W (Proc.devRef .tc main_call3_v7) = sumExp (shiftBy (logits (F := Ideal) (layerLinear (F := Ideal) (layerRelu (F := Ideal) (layerLinear (F := Ideal) (layerIn (F := Ideal) (W (Proc.devRef .tc main_arg0)) (W (Proc.devRef .tc main_arg1)) (W (Proc.devRef .tc main_arg2)) (W (Proc.devRef .tc main_arg3))) (W (Proc.devRef .tc main_arg1)) (W (Proc.devRef .tc main_arg4)) (W (Proc.devRef .tc main_arg5))) (W (Proc.devRef .tc main_arg1)) (W (Proc.devRef .tc main_arg6)) (W (Proc.devRef .tc main_arg7))) (W (Proc.devRef .tc main_arg1)) (W (Proc.devRef .tc main_arg8)) (W (Proc.devRef .tc main_arg9))) (W (Proc.devRef .tc main_arg10)) (W (Proc.devRef .tc main_arg11))) (rowMax (logits (F := Ideal) (layerLinear (F := Ideal) (layerRelu (F := Ideal) (layerLinear (F := Ideal) (layerIn (F := Ideal) (W (Proc.devRef .tc main_arg0)) (W (Proc.devRef .tc main_arg1)) (W (Proc.devRef .tc main_arg2)) (W (Proc.devRef .tc main_arg3))) (W (Proc.devRef .tc main_arg1)) (W (Proc.devRef .tc main_arg4)) (W (Proc.devRef .tc main_arg5))) (W (Proc.devRef .tc main_arg1)) (W (Proc.devRef .tc main_arg6)) (W (Proc.devRef .tc main_arg7))) (W (Proc.devRef .tc main_arg1)) (W (Proc.devRef .tc main_arg8)) (W (Proc.devRef .tc main_arg9))) (W (Proc.devRef .tc main_arg10)) (W (Proc.devRef .tc main_arg11))))) :=
  (sumExpOps_of (R18 W)).trans (congrArg sumExp (at18 W))

/-- The shifted rows are still there after the sum of exponentials is taken. -/
theorem shifted_kept : R19 W (Proc.devRef .tc main_call3_v5) = shiftBy (logits (F := Ideal) (layerLinear (F := Ideal) (layerRelu (F := Ideal) (layerLinear (F := Ideal) (layerIn (F := Ideal) (W (Proc.devRef .tc main_arg0)) (W (Proc.devRef .tc main_arg1)) (W (Proc.devRef .tc main_arg2)) (W (Proc.devRef .tc main_arg3))) (W (Proc.devRef .tc main_arg1)) (W (Proc.devRef .tc main_arg4)) (W (Proc.devRef .tc main_arg5))) (W (Proc.devRef .tc main_arg1)) (W (Proc.devRef .tc main_arg6)) (W (Proc.devRef .tc main_arg7))) (W (Proc.devRef .tc main_arg1)) (W (Proc.devRef .tc main_arg8)) (W (Proc.devRef .tc main_arg9))) (W (Proc.devRef .tc main_arg10)) (W (Proc.devRef .tc main_arg11))) (rowMax (logits (F := Ideal) (layerLinear (F := Ideal) (layerRelu (F := Ideal) (layerLinear (F := Ideal) (layerIn (F := Ideal) (W (Proc.devRef .tc main_arg0)) (W (Proc.devRef .tc main_arg1)) (W (Proc.devRef .tc main_arg2)) (W (Proc.devRef .tc main_arg3))) (W (Proc.devRef .tc main_arg1)) (W (Proc.devRef .tc main_arg4)) (W (Proc.devRef .tc main_arg5))) (W (Proc.devRef .tc main_arg1)) (W (Proc.devRef .tc main_arg6)) (W (Proc.devRef .tc main_arg7))) (W (Proc.devRef .tc main_arg1)) (W (Proc.devRef .tc main_arg8)) (W (Proc.devRef .tc main_arg9))) (W (Proc.devRef .tc main_arg10)) (W (Proc.devRef .tc main_arg11)))) :=
  (after_of_writes_sub sumExpOps _ written_sumExpOps_sub (by decide)).trans (at18 W)

theorem at20 : R20 W (Proc.devRef .tc main_v104) = network (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) :=
  (minusLogOps_of (R19 W)).trans ((congrArg₂ minusLog (shifted_kept W) (at19 W)).trans (logSoftmax_eq (logits (F := Ideal) (layerLinear (F := Ideal) (layerRelu (F := Ideal) (layerLinear (F := Ideal) (layerIn (F := Ideal) (W (Proc.devRef .tc main_arg0)) (W (Proc.devRef .tc main_arg1)) (W (Proc.devRef .tc main_arg2)) (W (Proc.devRef .tc main_arg3))) (W (Proc.devRef .tc main_arg1)) (W (Proc.devRef .tc main_arg4)) (W (Proc.devRef .tc main_arg5))) (W (Proc.devRef .tc main_arg1)) (W (Proc.devRef .tc main_arg6)) (W (Proc.devRef .tc main_arg7))) (W (Proc.devRef .tc main_arg1)) (W (Proc.devRef .tc main_arg8)) (W (Proc.devRef .tc main_arg9))) (W (Proc.devRef .tc main_arg10)) (W (Proc.devRef .tc main_arg11)))).symm)

/-- The fold of the reference's whole line holds, at the result buffer, the network of the argument arrays it finds. -/
theorem result_eq : after ops W (Proc.devRef .tc main_v104) = network (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) :=
  (congrFun (after_ops W) _).trans (at20 W)

/-- No operation of the line writes an argument. -/
theorem arg_kept (r : Ref sig .tc) (hr : r ∈ args) : after ops W (Proc.devRef .tc r) = W (Proc.devRef .tc r) :=
  (congrFun (after_ops W) _).trans
    ((upTo20 W r (List.mem_append_left _ hr)).trans (arg_at_entry W r hr))

end Cert.RefChain

end
-- ==== Proof.lean ====
/-
  The certificate of the four-layer graph-convolution network with a log-softmax classifier, computed by a kernel
  program of nine pipelined regions among host stretches, against its plain reference.

  Both programs compute, from the node features x [100000, 256], the edge array e [2, 1600000] and the weights and
  biases of four layers and a classifier, the array  logsoftmax (h₄ W_l + b_l)  with  h₁ = relu (A (x W₁) + b₁),
  h₂ = A (h₁ W₂) + b₂,  h₃ = relu (A (h₂ W₃) + b₃),  h₄ = A (h₃ W₄) + b₄,  where A aggregates rows over the graph with
  self loops and symmetric normalisation. The kernel program does the dense products, the bias steps and the
  classifier in pipelined regions over blocks of 4000 rows and the aggregation on the host; the reference does
  everything on the host. At the ideal instance a block's product with a weight matrix is the same sum as the whole
  array's, the bias steps and the classifier are row-wise, and the host operations of the aggregation are the same
  in both programs: so both end at the one function `Cert.Network.network` of the argument arrays — the kernel
  program by following its buffers through its segments (Proof/KernelChain.lean over the region lemmas), the
  reference by folding its line of host operations piece by piece (Proof/RefChain.lean). No property of the inputs
  is used: the two sides apply the same operations in the same order, entry by entry.

  The three frames: the kernel programs' are their generated frame runs; the reference's is its run with the
  result dropped. The idealization rewrote nothing, so there is nothing to preserve.
-/
import proofs.«111109_j996432412812_1_alg».proof.Defs
import proofs.«111109_j996432412812_1_alg».proof.Proof.Gen.Kernel
import proofs.«111109_j996432412812_1_alg».proof.Proof.Gen.Kernel.Skeleton
import proofs.«111109_j996432412812_1_alg».proof.Proof.Gen.Kernel.Launch
import proofs.«111109_j996432412812_1_alg».proof.Proof.Gen.Kernel.Points
import proofs.«111109_j996432412812_1_alg».proof.Proof.Gen.Kernel.Frame
import proofs.«111109_j996432412812_1_alg».proof.Proof.Gen.KernelIdeal
import proofs.«111109_j996432412812_1_alg».proof.Proof.Gen.KernelIdeal.Skeleton
import proofs.«111109_j996432412812_1_alg».proof.Proof.Gen.KernelIdeal.Launch
import proofs.«111109_j996432412812_1_alg».proof.Proof.Gen.KernelIdeal.Points
import proofs.«111109_j996432412812_1_alg».proof.Proof.Gen.KernelIdeal.Frame
import proofs.«111109_j996432412812_1_alg».proof.Proof.Gen.ReferenceIdeal
import proofs.«111109_j996432412812_1_alg».proof.Proof.Gen.Pre_finite_inputs
import proofs.«111109_j996432412812_1_alg».proof.Proof.KernelRun
import proofs.«111109_j996432412812_1_alg».proof.Proof.KernelChain
import proofs.«111109_j996432412812_1_alg».proof.Proof.RefOps
import proofs.«111109_j996432412812_1_alg».proof.Proof.RefChain
import Idealize.ShloMosaic.Adequacy
import Idealize.ShloMosaic.Init

set_option maxRecDepth 16384

noncomputable section

namespace Cert.Proof

open Idealize.ShloMosaic Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments as launched: no operation of its line writes one. -/
theorem frame_reference : Cert.frame_ReferenceIdeal := fun m ρ _ =>
  (θ_run Cert.ReferenceIdeal.defs _ _).mono (fun r h c =>
    ⟨(h c Cert.ReferenceIdeal.main_arg0).trans (Cert.RefChain.arg_kept (launchContents m c) Cert.ReferenceIdeal.main_arg0 (by decide)),
     (h c Cert.ReferenceIdeal.main_arg1).trans (Cert.RefChain.arg_kept (launchContents m c) Cert.ReferenceIdeal.main_arg1 (by decide)),
     (h c Cert.ReferenceIdeal.main_arg2).trans (Cert.RefChain.arg_kept (launchContents m c) Cert.ReferenceIdeal.main_arg2 (by decide)),
     (h c Cert.ReferenceIdeal.main_arg3).trans (Cert.RefChain.arg_kept (launchContents m c) Cert.ReferenceIdeal.main_arg3 (by decide)),
     (h c Cert.ReferenceIdeal.main_arg4).trans (Cert.RefChain.arg_kept (launchContents m c) Cert.ReferenceIdeal.main_arg4 (by decide)),
     (h c Cert.ReferenceIdeal.main_arg5).trans (Cert.RefChain.arg_kept (launchContents m c) Cert.ReferenceIdeal.main_arg5 (by decide)),
     (h c Cert.ReferenceIdeal.main_arg6).trans (Cert.RefChain.arg_kept (launchContents m c) Cert.ReferenceIdeal.main_arg6 (by decide)),
     (h c Cert.ReferenceIdeal.main_arg7).trans (Cert.RefChain.arg_kept (launchContents m c) Cert.ReferenceIdeal.main_arg7 (by decide)),
     (h c Cert.ReferenceIdeal.main_arg8).trans (Cert.RefChain.arg_kept (launchContents m c) Cert.ReferenceIdeal.main_arg8 (by decide)),
     (h c Cert.ReferenceIdeal.main_arg9).trans (Cert.RefChain.arg_kept (launchContents m c) Cert.ReferenceIdeal.main_arg9 (by decide)),
     (h c Cert.ReferenceIdeal.main_arg10).trans (Cert.RefChain.arg_kept (launchContents m c) Cert.ReferenceIdeal.main_arg10 (by decide)),
     (h c Cert.ReferenceIdeal.main_arg11).trans (Cert.RefChain.arg_kept (launchContents m c) Cert.ReferenceIdeal.main_arg11 (by decide))⟩)
    (Cert.RefOps.run_after (F := Ideal) m ρ)

theorem preserves : Cert.preserves_Kernel_KernelIdeal := trivial

/-- The result both programs end with on core `c`: the network of the kernel program's argument arrays. -/
abbrev result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v90) :=
  Cert.Network.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))

/-- From memories agreeing on the arguments both programs end at the network of the arguments. -/
theorem algebraic : Cert.algebraic_KernelIdeal_ReferenceIdeal := by
  intro m ρ m' ρ' _ hagree
  refine ⟨result m, ?_, ?_⟩
  · exact (θ_run Cert.KernelIdeal.defs _ _).mono
      (fun r h c => ⟨(h c).1.trans (Cert.KernelChain.result_eq m ρ c), (h c).2⟩)
      (Cert.KernelValue.run_result m ρ)
  · refine (θ_run Cert.ReferenceIdeal.defs _ _).mono (fun r h c => ?_) (Cert.RefOps.run_after (F := Ideal) m' ρ')
    obtain ⟨h0, h1, h2, h3, h4, h5, h6, h7, h8, h9, h10, h11⟩ := hagree c
    refine ⟨?_, (h c Cert.ReferenceIdeal.main_arg0).trans (Cert.RefChain.arg_kept (launchContents m' c) Cert.ReferenceIdeal.main_arg0 (by decide)),
      (h c Cert.ReferenceIdeal.main_arg1).trans (Cert.RefChain.arg_kept (launchContents m' c) Cert.ReferenceIdeal.main_arg1 (by decide)),
      (h c Cert.ReferenceIdeal.main_arg2).trans (Cert.RefChain.arg_kept (launchContents m' c) Cert.ReferenceIdeal.main_arg2 (by decide)),
      (h c Cert.ReferenceIdeal.main_arg3).trans (Cert.RefChain.arg_kept (launchContents m' c) Cert.ReferenceIdeal.main_arg3 (by decide)),
      (h c Cert.ReferenceIdeal.main_arg4).trans (Cert.RefChain.arg_kept (launchContents m' c) Cert.ReferenceIdeal.main_arg4 (by decide)),
      (h c Cert.ReferenceIdeal.main_arg5).trans (Cert.RefChain.arg_kept (launchContents m' c) Cert.ReferenceIdeal.main_arg5 (by decide)),
      (h c Cert.ReferenceIdeal.main_arg6).trans (Cert.RefChain.arg_kept (launchContents m' c) Cert.ReferenceIdeal.main_arg6 (by decide)),
      (h c Cert.ReferenceIdeal.main_arg7).trans (Cert.RefChain.arg_kept (launchContents m' c) Cert.ReferenceIdeal.main_arg7 (by decide)),
      (h c Cert.ReferenceIdeal.main_arg8).trans (Cert.RefChain.arg_kept (launchContents m' c) Cert.ReferenceIdeal.main_arg8 (by decide)),
      (h c Cert.ReferenceIdeal.main_arg9).trans (Cert.RefChain.arg_kept (launchContents m' c) Cert.ReferenceIdeal.main_arg9 (by decide)),
      (h c Cert.ReferenceIdeal.main_arg10).trans (Cert.RefChain.arg_kept (launchContents m' c) Cert.ReferenceIdeal.main_arg10 (by decide)),
      (h c Cert.ReferenceIdeal.main_arg11).trans (Cert.RefChain.arg_kept (launchContents m' c) Cert.ReferenceIdeal.main_arg11 (by decide))⟩
    refine ((h c Cert.ReferenceIdeal.main_v104).trans (Cert.RefChain.result_eq (launchContents m' c))).trans ?_
    show Cert.Network.network (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
